-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1024x2048 : Shape := ⟨2, ![1024, 2048]⟩
abbrev S2048 : Shape := ⟨1, ![2048]⟩
abbrev S1x2048 : Shape := ⟨2, ![1, 2048]⟩
abbrev S1x1024 : Shape := ⟨2, ![1, 1024]⟩
abbrev S8192x1024 : Shape := ⟨2, ![8192, 1024]⟩
abbrev S8192x2048 : Shape := ⟨2, ![8192, 2048]⟩
abbrev S512x1024 : Shape := ⟨2, ![512, 1024]⟩
abbrev S512x2048 : Shape := ⟨2, ![512, 2048]⟩
abbrev S4x2048x2048 : Shape := ⟨3, ![4, 2048, 2048]⟩
abbrev S1x512x1024 : Shape := ⟨3, ![1, 512, 1024]⟩
abbrev S1x256x1024 : Shape := ⟨3, ![1, 256, 1024]⟩
abbrev S1x512x1 : Shape := ⟨3, ![1, 512, 1]⟩
abbrev S1x512x256 : Shape := ⟨3, ![1, 512, 256]⟩
abbrev S1x512 : Shape := ⟨2, ![1, 512]⟩

abbrev nBuf : Space → Nat
  | .hbm => 17
  | .vmem => 23
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x2048, .f32⟩
  | .hbm, ⟨8, _⟩ => ⟨S2048, .f32⟩
  | .hbm, ⟨9, _⟩ => ⟨S1x2048, .f32⟩
  | .hbm, ⟨10, _⟩ => ⟨S1x1024, .f32⟩
  | .hbm, ⟨11, _⟩ => ⟨S8192x1024, .f32⟩
  | .hbm, ⟨12, _⟩ => ⟨S8192x2048, .f32⟩
  | .hbm, ⟨13, _⟩ => ⟨S8192x1024, .bf16⟩
  | .hbm, ⟨14, _⟩ => ⟨S4x2048x2048, .f32⟩
  | .hbm, ⟨15, _⟩ => ⟨S4x2048x1024, .bf16⟩
  | .hbm, ⟨16, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S512x1024, .f32⟩
  | .local _ .vmem, ⟨7, _⟩ => ⟨S512x1024, .f32⟩
  | .local _ .vmem, ⟨8, _⟩ => ⟨S1024x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S1x512x1024, .f32⟩
  | .local _ .vmem, ⟨13, _⟩ => ⟨S1x512x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .bf16⟩
  | .local _ .vmem, ⟨17, _⟩ => ⟨S1x256x1024, .bf16⟩
  | .local _ .vmem, ⟨18, _⟩ => ⟨S1x512x1024, .f32⟩
  | .local _ .vmem, ⟨19, _⟩ => ⟨S1x512x1024, .f32⟩
  | .local _ .vmem, ⟨20, _⟩ => ⟨S1x512x1, .f32⟩
  | .local _ .vmem, ⟨21, _⟩ => ⟨S1x512x1, .f32⟩
  | .local _ .vmem, ⟨22, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_scratch0 : Ref sig .tc := ⟨.vmem, 20, rfl⟩
abbrev cc2_scratch1 : Ref sig .tc := ⟨.vmem, 21, rfl⟩
abbrev cc2_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨3, ![4, 4, 8], ![false, false, false]⟩

def k2_cond2 (i : grid2.Coords) : BitVec 1 :=
  let arg2 : BitVec 32 := BitVec.ofNat 32 (i 2).val
  let c7_i32 : BitVec 32 := 7#32
  let v40 : BitVec 1 := Scalar.cmpi .eq arg2 c7_i32
  let v41 : BitVec 32 := Scalar.extui v40
  let c0_i32_33 : BitVec 32 := 0#32
  let v42 : BitVec 1 := Scalar.cmpi .ne v41 c0_i32_33
  v42

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg2.toNat, c1_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x256x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, true]

abbrev stage2_3 : Fin 2 → Memref sig .tc .vmem S1x512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  concatenates_S1024x1024_S1024x1024_S1024x2048_d1 : Shape.Concatenates [S1024x1024, S1024x1024] S1024x2048 1
  concatenates_S1024_S1024_S2048_d0 : Shape.Concatenates [S1024, S1024] S2048 0
  shapeCasts_S2048_S1x2048 : S2048.ShapeCasts S1x2048
  shapeCasts_S1024_S1x1024 : S1024.ShapeCasts S1x1024
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S8192x2048_S4x2048x2048 : S8192x2048.ShapeCasts S4x2048x2048
  shapeCasts_S8192x1024_S4x2048x1024 : S8192x1024.ShapeCasts S4x2048x1024
  inb_S1x512x1_S1x512x1_0_0_0 : ∀ a, (![0, 0, 0] : Fin 3 → Nat) a + S1x512x1.size a ≤ S1x512x1.size a
  h_S1x512x1 : 0 < S1x512x1.numel
  shapeCasts_S1x512x1_S1x512x1 : S1x512x1.ShapeCasts S1x512x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S1x512x1024 : S1x512x1024.ShapeCasts S1x512x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S1x256x1024 : S1x256x1024.ShapeCasts S1x256x1024
  reduces_S1x512x256_S1x512 : S1x512x256.Reduces [2] S1x512
  shapeCasts_S1x512_S1x512x1 : S1x512.ShapeCasts S1x512x1
  broadcasts_S1x512x1_S1x512x256 : S1x512x1.Broadcasts S1x512x256
  broadcasts_S1x512x1_S1x512x1024 : S1x512x1.Broadcasts S1x512x1024
  dot_S512x1024_S1024x2048_S512x2048_1_0_0_1_n_n_wf : DotDims.WF S512x1024 S1024x2048 S512x2048 [1] [0] [0] [1] [] []
  dot_S512x1024_S1024x1024_S512x1024_1_0_0_1_n_n_wf : DotDims.WF S512x1024 S1024x1024 S512x1024 [1] [0] [0] [1] [] []
  dot_S1x512x1024_S1x256x1024_S1x512x256_2_2_1_1_0_0_wf : DotDims.WF S1x512x1024 S1x256x1024 S1x512x256 [2] [2] [1] [1] [0] [0]
  dot_S1x512x256_S1x256x1024_S1x512x1024_2_1_1_2_0_0_wf : DotDims.WF S1x512x256 S1x256x1024 S1x512x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .f32 = 32 ∨ (Rect.block (s := S1024x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x2048.size a
  hwx0_3 : ∀ i : grid0.Coords, EltTy.bits .f32 = 32 ∨ (Rect.block (s := S8192x2048) S512x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .f32 = 32 ∨ (Rect.block (s := S8192x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S8192x1024.size a
  hwx1_3 : ∀ i : grid1.Coords, EltTy.bits .bf16 = 32 ∨ (Rect.block (s := S8192x1024) S512x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x1024.size a ≤ S4x2048x2048.size a
  hwx2_0 : ∀ i : grid2.Coords, EltTy.bits .f32 = 32 ∨ (Rect.block (s := S4x2048x2048) S1x512x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x256x1024.size a ≤ S4x2048x2048.size a
  hwx2_1 : ∀ i : grid2.Coords, EltTy.bits .f32 = 32 ∨ (Rect.block (s := S4x2048x2048) S1x256x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x256x1024.size a ≤ S4x2048x1024.size a
  hwx2_2 : ∀ i : grid2.Coords, EltTy.bits .bf16 = 32 ∨ (Rect.block (s := S4x2048x1024) S1x256x1024.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x1024.size a ≤ S4x2048x1024.size a
  hwx2_3 : ∀ i : grid2.Coords, EltTy.bits .f32 = 32 ∨ (Rect.block (s := S4x2048x1024) S1x512x1024.size (cc2_transform_3 i) (hinb2_3 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1x512x1024_S1x256x1024_S1x512x256_2_2_1_1_0_0 : DotDims S1x512x1024 S1x256x1024 S1x512x256 where
  lhsContracting := [2]
  rhsContracting := [2]
  lhsNonContracting := [1]
  rhsNonContracting := [1]
  lhsBatch := [0]
  rhsBatch := [0]
  wf := dot_S1x512x1024_S1x256x1024_S1x512x256_2_2_1_1_0_0_wf
def dot_S1x512x256_S1x256x1024_S1x512x1024_2_1_1_2_0_0 : DotDims S1x512x256 S1x256x1024 S1x512x1024 where
  lhsContracting := [2]
  rhsContracting := [1]
  lhsNonContracting := [1]
  rhsNonContracting := [2]
  lhsBatch := [0]
  rhsBatch := [0]
  wf := dot_S1x512x256_S1x256x1024_S1x512x1024_2_1_1_2_0_0_wf

abbrev win0_0 : Pipeline.Window sig grid0 :=
  Pipeline.Window.ofSpec (Memref.whole main_v4) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v7) S1x512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1x256x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x256x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v9) S1x512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x2048, .f32⟩
  | .hbm, ⟨20, _⟩ => ⟨S_, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S4x2048x1, .f32⟩
  | .hbm, ⟨26, _⟩ => ⟨S4x2048x2048, .f32⟩
  | .hbm, ⟨27, _⟩ => ⟨S4x2048x2048, .f32⟩
  | .hbm, ⟨28, _⟩ => ⟨S4x2048x2048, .f32⟩
  | .hbm, ⟨29, _⟩ => ⟨S_, .f32⟩
  | .hbm, ⟨30, _⟩ => ⟨S4x2048, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S_, .f32⟩
  | .hbm, ⟨35, _⟩ => ⟨S4x2048x2048, .f32⟩
  | .hbm, ⟨36, _⟩ => ⟨S4x2048x2048, .f32⟩
  | .hbm, ⟨37, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  bcast_S_S4x2048x2048 : S_.BroadcastsInDim S4x2048x2048 (![] : Fin 0 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.QKProj.lean ====
/-
  The first projection call (the fused query/key projection): what one grid point leaves in its output
  buffer, as a function of the three input blocks it finds, and the body's triple at every point.

  A grid point `t` of the 16-point grid finds rows 512·t … 512·t+511 of the flattened input, the whole
  1024×2048 weight matrix and the whole 1×2048 bias row, and stores the 512×2048 block
  `x·W + b` (the weights and the input rounded on the way into the product) over its whole output buffer.
  Nothing is kept between points: the invariant is the untouched rest of the core's scoped memory.
-/
import proofs.«133897_j52853867545194_2_alg».proof.Proof.Gen.KernelIdeal.Launch
import proofs.«133897_j52853867545194_2_alg».proof.Proof.Gen.KernelIdeal.Skeleton
import proofs.«133897_j52853867545194_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.QKProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-- Window `w`'s block at grid point `t`, read off the window's array as the call finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether the point fetched it or the
    block index stood still since the last fetch (one statement per input window: the windows are uncut, which
    is read off each literal window). -/
theorem found0_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found1_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found2_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The one rectangle each access of the body uses: the whole buffer. -/
abbrev rX : Rect S512x1024 := Rect.unit (s := S512x1024) ![0, 0] S512x1024.size inb_S512x1024_S512x1024_0_0
abbrev rW : Rect S1024x2048 := Rect.unit (s := S1024x2048) ![0, 0] S1024x2048.size inb_S1024x2048_S1024x2048_0_0
abbrev rB : Rect S1x2048 := Rect.unit (s := S1x2048) ![0, 0] S1x2048.size inb_S1x2048_S1x2048_0_0
abbrev rO : Rect S512x2048 := Rect.unit (s := S512x2048) ![0, 0] S512x2048.size inb_S512x2048_S512x2048_0_0

/-- The output buffer after the body: its one store, of the product-plus-bias of the three loads. -/
def outBlock (x : Vec F S512x1024 .f32) (w : Vec F S1024x2048 .f32) (b : Vec F S1x2048 .f32) : Vec F S512x2048 .f32 :=
  View.canon [⟨rO, k0_pay1 (View.ld x rX) (View.ld w rW) (View.ld b rB)⟩]

/-- The store covers the buffer. -/
theorem outCover (p : Vec F S512x2048 .f32) (y : S512x2048.Idx) :
    ∃ pc ∈ ([⟨rO, p⟩] : List (View.Piece (Elt F) S512x2048 .f32)), y ∈ pc.1.set :=
  View.cover_of_tiled [⟨rO, p⟩] S512x2048.size (by rfl) y

set_option maxHeartbeats 1000000 in
/-- The body on whole memrefs: the three inputs at known contents and the output at anything run to the
    inputs unchanged and the output at `outBlock` of them. -/
theorem body_triple (c : Dev nD) (E : Set ℕ) (i : grid0.Coords)
    (a1 : Memref sig .tc .vmem S512x1024 .f32) (h1 : a1.IsWhole) (a2 : Memref sig .tc .vmem S1024x2048 .f32) (h2 : a2.IsWhole)
    (a3 : Memref sig .tc .vmem S1x2048 .f32) (h3 : a3.IsWhole) (a4 : Memref sig .tc .vmem S512x2048 .f32) (h4 : a4.IsWhole)
    (x : Vec F S512x1024 .f32) (w : Vec F S1024x2048 .f32) (b : Vec F S1x2048 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d)
        ∗ (iprop(owns (c : Thread nD τ) a1 fullShare x ∗ owns (c : Thread nD τ) a2 fullShare w ∗ owns (c : Thread nD τ) a3 fullShare b
            ∗ owns (c : Thread nD τ) a4 fullShare (outBlock x w b)) -∗ K ⟨⟩))
      ⊢ wp frame (wpE (defs₀ (F := F)) Variants.none c none) E (cc0__proj_kernel i a1 h1 a2 h2 a3 h3 a4 h4) K := by
  simp only [cc0__proj_kernel_eq_skeleton]; unfold cc0__proj_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover _)

/-! ## The proof data of the call and the body obligation -/

/-- The proof data on core `c`: the arrays as the call finds them; after the body at point `t` each input
    buffer still at its block and the output buffer at `outBlock` of the three blocks; the invariant is the
    untouched scoped rest and the generator register; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => outBlock (blk V c 0 t) (blk V c 1 t) (blk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
theorem after3 (c : Dev nD) (t : Fin cfg0.N) :
    (dat V c).after 3 t = outBlock (blk V c 0 t) (blk V c 1 t) (blk V c 2 t) := by dsimp only [dat]

theorem found0 (c : Dev nD) (t : Fin cfg0.N) (d) : (dat V c).before 0 t d = blk V c 0 t :=
  found0_of V (dat V c) (A_eq V c 0) (after0 V c) t d
theorem found1 (c : Dev nD) (t : Fin cfg0.N) (d) : (dat V c).before 1 t d = blk V c 1 t :=
  found1_of V (dat V c) (A_eq V c 1) (after1 V c) t d
theorem found2 (c : Dev nD) (t : Fin cfg0.N) (d) : (dat V c).before 2 t d = blk V c 2 t :=
  found2_of V (dat V c) (A_eq V c 2) (after2 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the input buffers hold their blocks, so the triple applies; the invariant and what the
    core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [found0, found1, found2]
  rw [show (dat V c).Φ t.succ = (dat V c).Φ t.castSucc from rfl,
    show (dat V c).owesAt () t.succ = (dat V c).owesAt () t.castSucc from rfl,
    after0, after1, after2, after3]
  iintro ⟨HΦ, Ho, ⟨%d0, H0⟩, ⟨%d1, H1⟩, ⟨%d2, H2⟩, ⟨%d3, H3⟩⟩
  iapply (body_triple c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the call, at every point. -/
theorem body_obligation (c : Dev nD) : BodyObligation (dat (F := F) V c) (defs₀ (F := F)) Variants.none () Set.univ := fun t => by
  rw [bigSep_W0, bigSep_W0]
  exact sound_body V c t

end Cert.KernelIdeal.QKProj

end
-- ==== Proof.VProj.lean ====
/-
  The second projection call (the value projection): what one grid point leaves in its output buffer, as a
  function of the three input blocks it finds, and the body's triple at every point.

  A grid point `t` of the 16-point grid finds rows 512·t … 512·t+511 of the flattened input, the whole
  1024×1024 weight matrix and the whole 1×1024 bias row, and stores the 512×1024 block `x·W + b`, rounded to
  the output's narrower format, over its whole output buffer. Nothing is kept between points.
-/
import proofs.«133897_j52853867545194_2_alg».proof.Proof.Gen.KernelIdeal.Launch
import proofs.«133897_j52853867545194_2_alg».proof.Proof.Gen.KernelIdeal.Skeleton
import proofs.«133897_j52853867545194_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.VProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-- Window `w`'s block at grid point `t`, read off the window's array as the call finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether the point fetched it or the
    block index stood still since the last fetch (one statement per input window: the windows are uncut, which
    is read off each literal window). -/
theorem found0_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found1_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found2_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The one rectangle each access of the body uses: the whole buffer. -/
abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0
abbrev rO : Rect S512x1024 := Rect.unit (s := S512x1024) ![0, 0] S512x1024.size inb_S512x1024_S512x1024_0_0

/-- The output buffer after the body: its one store, of the product-plus-bias of the three loads. -/
def outBlock (x : Vec F S512x1024 .f32) (w : Vec F S1024x1024 .f32) (b : Vec F S1x1024 .f32) : Vec F S512x1024 .bf16 :=
  View.canon [⟨rO, k1_pay1 (View.ld x rX) (View.ld w rW) (View.ld b rB)⟩]

/-- The store covers the buffer. -/
theorem outCover (p : Vec F S512x1024 .bf16) (y : S512x1024.Idx) :
    ∃ pc ∈ ([⟨rO, p⟩] : List (View.Piece (Elt F) S512x1024 .bf16)), y ∈ pc.1.set :=
  View.cover_of_tiled [⟨rO, p⟩] S512x1024.size (by rfl) y

set_option maxHeartbeats 1000000 in
/-- The body on whole memrefs: the three inputs at known contents and the output at anything run to the
    inputs unchanged and the output at `outBlock` of them. -/
theorem body_triple (c : Dev nD) (E : Set ℕ) (i : grid1.Coords)
    (a1 : Memref sig .tc .vmem S512x1024 .f32) (h1 : a1.IsWhole) (a2 : Memref sig .tc .vmem S1024x1024 .f32) (h2 : a2.IsWhole)
    (a3 : Memref sig .tc .vmem S1x1024 .f32) (h3 : a3.IsWhole) (a4 : Memref sig .tc .vmem S512x1024 .bf16) (h4 : a4.IsWhole)
    (x : Vec F S512x1024 .f32) (w : Vec F S1024x1024 .f32) (b : Vec F S1x1024 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d)
        ∗ (iprop(owns (c : Thread nD τ) a1 fullShare x ∗ owns (c : Thread nD τ) a2 fullShare w ∗ owns (c : Thread nD τ) a3 fullShare b
            ∗ owns (c : Thread nD τ) a4 fullShare (outBlock x w b)) -∗ K ⟨⟩))
      ⊢ wp frame (wpE (defs₀ (F := F)) Variants.none c none) E (cc1__proj_kernel i a1 h1 a2 h2 a3 h3 a4 h4) K := by
  simp only [cc1__proj_kernel_eq_skeleton]; unfold cc1__proj_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover _)

/-! ## The proof data of the call and the body obligation -/

/-- The proof data on core `c`: the arrays as the call finds them; after the body at point `t` each input
    buffer still at its block and the output buffer at `outBlock` of the three blocks; the invariant is the
    untouched scoped rest and the generator register; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => outBlock (blk V c 0 t) (blk V c 1 t) (blk V c 2 t)
  Φ _ := Pipeline.ΦA spec1 c
  q _ := fullShare
  owed _ := 0

theorem A_eq (c : Dev nD) (w : Fin cfg1.W) : (dat V c).A w = V c (Pipeline.arrRef spec1 w) := by
  dsimp only [dat]

theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = blk V c 2 t := by dsimp only [dat]
theorem after3 (c : Dev nD) (t : Fin cfg1.N) :
    (dat V c).after 3 t = outBlock (blk V c 0 t) (blk V c 1 t) (blk V c 2 t) := by dsimp only [dat]

theorem found0 (c : Dev nD) (t : Fin cfg1.N) (d) : (dat V c).before 0 t d = blk V c 0 t :=
  found0_of V (dat V c) (A_eq V c 0) (after0 V c) t d
theorem found1 (c : Dev nD) (t : Fin cfg1.N) (d) : (dat V c).before 1 t d = blk V c 1 t :=
  found1_of V (dat V c) (A_eq V c 1) (after1 V c) t d
theorem found2 (c : Dev nD) (t : Fin cfg1.N) (d) : (dat V c).before 2 t d = blk V c 2 t :=
  found2_of V (dat V c) (A_eq V c 2) (after2 V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the input buffers hold their blocks, so the triple applies; the invariant and what the
    core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [found0, found1, found2]
  rw [show (dat V c).Φ t.succ = (dat V c).Φ t.castSucc from rfl,
    show (dat V c).owesAt () t.succ = (dat V c).owesAt () t.castSucc from rfl,
    after0, after1, after2, after3]
  iintro ⟨HΦ, Ho, ⟨%d0, H0⟩, ⟨%d1, H1⟩, ⟨%d2, H2⟩, ⟨%d3, H3⟩⟩
  iapply (body_triple c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the call, at every point. -/
theorem body_obligation (c : Dev nD) : BodyObligation (dat (F := F) V c) (defs₀ (F := F)) Variants.none () Set.univ := fun t => by
  rw [bigSep_W1, bigSep_W1]
  exact sound_body V c t

end Cert.KernelIdeal.VProj

end
-- ==== Proof.Flash.Conds.lean ====
/-
  The attention call: where on its 4×4×8 grid the body's two branches are taken, and where its output
  window is idle.

  The innermost grid coordinate walks the eight key/value blocks of one (batch, query tile) pair. The first
  branch (resetting the running maximum, the running denominator and the accumulator) is taken exactly at
  the first of the eight; the second (normalising the accumulator and storing the output tile) exactly at the
  last. Elsewhere the output buffer is neither stored into nor written back.
-/
import proofs.«133897_j52853867545194_2_alg».proof.Proof.Gen.KernelIdeal.Launch
import proofs.«133897_j52853867545194_2_alg».proof.Proof.Gen.KernelIdeal.Skeleton
import proofs.«133897_j52853867545194_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The reset branch's condition, from the grid coordinates. -/
abbrev condFirst (i : grid2.Coords) : Prop :=
  (Scalar.cmpi .ne (Scalar.extui (Scalar.cmpi .eq (BitVec.ofNat 32 (i 2).val) 0#32)) 0#32) = 1#1
/-- It holds at the points ≡ 0 (mod 8). -/
theorem condFirst_iff : ∀ t : Fin cfg2.N, condFirst (grid2.coords t) ↔ t.val % 8 = 0 :=
  (by decide +kernel : ∀ t : Fin grid2.N, condFirst (grid2.coords t) ↔ t.val % 8 = 0)

/-- The output branch's condition. -/
abbrev condLast (i : grid2.Coords) : Prop := k2_cond2 i = 1#1
/-- It holds at the points ≡ 7 (mod 8). -/
theorem condLast_iff : ∀ t : Fin cfg2.N, condLast (grid2.coords t) ↔ t.val % 8 = 7 :=
  (by decide +kernel : ∀ t : Fin grid2.N, condLast (grid2.coords t) ↔ t.val % 8 = 7)

/-- The input windows are never idle. -/
theorem live0 : ∀ t : Fin cfg2.N, cfg2.idle 0 (grid2.coords t) = false := by decide +kernel
theorem live1 : ∀ t : Fin cfg2.N, cfg2.idle 1 (grid2.coords t) = false := by decide +kernel
theorem live2 : ∀ t : Fin cfg2.N, cfg2.idle 2 (grid2.coords t) = false := by decide +kernel
/-- The output window is idle, and not written back, away from the last key/value block; -/
theorem idle3 : ∀ t : Fin cfg2.N, ¬condLast (grid2.coords t) → cfg2.idle 3 (grid2.coords t) = true := by decide +kernel
theorem noFlush3 : ∀ t : Fin cfg2.N, ¬condLast (grid2.coords t) → (cfg2.win 3).flush t = false := by decide +kernel
/-- and live there. -/
theorem live3 : ∀ t : Fin cfg2.N, condLast (grid2.coords t) → cfg2.idle 3 (grid2.coords t) = false := by decide +kernel

/-- The windows' current staging memrefs at a point, as the pipeline passes them, and their wholeness. -/
abbrev mQ (t : Fin cfg2.N) : Memref sig .tc .vmem S1x512x1024 .f32 := win2_0.stage (cfg2.slots t 0)
abbrev hQ (t : Fin cfg2.N) : (mQ t).IsWhole := hstage2_0 ((cfg2.slots t 0).cast nbuf2_0)
abbrev mK (t : Fin cfg2.N) : Memref sig .tc .vmem S1x256x1024 .f32 := win2_1.stage (cfg2.slots t 1)
abbrev hK (t : Fin cfg2.N) : (mK t).IsWhole := hstage2_1 ((cfg2.slots t 1).cast nbuf2_1)
abbrev mV (t : Fin cfg2.N) : Memref sig .tc .vmem S1x256x1024 .bf16 := win2_2.stage (cfg2.slots t 2)
abbrev hV (t : Fin cfg2.N) : (mV t).IsWhole := hstage2_2 ((cfg2.slots t 2).cast nbuf2_2)
abbrev mO (t : Fin cfg2.N) : Memref sig .tc .vmem S1x512x1024 .f32 := win2_3.stage (cfg2.slots t 3)
abbrev hO (t : Fin cfg2.N) : (mO t).IsWhole := hstage2_3 ((cfg2.slots t 3).cast nbuf2_3)
/-- The three scratch operands: the running maximum, the running denominator, the accumulator. -/
abbrev sM : Memref sig .tc .vmem S1x512x1 .f32 := Memref.whole cc2_scratch0
abbrev sL : Memref sig .tc .vmem S1x512x1 .f32 := Memref.whole cc2_scratch1
abbrev sA : Memref sig .tc .vmem S1x512x1024 .f32 := Memref.whole cc2_scratch2
/-- One staging buffer of the output window, through which its contents are stated. -/
abbrev vO : View sig .tc .vmem S1x512x1024 .f32 := (Memref.whole cc2_stg3_0 : Memref sig .tc .vmem S1x512x1024 .f32).view

end Cert.KernelIdeal.Flash

end
-- ==== Proof.Flash.RunFirst.lean ====
/-
  The attention call's body, run once at a first key/value block: the reset branch taken, the output branch not.
-/
import proofs.«133897_j52853867545194_2_alg».proof.Proof.Gen.KernelIdeal.Launch
import proofs.«133897_j52853867545194_2_alg».proof.Proof.Gen.KernelIdeal.Skeleton
import proofs.«133897_j52853867545194_2_alg».proof.Proof.Gen.KernelIdeal.Points
import proofs.«133897_j52853867545194_2_alg».proof.Proof.Flash.Conds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave in the scratch buffers, as pieces (last first), with the proof that on whole
    memrefs — the three inputs at their contents, the scratch buffers at anything —
    the body runs to the continuation holding the inputs as they were and each stored buffer with its pieces
    written. The pieces are what the run finds. -/
noncomputable def runFirst (c : Dev nD) (i : grid2.Coords)
    (a3 : Memref sig .tc .vmem S1x512x1024 .f32) (h3 : a3.IsWhole) (a4 : Memref sig .tc .vmem S1x256x1024 .f32) (h4 : a4.IsWhole)
    (a5 : Memref sig .tc .vmem S1x256x1024 .bf16) (h5 : a5.IsWhole) (a6 : Memref sig .tc .vmem S1x512x1024 .f32) (h6 : a6.IsWhole)
    (a7 : Memref sig .tc .vmem S1x512x1 .f32) (h7 : a7.IsWhole) (a8 : Memref sig .tc .vmem S1x512x1 .f32) (h8 : a8.IsWhole)
    (a9 : Memref sig .tc .vmem S1x512x1024 .f32) (h9 : a9.IsWhole)
    (hc1 : condFirst i) (hc2 : ¬condLast i)
    (xq : Vec F S1x512x1024 .f32) (xk : Vec F S1x256x1024 .f32) (xv : Vec F S1x256x1024 .bf16) :
    Σ' (LM : List (View.Piece (Elt F) S1x512x1 .f32)) (LL : List (View.Piece (Elt F) S1x512x1 .f32)), { LA : List (View.Piece (Elt F) S1x512x1024 .f32) //
      ∀ (E : Set ℕ) (K : PUnit → sProp 𝕄),
        iprop(owns (c : Thread nD τ) a3 fullShare xq ∗ owns (c : Thread nD τ) a4 fullShare xk ∗ owns (c : Thread nD τ) a5 fullShare xv
            ∗ (∃ d, owns (c : Thread nD τ) a7 fullShare d) ∗ (∃ d, owns (c : Thread nD τ) a8 fullShare d) ∗ (∃ d, owns (c : Thread nD τ) a9 fullShare d)
            ∗ (iprop(owns (c : Thread nD τ) a3 fullShare xq ∗ owns (c : Thread nD τ) a4 fullShare xk ∗ owns (c : Thread nD τ) a5 fullShare xv
                ∗ (∃ f, a7.view.loc (c : Thread nD τ) ↦[a7.view.set]{fullShare} a7.view.writes (Elt F) f LM) ∗ (∃ f, a8.view.loc (c : Thread nD τ) ↦[a8.view.set]{fullShare} a8.view.writes (Elt F) f LL) ∗ (∃ f, a9.view.loc (c : Thread nD τ) ↦[a9.view.set]{fullShare} a9.view.writes (Elt F) f LA)) -∗ K ⟨⟩))
          ⊢ wp frame (wpE (defs₀ (F := F)) Variants.none c none) E (cc2__flash_kernel i a3 h3 a4 h4 a5 h5 a6 h6 a7 h7 a8 h8 a9 h9) K } := by
  refine ⟨?_, ?_, ?_, fun E K => ?run⟩
  case run =>
    simp only [cc2__flash_kernel_eq_skeleton]; unfold cc2__flash_kernel_skel
    unfold owns
    iintro ⟨⟨%f3, %hf3, H3⟩, ⟨%f4, %hf4, H4⟩, ⟨%f5, %hf5, H5⟩, ⟨%d7, %f7, -, H7⟩, ⟨%d8, %f8, -, H8⟩, ⟨%d9, %f9, -, H9⟩, Hk⟩
    obtain rfl := h3.eq_unread hf3; obtain rfl := h4.eq_unread hf4; obtain rfl := h5.eq_unread hf5
    sl_exec (disch := first | exact hc1 | exact hc2)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H7]; · iexists _; iexact H7
    isplitl [H8]; · iexists _; iexact H8
    iexists _; iexact H9

end Cert.KernelIdeal.Flash

end
-- ==== Proof.Flash.RunMid.lean ====
/-
  The attention call's body, run once at a key/value block that is neither the first nor the last: neither branch taken.
-/
import proofs.«133897_j52853867545194_2_alg».proof.Proof.Gen.KernelIdeal.Launch
import proofs.«133897_j52853867545194_2_alg».proof.Proof.Gen.KernelIdeal.Skeleton
import proofs.«133897_j52853867545194_2_alg».proof.Proof.Gen.KernelIdeal.Points
import proofs.«133897_j52853867545194_2_alg».proof.Proof.Flash.Conds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave in the scratch buffers, as pieces (last first), with the proof that on whole
    memrefs — the three inputs at their contents, the scratch buffers at what the point before left —
    the body runs to the continuation holding the inputs as they were and each stored buffer with its pieces
    written. The pieces are what the run finds. -/
noncomputable def runMid (c : Dev nD) (i : grid2.Coords)
    (a3 : Memref sig .tc .vmem S1x512x1024 .f32) (h3 : a3.IsWhole) (a4 : Memref sig .tc .vmem S1x256x1024 .f32) (h4 : a4.IsWhole)
    (a5 : Memref sig .tc .vmem S1x256x1024 .bf16) (h5 : a5.IsWhole) (a6 : Memref sig .tc .vmem S1x512x1024 .f32) (h6 : a6.IsWhole)
    (a7 : Memref sig .tc .vmem S1x512x1 .f32) (h7 : a7.IsWhole) (a8 : Memref sig .tc .vmem S1x512x1 .f32) (h8 : a8.IsWhole)
    (a9 : Memref sig .tc .vmem S1x512x1024 .f32) (h9 : a9.IsWhole)
    (hc1 : ¬condFirst i) (hc2 : ¬condLast i)
    (xq : Vec F S1x512x1024 .f32) (xk : Vec F S1x256x1024 .f32) (xv : Vec F S1x256x1024 .bf16)
    (xm : Vec F S1x512x1 .f32) (xl : Vec F S1x512x1 .f32) (xa : Vec F S1x512x1024 .f32) :
    Σ' (LM : List (View.Piece (Elt F) S1x512x1 .f32)) (LL : List (View.Piece (Elt F) S1x512x1 .f32)), { LA : List (View.Piece (Elt F) S1x512x1024 .f32) //
      ∀ (E : Set ℕ) (K : PUnit → sProp 𝕄),
        iprop(owns (c : Thread nD τ) a3 fullShare xq ∗ owns (c : Thread nD τ) a4 fullShare xk ∗ owns (c : Thread nD τ) a5 fullShare xv
            ∗ owns (c : Thread nD τ) a7 fullShare xm ∗ owns (c : Thread nD τ) a8 fullShare xl ∗ owns (c : Thread nD τ) a9 fullShare xa
            ∗ (iprop(owns (c : Thread nD τ) a3 fullShare xq ∗ owns (c : Thread nD τ) a4 fullShare xk ∗ owns (c : Thread nD τ) a5 fullShare xv
                ∗ (∃ f, a7.view.loc (c : Thread nD τ) ↦[a7.view.set]{fullShare} a7.view.writes (Elt F) f LM) ∗ (∃ f, a8.view.loc (c : Thread nD τ) ↦[a8.view.set]{fullShare} a8.view.writes (Elt F) f LL) ∗ (∃ f, a9.view.loc (c : Thread nD τ) ↦[a9.view.set]{fullShare} a9.view.writes (Elt F) f LA)) -∗ K ⟨⟩))
          ⊢ wp frame (wpE (defs₀ (F := F)) Variants.none c none) E (cc2__flash_kernel i a3 h3 a4 h4 a5 h5 a6 h6 a7 h7 a8 h8 a9 h9) K } := by
  refine ⟨?_, ?_, ?_, fun E K => ?run⟩
  case run =>
    simp only [cc2__flash_kernel_eq_skeleton]; unfold cc2__flash_kernel_skel
    unfold owns
    iintro ⟨⟨%f3, %hf3, H3⟩, ⟨%f4, %hf4, H4⟩, ⟨%f5, %hf5, H5⟩, ⟨%f7, %hf7, H7⟩, ⟨%f8, %hf8, H8⟩, ⟨%f9, %hf9, H9⟩, Hk⟩
    obtain rfl := h3.eq_unread hf3; obtain rfl := h4.eq_unread hf4; obtain rfl := h5.eq_unread hf5
    obtain rfl := h7.eq_unread hf7; obtain rfl := h8.eq_unread hf8; obtain rfl := h9.eq_unread hf9
    sl_exec (disch := first | exact hc1 | exact hc2)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H7]; · iexists _; iexact H7
    isplitl [H8]; · iexists _; iexact H8
    iexists _; iexact H9

end Cert.KernelIdeal.Flash

end
-- ==== Proof.Flash.RunLast.lean ====
/-
  The attention call's body, run once at a last key/value block: the reset branch not taken, the output branch taken.
-/
import proofs.«133897_j52853867545194_2_alg».proof.Proof.Gen.KernelIdeal.Launch
import proofs.«133897_j52853867545194_2_alg».proof.Proof.Gen.KernelIdeal.Skeleton
import proofs.«133897_j52853867545194_2_alg».proof.Proof.Gen.KernelIdeal.Points
import proofs.«133897_j52853867545194_2_alg».proof.Proof.Flash.Conds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave in the scratch buffers and the output buffer, as pieces (last first), with the proof that on whole
    memrefs — the three inputs at their contents, the scratch buffers at what the point before left —
    the body runs to the continuation holding the inputs as they were and each stored buffer with its pieces
    written. The pieces are what the run finds. -/
noncomputable def runLast (c : Dev nD) (i : grid2.Coords)
    (a3 : Memref sig .tc .vmem S1x512x1024 .f32) (h3 : a3.IsWhole) (a4 : Memref sig .tc .vmem S1x256x1024 .f32) (h4 : a4.IsWhole)
    (a5 : Memref sig .tc .vmem S1x256x1024 .bf16) (h5 : a5.IsWhole) (a6 : Memref sig .tc .vmem S1x512x1024 .f32) (h6 : a6.IsWhole)
    (a7 : Memref sig .tc .vmem S1x512x1 .f32) (h7 : a7.IsWhole) (a8 : Memref sig .tc .vmem S1x512x1 .f32) (h8 : a8.IsWhole)
    (a9 : Memref sig .tc .vmem S1x512x1024 .f32) (h9 : a9.IsWhole)
    (hc1 : ¬condFirst i) (hc2 : condLast i)
    (xq : Vec F S1x512x1024 .f32) (xk : Vec F S1x256x1024 .f32) (xv : Vec F S1x256x1024 .bf16)
    (xm : Vec F S1x512x1 .f32) (xl : Vec F S1x512x1 .f32) (xa : Vec F S1x512x1024 .f32) :
    Σ' (LO : List (View.Piece (Elt F) S1x512x1024 .f32)) (LM : List (View.Piece (Elt F) S1x512x1 .f32)) (LL : List (View.Piece (Elt F) S1x512x1 .f32)), { LA : List (View.Piece (Elt F) S1x512x1024 .f32) //
      ∀ (E : Set ℕ) (K : PUnit → sProp 𝕄),
        iprop(owns (c : Thread nD τ) a3 fullShare xq ∗ owns (c : Thread nD τ) a4 fullShare xk ∗ owns (c : Thread nD τ) a5 fullShare xv
            ∗ (∃ d, owns (c : Thread nD τ) a6 fullShare d)
            ∗ owns (c : Thread nD τ) a7 fullShare xm ∗ owns (c : Thread nD τ) a8 fullShare xl ∗ owns (c : Thread nD τ) a9 fullShare xa
            ∗ (iprop(owns (c : Thread nD τ) a3 fullShare xq ∗ owns (c : Thread nD τ) a4 fullShare xk ∗ owns (c : Thread nD τ) a5 fullShare xv
                ∗ (∃ f, a6.view.loc (c : Thread nD τ) ↦[a6.view.set]{fullShare} a6.view.writes (Elt F) f LO)
                ∗ (∃ f, a7.view.loc (c : Thread nD τ) ↦[a7.view.set]{fullShare} a7.view.writes (Elt F) f LM) ∗ (∃ f, a8.view.loc (c : Thread nD τ) ↦[a8.view.set]{fullShare} a8.view.writes (Elt F) f LL) ∗ (∃ f, a9.view.loc (c : Thread nD τ) ↦[a9.view.set]{fullShare} a9.view.writes (Elt F) f LA)) -∗ K ⟨⟩))
          ⊢ wp frame (wpE (defs₀ (F := F)) Variants.none c none) E (cc2__flash_kernel i a3 h3 a4 h4 a5 h5 a6 h6 a7 h7 a8 h8 a9 h9) K } := by
  refine ⟨?_, ?_, ?_, ?_, fun E K => ?run⟩
  case run =>
    simp only [cc2__flash_kernel_eq_skeleton]; unfold cc2__flash_kernel_skel
    unfold owns
    iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := h3.eq_unread hf3; obtain rfl := h4.eq_unread hf4; obtain rfl := h5.eq_unread hf5
    obtain rfl := h7.eq_unread hf7; obtain rfl := h8.eq_unread hf8; obtain rfl := h9.eq_unread hf9
    sl_exec (disch := first | exact hc1 | exact hc2)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [H7]; · iexists _; iexact H7
    isplitl [H8]; · iexists _; iexact H8
    iexists _; iexact H9

end Cert.KernelIdeal.Flash

end
-- ==== Proof.Flash.Scratch.lean ====
/-
  The attention call: what its three scratch buffers hold after every grid point, its proof data, and the body
  obligation.

  The 128 grid points run in order; the innermost coordinate walks the eight key/value blocks of one (batch,
  query tile) pair. After each point the three scratch buffers hold the running row maximum, the running
  denominator and the running accumulator of the online softmax over the key/value blocks met so far: at the
  first block they are computed from the reset values, afterwards from what the point before left. At the last
  block the output buffer receives the normalised, scaled accumulator; elsewhere it is idle.
-/
import proofs.«133897_j52853867545194_2_alg».proof.Proof.Gen.KernelIdeal.Launch
import proofs.«133897_j52853867545194_2_alg».proof.Proof.Gen.KernelIdeal.Skeleton
import proofs.«133897_j52853867545194_2_alg».proof.Proof.Gen.KernelIdeal.Points
import proofs.«133897_j52853867545194_2_alg».proof.Proof.Flash.RunFirst
import proofs.«133897_j52853867545194_2_alg».proof.Proof.Flash.RunMid
import proofs.«133897_j52853867545194_2_alg».proof.Proof.Flash.RunLast
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-- Window `w`'s block at grid point `t`, read off the window's array as the call finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not. -/
theorem found0_of {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found1_of {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found2_of {c : Dev nD} (dat : Dat τ (Elt F) Unit ℕ (UR sig nD τ) ℕ cfg2 c) (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## What the scratch buffers hold after each point -/

/-- The running maximum, the running denominator and the accumulator. -/
abbrev Scr (F : FTy → Type) : Type := Vec F S1x512x1 .f32 × Vec F S1x512x1 .f32 × Vec F S1x512x1024 .f32

/-- A list of stores read back as one buffer's contents (the contents before them do not matter once they cover). -/
def rdM (L : List (View.Piece (Elt F) S1x512x1 .f32)) : Vec F S1x512x1 .f32 :=
  sM.view.read (Elt F) (sM.view.writes (Elt F) sM.view.junk L)
def rdL (L : List (View.Piece (Elt F) S1x512x1 .f32)) : Vec F S1x512x1 .f32 :=
  sL.view.read (Elt F) (sL.view.writes (Elt F) sL.view.junk L)
def rdA (L : List (View.Piece (Elt F) S1x512x1024 .f32)) : Vec F S1x512x1024 .f32 :=
  sA.view.read (Elt F) (sA.view.writes (Elt F) sA.view.junk L)
def rdO (L : List (View.Piece (Elt F) S1x512x1024 .f32)) : Vec F S1x512x1024 .f32 :=
  vO.read (Elt F) (vO.writes (Elt F) vO.junk L)

theorem notLast_of_first (t : Fin cfg2.N) (h : t.val % 8 = 0) : ¬condLast (grid2.coords t) :=
  fun hl => by have := (condLast_iff t).mp hl; omega

/-- The run at a first key/value block, on the point's buffers and blocks. -/
def runFirstAt (c : Dev nD) (t : Fin cfg2.N) (h : t.val % 8 = 0) :=
  runFirst (F := F) c (grid2.coords t) (mQ t) (hQ t) (mK t) (hK t) (mV t) (hV t) (mO t) (hO t) sM (Memref.isWhole_whole _) sL (Memref.isWhole_whole _) sA (Memref.isWhole_whole _) ((condFirst_iff t).mpr h) (notLast_of_first t h) (blk V c 0 t) (blk V c 1 t) (blk V c 2 t)
/-- The run at a block neither first nor last, from what the point before left. -/
def runMidAt (c : Dev nD) (t : Fin cfg2.N) (h1 : ¬t.val % 8 = 0) (h2 : ¬t.val % 8 = 7) (s : Scr F) :=
  runMid (F := F) c (grid2.coords t) (mQ t) (hQ t) (mK t) (hK t) (mV t) (hV t) (mO t) (hO t) sM (Memref.isWhole_whole _) sL (Memref.isWhole_whole _) sA (Memref.isWhole_whole _) (fun h => h1 ((condFirst_iff t).mp h)) (fun h => h2 ((condLast_iff t).mp h)) (blk V c 0 t) (blk V c 1 t) (blk V c 2 t) s.1 s.2.1 s.2.2
/-- The run at a last block. -/
def runLastAt (c : Dev nD) (t : Fin cfg2.N) (h1 : ¬t.val % 8 = 0) (h2 : t.val % 8 = 7) (s : Scr F) :=
  runLast (F := F) c (grid2.coords t) (mQ t) (hQ t) (mK t) (hK t) (mV t) (hV t) (mO t) (hO t) sM (Memref.isWhole_whole _) sL (Memref.isWhole_whole _) sA (Memref.isWhole_whole _) (fun h => h1 ((condFirst_iff t).mp h)) ((condLast_iff t).mpr h2) (blk V c 0 t) (blk V c 1 t) (blk V c 2 t) s.1 s.2.1 s.2.2

/-- The scratch contents after point `n`, by recursion on the point. -/
def scr (c : Dev nD) : (n : ℕ) → n < cfg2.N → Scr F
  | 0, hn => (rdM (runFirstAt V c ⟨0, hn⟩ rfl).1, rdL (runFirstAt V c ⟨0, hn⟩ rfl).2.1, rdA (runFirstAt V c ⟨0, hn⟩ rfl).2.2.1)
  | n + 1, hn =>
    if h1 : (n + 1) % 8 = 0 then
      (rdM (runFirstAt V c ⟨n + 1, hn⟩ h1).1, rdL (runFirstAt V c ⟨n + 1, hn⟩ h1).2.1, rdA (runFirstAt V c ⟨n + 1, hn⟩ h1).2.2.1)
    else if h2 : (n + 1) % 8 = 7 then
      (rdM (runLastAt V c ⟨n + 1, hn⟩ h1 h2 (scr c n (Nat.lt_of_succ_lt hn))).2.1,
       rdL (runLastAt V c ⟨n + 1, hn⟩ h1 h2 (scr c n (Nat.lt_of_succ_lt hn))).2.2.1,
       rdA (runLastAt V c ⟨n + 1, hn⟩ h1 h2 (scr c n (Nat.lt_of_succ_lt hn))).2.2.2.1)
    else
      (rdM (runMidAt V c ⟨n + 1, hn⟩ h1 h2 (scr c n (Nat.lt_of_succ_lt hn))).1,
       rdL (runMidAt V c ⟨n + 1, hn⟩ h1 h2 (scr c n (Nat.lt_of_succ_lt hn))).2.1,
       rdA (runMidAt V c ⟨n + 1, hn⟩ h1 h2 (scr c n (Nat.lt_of_succ_lt hn))).2.2.1)

/-- What the point before `t` left (for a point that is not the first of all). -/
def prev (c : Dev nD) (t : Fin cfg2.N) : Scr F :=
  if hz : t.val = 0 then scr V c 0 (by rw [← hz]; exact t.isLt)
  else scr V c (t.val - 1) (Nat.lt_of_le_of_lt (Nat.sub_le _ _) t.isLt)

theorem scr_first (c : Dev nD) (t : Fin cfg2.N) (h : t.val % 8 = 0) :
    scr V c t.val t.isLt = (rdM (runFirstAt V c t h).1, rdL (runFirstAt V c t h).2.1, rdA (runFirstAt V c t h).2.2.1) := by
  obtain ⟨n, hn⟩ := t
  cases n with
  | zero => rfl
  | succ n => exact dif_pos h

theorem scr_mid (c : Dev nD) (t : Fin cfg2.N) (h1 : ¬t.val % 8 = 0) (h2 : ¬t.val % 8 = 7) :
    scr V c t.val t.isLt = (rdM (runMidAt V c t h1 h2 (prev V c t)).1, rdL (runMidAt V c t h1 h2 (prev V c t)).2.1, rdA (runMidAt V c t h1 h2 (prev V c t)).2.2.1) := by
  obtain ⟨n, hn⟩ := t
  cases n with
  | zero => exact absurd (Nat.zero_mod _) h1
  | succ n =>
    have hp : prev V c ⟨n + 1, hn⟩ = scr V c n (Nat.lt_of_succ_lt hn) := by unfold prev; exact dif_neg (Nat.succ_ne_zero n)
    rw [hp]
    exact (dif_neg h1).trans (dif_neg h2)

theorem scr_last (c : Dev nD) (t : Fin cfg2.N) (h1 : ¬t.val % 8 = 0) (h2 : t.val % 8 = 7) :
    scr V c t.val t.isLt = (rdM (runLastAt V c t h1 h2 (prev V c t)).2.1, rdL (runLastAt V c t h1 h2 (prev V c t)).2.2.1, rdA (runLastAt V c t h1 h2 (prev V c t)).2.2.2.1) := by
  obtain ⟨n, hn⟩ := t
  cases n with
  | zero => exact absurd (Nat.zero_mod _) h1
  | succ n =>
    have hp : prev V c ⟨n + 1, hn⟩ = scr V c n (Nat.lt_of_succ_lt hn) := by unfold prev; exact dif_neg (Nat.succ_ne_zero n)
    rw [hp]
    exact (dif_neg h1).trans (dif_pos h2)

/-- What the output buffer holds after point `t`: at a last key/value block, the run's store read back; elsewhere
    nothing is stored and nothing consults this. -/
def outAt (c : Dev nD) (t : Fin cfg2.N) : Vec F S1x512x1024 .f32 :=
  if h2 : t.val % 8 = 7 then rdO (runLastAt V c t (by omega) h2 (prev V c t)).1 else rdO []

theorem outAt_last (c : Dev nD) (t : Fin cfg2.N) (h1 : ¬t.val % 8 = 0) (h2 : t.val % 8 = 7) :
    outAt V c t = rdO (runLastAt V c t h1 h2 (prev V c t)).1 := dif_pos h2

/-! ## The stores cover their buffers -/

theorem coverFirstM (c : Dev nD) (t : Fin cfg2.N) (h : t.val % 8 = 0) (y : S1x512x1.Idx) : ∃ pc ∈ (runFirstAt V c t h).1, y ∈ pc.1.set :=
  View.cover_of_tiledL (runFirstAt V c t h).1 S1x512x1.size (by sl_kernel_rfl) y
theorem coverFirstL (c : Dev nD) (t : Fin cfg2.N) (h : t.val % 8 = 0) (y : S1x512x1.Idx) : ∃ pc ∈ (runFirstAt V c t h).2.1, y ∈ pc.1.set :=
  View.cover_of_tiledL (runFirstAt V c t h).2.1 S1x512x1.size (by sl_kernel_rfl) y
theorem coverFirstA (c : Dev nD) (t : Fin cfg2.N) (h : t.val % 8 = 0) (y : S1x512x1024.Idx) : ∃ pc ∈ (runFirstAt V c t h).2.2.1, y ∈ pc.1.set :=
  View.cover_of_tiledL (runFirstAt V c t h).2.2.1 S1x512x1024.size (by sl_kernel_rfl) y
theorem coverMidM (c : Dev nD) (t : Fin cfg2.N) (h1 h2) (s : Scr F) (y : S1x512x1.Idx) : ∃ pc ∈ (runMidAt V c t h1 h2 s).1, y ∈ pc.1.set :=
  View.cover_of_tiledL (runMidAt V c t h1 h2 s).1 S1x512x1.size (by sl_kernel_rfl) y
theorem coverMidL (c : Dev nD) (t : Fin cfg2.N) (h1 h2) (s : Scr F) (y : S1x512x1.Idx) : ∃ pc ∈ (runMidAt V c t h1 h2 s).2.1, y ∈ pc.1.set :=
  View.cover_of_tiledL (runMidAt V c t h1 h2 s).2.1 S1x512x1.size (by sl_kernel_rfl) y
theorem coverMidA (c : Dev nD) (t : Fin cfg2.N) (h1 h2) (s : Scr F) (y : S1x512x1024.Idx) : ∃ pc ∈ (runMidAt V c t h1 h2 s).2.2.1, y ∈ pc.1.set :=
  View.cover_of_tiledL (runMidAt V c t h1 h2 s).2.2.1 S1x512x1024.size (by sl_kernel_rfl) y
theorem coverLastO (c : Dev nD) (t : Fin cfg2.N) (h1 h2) (s : Scr F) (y : S1x512x1024.Idx) : ∃ pc ∈ (runLastAt V c t h1 h2 s).1, y ∈ pc.1.set :=
  View.cover_of_tiledL (runLastAt V c t h1 h2 s).1 S1x512x1024.size (by sl_kernel_rfl) y
theorem coverLastM (c : Dev nD) (t : Fin cfg2.N) (h1 h2) (s : Scr F) (y : S1x512x1.Idx) : ∃ pc ∈ (runLastAt V c t h1 h2 s).2.1, y ∈ pc.1.set :=
  View.cover_of_tiledL (runLastAt V c t h1 h2 s).2.1 S1x512x1.size (by sl_kernel_rfl) y
theorem coverLastL (c : Dev nD) (t : Fin cfg2.N) (h1 h2) (s : Scr F) (y : S1x512x1.Idx) : ∃ pc ∈ (runLastAt V c t h1 h2 s).2.2.1, y ∈ pc.1.set :=
  View.cover_of_tiledL (runLastAt V c t h1 h2 s).2.2.1 S1x512x1.size (by sl_kernel_rfl) y
theorem coverLastA (c : Dev nD) (t : Fin cfg2.N) (h1 h2) (s : Scr F) (y : S1x512x1024.Idx) : ∃ pc ∈ (runLastAt V c t h1 h2 s).2.2.2.1, y ∈ pc.1.set :=
  View.cover_of_tiledL (runLastAt V c t h1 h2 s).2.2.2.1 S1x512x1024.size (by sl_kernel_rfl) y

end Cert.KernelIdeal.Flash

end
-- ==== Proof.Flash.Body.lean ====
/-
  The attention call: the region invariant that carries the three scratch buffers from point to point, the
  proof data, and the body obligation at every grid point.

  Before the first point the scratch buffers hold anything; after point `n` they hold the running maximum,
  denominator and accumulator `scr n`. The rest of the invariant — the staging buffers of the two projection
  calls and the generator register — passes through every point untouched. The two query/key windows read ONE
  array, each through half of the share; the value window and the output window hold their arrays whole.
-/
import proofs.«133897_j52853867545194_2_alg».proof.Proof.Gen.KernelIdeal.Launch
import proofs.«133897_j52853867545194_2_alg».proof.Proof.Gen.KernelIdeal.Skeleton
import proofs.«133897_j52853867545194_2_alg».proof.Proof.Gen.KernelIdeal.Points
import proofs.«133897_j52853867545194_2_alg».proof.Proof.Flash.Scratch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What every point leaves alone: the twelve staging buffers of the two projection calls, each at anything, and
    the generator register at some state. -/
def others (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f)) ∗ ∃ r, prngReg c r)

/-- The launch's class invariant is that and the three scratch buffers at anything. -/
theorem PhiA_open (c : Dev nD) : (Pipeline.ΦA spec2 c : sProp 𝕄)
    ⊢ iprop(others (F := F) c ∗ (∃ d, owns (c : Thread nD τ) sM fullShare d) ∗ (∃ d, owns (c : Thread nD τ) sL fullShare d) ∗ (∃ d, owns (c : Thread nD τ) sA fullShare d)) := by
  unfold Pipeline.ΦA others; rw [scopedRest2_eq]; simp only [sM, sL, sA, owns_whole]
  iintro ⟨⟨G0, G1, G2, G3, G4, G5, G6, G7, G8, G9, G10, G11, S0, S1, S2⟩, Hg⟩
  isplitl [G0 G1 G2 G3 G4 G5 G6 G7 G8 G9 G10 G11 Hg]
  · isplitl [G0 G1 G2 G3 G4 G5 G6 G7 G8 G9 G10 G11]
    ·
      isplitl [G0]; · iexact G0
      isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      isplitl [G9]; · iexact G9
      isplitl [G10]; · iexact G10
      iexact G11
    iexact Hg
  isplitl [S0]; · iexact S0
  isplitl [S1]; · iexact S1
  iexact S2

theorem PhiA_close (c : Dev nD) :
    iprop(others (F := F) c ∗ (∃ d, owns (c : Thread nD τ) sM fullShare d) ∗ (∃ d, owns (c : Thread nD τ) sL fullShare d) ∗ (∃ d, owns (c : Thread nD τ) sA fullShare d))
    ⊢ (Pipeline.ΦA spec2 c : sProp 𝕄) := by
  unfold Pipeline.ΦA others; rw [scopedRest2_eq]; simp only [sM, sL, sA, owns_whole]
  iintro ⟨⟨⟨G0, G1, G2, G3, G4, G5, G6, G7, G8, G9, G10, G11⟩, Hg⟩, S0, S1, S2⟩
  isplitr [Hg]
  · skip
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [S0]; · iexact S0
    isplitl [S1]; · iexact S1
    iexact S2
  iexact Hg

/-- The scratch buffers before position `n`: at anything before the first point, then at what the point before left. -/
def scrRes (c : Dev nD) : (n : ℕ) → n ≤ cfg2.N → sProp 𝕄
  | 0, _ => iprop((∃ d, owns (c : Thread nD τ) sM fullShare d) ∗ (∃ d, owns (c : Thread nD τ) sL fullShare d) ∗ (∃ d, owns (c : Thread nD τ) sA fullShare d))
  | n + 1, hn => iprop(owns (c : Thread nD τ) sM fullShare (scr V c n hn).1 ∗ owns (c : Thread nD τ) sL fullShare (scr V c n hn).2.1
      ∗ owns (c : Thread nD τ) sA fullShare (scr V c n hn).2.2)

theorem scrRes_succ (c : Dev nD) (n : ℕ) (hn : n < cfg2.N) :
    scrRes V c (n + 1) hn = iprop(owns (c : Thread nD τ) sM fullShare (scr V c n hn).1 ∗ owns (c : Thread nD τ) sL fullShare (scr V c n hn).2.1
      ∗ owns (c : Thread nD τ) sA fullShare (scr V c n hn).2.2) := rfl

/-- Whatever the position, the scratch buffers hold something. -/
theorem scrRes_any (c : Dev nD) (n : ℕ) (h : n ≤ cfg2.N) :
    scrRes V c n h ⊢ iprop((∃ d, owns (c : Thread nD τ) sM fullShare d) ∗ (∃ d, owns (c : Thread nD τ) sL fullShare d) ∗ (∃ d, owns (c : Thread nD τ) sA fullShare d)) := by
  cases n with
  | zero => exact .rfl
  | succ n =>
    rw [scrRes_succ]
    iintro ⟨HM, HL, HA⟩
    isplitl [HM]; · iexists _; iexact HM
    isplitl [HL]; · iexists _; iexact HL
    iexists _; iexact HA

/-- Before a point that is not the first of all: at what the point before left. -/
theorem scrRes_pos (c : Dev nD) (t : Fin cfg2.N) (hz : t.val ≠ 0) :
    scrRes V c t.val (Nat.le_of_lt t.isLt) = iprop(owns (c : Thread nD τ) sM fullShare (prev V c t).1 ∗ owns (c : Thread nD τ) sL fullShare (prev V c t).2.1
      ∗ owns (c : Thread nD τ) sA fullShare (prev V c t).2.2) := by
  obtain ⟨n, hn⟩ := t
  cases n with
  | zero => exact absurd rfl hz
  | succ n =>
    have hp : prev V c ⟨n + 1, hn⟩ = scr V c n (Nat.lt_of_succ_lt hn) := by unfold prev; exact dif_neg (Nat.succ_ne_zero n)
    rw [hp]; rfl

/-! ## The proof data -/

/-- The proof data on core `c`: the arrays as the call finds them; after the body at point `t` each input buffer
    still at its block and the output buffer at `outAt`; the invariant as above; nothing owed; the query/key array
    shared half and half between the two windows that read it. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => outAt V c t
  Φ t := iprop(others c ∗ scrRes V c t.val (Nat.le_of_lt_succ t.isLt))
  q w := match w with
    | ⟨0, _⟩ => fullShare.left
    | ⟨1, _⟩ => fullShare.right
    | _ => fullShare
  owed _ := 0

theorem A_eq (c : Dev nD) (w : Fin cfg2.W) : (dat V c).A w = V c (Pipeline.arrRef spec2 w) := by
  dsimp only [dat]
theorem after0 (c : Dev nD) (t : Fin cfg2.N) : (dat V c).after 0 t = blk V c 0 t := by dsimp only [dat]
theorem after1 (c : Dev nD) (t : Fin cfg2.N) : (dat V c).after 1 t = blk V c 1 t := by dsimp only [dat]
theorem after2 (c : Dev nD) (t : Fin cfg2.N) : (dat V c).after 2 t = blk V c 2 t := by dsimp only [dat]
theorem after3 (c : Dev nD) (t : Fin cfg2.N) : (dat V c).after 3 t = outAt V c t := by dsimp only [dat]

theorem found0 (c : Dev nD) (t : Fin cfg2.N) (d) : (dat V c).before 0 t d = blk V c 0 t :=
  found0_of V (dat V c) (A_eq V c 0) (after0 V c) t d
theorem found1 (c : Dev nD) (t : Fin cfg2.N) (d) : (dat V c).before 1 t d = blk V c 1 t :=
  found1_of V (dat V c) (A_eq V c 1) (after1 V c) t d
theorem found2 (c : Dev nD) (t : Fin cfg2.N) (d) : (dat V c).before 2 t d = blk V c 2 t :=
  found2_of V (dat V c) (A_eq V c 2) (after2 V c) t d

theorem Phi_castSucc (c : Dev nD) (t : Fin cfg2.N) :
    (dat V c).Φ t.castSucc = iprop(others c ∗ scrRes V c t.val (Nat.le_of_lt t.isLt)) := by
  dsimp only [dat]; simp only [Fin.coe_castSucc]
theorem Phi_succ (c : Dev nD) (t : Fin cfg2.N) :
    (dat V c).Φ t.succ = iprop(others c ∗ scrRes V c (t.val + 1) t.isLt) := rfl

/-! ## The body obligation -/

def bodyPre (c : Dev nD) (t : Fin cfg2.N) : sProp 𝕄 :=
  iprop((dat V c).Φ t.castSucc ∗ (dat V c).owesAt () t.castSucc
    ∗ (∃ d, owns (c : Thread nD τ) (mQ t) fullShare ((dat V c).before 0 t d))
    ∗ (∃ d, owns (c : Thread nD τ) (mK t) fullShare ((dat V c).before 1 t d))
    ∗ (∃ d, owns (c : Thread nD τ) (mV t) fullShare ((dat V c).before 2 t d))
    ∗ (∃ d, owns (c : Thread nD τ) (mO t) fullShare ((dat V c).before 3 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves0 (c : Dev nD) (t : Fin cfg2.N) : (dat V c).leavesExact 0 t = owns (c : Thread nD τ) (mQ t) fullShare (blk V c 0 t) := by
  unfold Dat.leavesExact; rw [live0 t, after0]
theorem leaves1 (c : Dev nD) (t : Fin cfg2.N) : (dat V c).leavesExact 1 t = owns (c : Thread nD τ) (mK t) fullShare (blk V c 1 t) := by
  unfold Dat.leavesExact; rw [live1 t, after1]
theorem leaves2 (c : Dev nD) (t : Fin cfg2.N) : (dat V c).leavesExact 2 t = owns (c : Thread nD τ) (mV t) fullShare (blk V c 2 t) := by
  unfold Dat.leavesExact; rw [live2 t, after2]

end Cert.KernelIdeal.Flash

end
-- ==== Proof.Flash.BodyFirst.lean ====
/-
  The attention call's body obligation at a first key/value block.
-/
import proofs.«133897_j52853867545194_2_alg».proof.Proof.Gen.KernelIdeal.Launch
import proofs.«133897_j52853867545194_2_alg».proof.Proof.Gen.KernelIdeal.Skeleton
import proofs.«133897_j52853867545194_2_alg».proof.Proof.Gen.KernelIdeal.Points
import proofs.«133897_j52853867545194_2_alg».proof.Proof.Flash.Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
theorem sound_first (c : Dev nD) (t : Fin cfg2.N) (h1 : t.val % 8 = 0) :
    bodyPre V c t ⊢ wp frame (wpE (defs₀ (F := F)) Variants.none c none) Set.univ (bodyAt2 t) (fun _ => bodyPost V c t) := by
  unfold bodyPre bodyPost bodyAt2
  simp only [found0, found1, found2]
  rw [show (dat V c).owesAt () t.succ = (dat V c).owesAt () t.castSucc from rfl, Phi_succ, Phi_castSucc, scrRes_succ,
    leaves0, leaves1, leaves2]
  rw [Dat.leavesExact_idle (dat V c) 3 t (idle3 t (notLast_of_first t h1)) (noFlush3 t (notLast_of_first t h1))]
  rw [scr_first V c t h1]
  dsimp only
  unfold rdM rdL rdA
  iintro ⟨⟨Hoth, HS⟩, Ho, ⟨%d0, H0⟩, ⟨%d1, H1⟩, ⟨%d2, H2⟩, H3⟩
  ihave HS' := (scrRes_any V c _ _) $$ HS
  icases HS' with ⟨HM, HL, HA⟩
  iapply ((runFirstAt V c t h1).2.2.2 Set.univ _)
  isplitl [H0]; · iexact H0
  isplitl [H1]; · iexact H1
  isplitl [H2]; · iexact H2
  isplitl [HM]; · iexact HM
  isplitl [HL]; · iexact HL
  isplitl [HA]; · iexact HA
  iintro ⟨H0, H1, H2, ⟨%eM, HM⟩, ⟨%eL, HL⟩, ⟨%eA, HA⟩⟩
  isplitl [Hoth HM HL HA]
  · isplitl [Hoth]; · iexact Hoth
    isplitl [HM]
    · unfold owns; iexists _; isplitr
      swap; · iexact HM
      ipureintro; exact View.read_writes_of_cover _ _ _ _ _ (coverFirstM V c t h1)
    isplitl [HL]
    · unfold owns; iexists _; isplitr
      swap; · iexact HL
      ipureintro; exact View.read_writes_of_cover _ _ _ _ _ (coverFirstL V c t h1)
    unfold owns; iexists _; isplitr
    swap; · iexact HA
    ipureintro; exact View.read_writes_of_cover _ _ _ _ _ (coverFirstA V c t h1)
  isplitl [Ho]; · iexact Ho
  isplitl [H0]; · iexact H0
  isplitl [H1]; · iexact H1
  isplitl [H2]; · iexact H2
  iexact H3

end Cert.KernelIdeal.Flash

end
-- ==== Proof.Flash.BodyMid.lean ====
/-
  The attention call's body obligation at a key/value block neither first nor last.
-/
import proofs.«133897_j52853867545194_2_alg».proof.Proof.Gen.KernelIdeal.Launch
import proofs.«133897_j52853867545194_2_alg».proof.Proof.Gen.KernelIdeal.Skeleton
import proofs.«133897_j52853867545194_2_alg».proof.Proof.Gen.KernelIdeal.Points
import proofs.«133897_j52853867545194_2_alg».proof.Proof.Flash.Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
theorem sound_mid (c : Dev nD) (t : Fin cfg2.N) (h1 : ¬t.val % 8 = 0) (h2 : ¬t.val % 8 = 7) :
    bodyPre V c t ⊢ wp frame (wpE (defs₀ (F := F)) Variants.none c none) Set.univ (bodyAt2 t) (fun _ => bodyPost V c t) := by
  unfold bodyPre bodyPost bodyAt2
  simp only [found0, found1, found2]
  rw [show (dat V c).owesAt () t.succ = (dat V c).owesAt () t.castSucc from rfl, Phi_succ, Phi_castSucc, scrRes_succ,
    leaves0, leaves1, leaves2]
  have hz : t.val ≠ 0 := fun e => h1 (by rw [e])
  rw [scrRes_pos V c t hz]
  rw [Dat.leavesExact_idle (dat V c) 3 t (idle3 t (fun h => h2 ((condLast_iff t).mp h))) (noFlush3 t (fun h => h2 ((condLast_iff t).mp h)))]
  rw [scr_mid V c t h1 h2]
  dsimp only
  unfold rdM rdL rdA
  iintro ⟨⟨Hoth, HM, HL, HA⟩, Ho, ⟨%d0, H0⟩, ⟨%d1, H1⟩, ⟨%d2, H2⟩, H3⟩
  iapply ((runMidAt V c t h1 h2 (prev V c t)).2.2.2 Set.univ _)
  isplitl [H0]; · iexact H0
  isplitl [H1]; · iexact H1
  isplitl [H2]; · iexact H2
  isplitl [HM]; · iexact HM
  isplitl [HL]; · iexact HL
  isplitl [HA]; · iexact HA
  iintro ⟨H0, H1, H2, ⟨%eM, HM⟩, ⟨%eL, HL⟩, ⟨%eA, HA⟩⟩
  isplitl [Hoth HM HL HA]
  · isplitl [Hoth]; · iexact Hoth
    isplitl [HM]
    · unfold owns; iexists _; isplitr
      swap; · iexact HM
      ipureintro; exact View.read_writes_of_cover _ _ _ _ _ (coverMidM V c t h1 h2 (prev V c t))
    isplitl [HL]
    · unfold owns; iexists _; isplitr
      swap; · iexact HL
      ipureintro; exact View.read_writes_of_cover _ _ _ _ _ (coverMidL V c t h1 h2 (prev V c t))
    unfold owns; iexists _; isplitr
    swap; · iexact HA
    ipureintro; exact View.read_writes_of_cover _ _ _ _ _ (coverMidA V c t h1 h2 (prev V c t))
  isplitl [Ho]; · iexact Ho
  isplitl [H0]; · iexact H0
  isplitl [H1]; · iexact H1
  isplitl [H2]; · iexact H2
  iexact H3

end Cert.KernelIdeal.Flash

end
-- ==== Proof.Flash.BodyLast.lean ====
/-
  The attention call's body obligation at a last key/value block.
-/
import proofs.«133897_j52853867545194_2_alg».proof.Proof.Gen.KernelIdeal.Launch
import proofs.«133897_j52853867545194_2_alg».proof.Proof.Gen.KernelIdeal.Skeleton
import proofs.«133897_j52853867545194_2_alg».proof.Proof.Gen.KernelIdeal.Points
import proofs.«133897_j52853867545194_2_alg».proof.Proof.Flash.Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
theorem sound_last (c : Dev nD) (t : Fin cfg2.N) (h1 : ¬t.val % 8 = 0) (h2 : t.val % 8 = 7) :
    bodyPre V c t ⊢ wp frame (wpE (defs₀ (F := F)) Variants.none c none) Set.univ (bodyAt2 t) (fun _ => bodyPost V c t) := by
  unfold bodyPre bodyPost bodyAt2
  simp only [found0, found1, found2]
  rw [show (dat V c).owesAt () t.succ = (dat V c).owesAt () t.castSucc from rfl, Phi_succ, Phi_castSucc, scrRes_succ,
    leaves0, leaves1, leaves2]
  have hz : t.val ≠ 0 := fun e => h1 (by rw [e])
  rw [scrRes_pos V c t hz]
  rw [show (dat V c).leavesExact 3 t = owns (c : Thread nD τ) (mO t) fullShare ((dat V c).after 3 t) from by
    unfold Dat.leavesExact; rw [live3 t ((condLast_iff t).mpr h2)], after3, outAt_last V c t h1 h2]
  rw [scr_last V c t h1 h2]
  dsimp only
  unfold rdM rdL rdA rdO
  iintro ⟨⟨Hoth, HM, HL, HA⟩, Ho, ⟨%d0, H0⟩, ⟨%d1, H1⟩, ⟨%d2, H2⟩, ⟨%d3, H3⟩⟩
  iapply ((runLastAt V c t h1 h2 (prev V c t)).2.2.2.2 Set.univ _)
  isplitl [H0]; · iexact H0
  isplitl [H1]; · iexact H1
  isplitl [H2]; · iexact H2
  isplitl [H3]; · iexists _; iexact H3
  isplitl [HM]; · iexact HM
  isplitl [HL]; · iexact HL
  isplitl [HA]; · iexact HA
  iintro ⟨H0, H1, H2, ⟨%eO, H3⟩, ⟨%eM, HM⟩, ⟨%eL, HL⟩, ⟨%eA, HA⟩⟩
  isplitl [Hoth HM HL HA]
  · isplitl [Hoth]; · iexact Hoth
    isplitl [HM]
    · unfold owns; iexists _; isplitr
      swap; · iexact HM
      ipureintro; exact View.read_writes_of_cover _ _ _ _ _ (coverLastM V c t h1 h2 (prev V c t))
    isplitl [HL]
    · unfold owns; iexists _; isplitr
      swap; · iexact HL
      ipureintro; exact View.read_writes_of_cover _ _ _ _ _ (coverLastL V c t h1 h2 (prev V c t))
    unfold owns; iexists _; isplitr
    swap; · iexact HA
    ipureintro; exact View.read_writes_of_cover _ _ _ _ _ (coverLastA V c t h1 h2 (prev V c t))
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (coverLastO V c t h1 h2 (prev V c t))

end Cert.KernelIdeal.Flash

end
-- ==== Proof.Flash.Oblig.lean ====
/-
  The attention call's body obligation at every grid point, and the invariant's two ends.
-/
import proofs.«133897_j52853867545194_2_alg».proof.Proof.Gen.KernelIdeal.Launch
import proofs.«133897_j52853867545194_2_alg».proof.Proof.Gen.KernelIdeal.Skeleton
import proofs.«133897_j52853867545194_2_alg».proof.Proof.Gen.KernelIdeal.Points
import proofs.«133897_j52853867545194_2_alg».proof.Proof.Flash.BodyFirst
import proofs.«133897_j52853867545194_2_alg».proof.Proof.Flash.BodyMid
import proofs.«133897_j52853867545194_2_alg».proof.Proof.Flash.BodyLast
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body at any point: the closed forms say which of the three runs the point is. -/
theorem sound_body (c : Dev nD) (t : Fin cfg2.N) :
    bodyPre V c t ⊢ wp frame (wpE (defs₀ (F := F)) Variants.none c none) Set.univ (bodyAt2 t) (fun _ => bodyPost V c t) := by
  by_cases h1 : t.val % 8 = 0
  · exact sound_first V c t h1
  · by_cases h2 : t.val % 8 = 7
    · exact sound_last V c t h1 h2
    · exact sound_mid V c t h1 h2

/-- The body obligation of the call, at every point. -/
theorem body_obligation (c : Dev nD) : BodyObligation (dat (F := F) V c) (defs₀ (F := F)) Variants.none () Set.univ := fun t => by
  rw [bigSep_W2, bigSep_W2]
  exact sound_body V c t

/-- What the launch hands the call is the invariant before the first point, -/
theorem hin (c : Dev nD) : Pipeline.ΦA spec2 c ⊢ (dat V c).Φ 0 := by
  rw [show (dat V c).Φ 0 = iprop(others c ∗ scrRes V c 0 (Nat.zero_le _)) from rfl]
  exact PhiA_open c

/-- and after the last point the invariant gives it back, the scratch buffers' contents forgotten. -/
theorem hout (c : Dev nD) : (dat V c).Φ (Fin.last cfg2.N) ⊢ Pipeline.ΦA spec2 c := by
  rw [show (dat V c).Φ (Fin.last cfg2.N) = iprop(others c ∗ scrRes V c (Fin.last cfg2.N).val (Nat.le_of_lt_succ (Fin.last cfg2.N).isLt)) from rfl]
  refine .trans ?_ (PhiA_close c)
  iintro ⟨Hoth, HS⟩
  isplitl [Hoth]; · iexact Hoth
  iapply (scrRes_any V c _ _); iexact HS

end Cert.KernelIdeal.Flash

end
-- ==== Proof.Flash.Entry.lean ====
/-
  The attention call's arrays at its two ends.

  Three buffers stand behind its four windows: the query window and the key window read ONE array (the fused
  query/key projection), each through half of the share of it; the value window and the output window hold theirs
  whole. At the entry the three buffers, whole at the full share, are split that way; at the exit the two halves,
  which still hold what the call found (an input array is never written), are joined again, and the output
  array holds the folded write-backs.
-/
import proofs.«133897_j52853867545194_2_alg».proof.Proof.Gen.KernelIdeal.Launch
import proofs.«133897_j52853867545194_2_alg».proof.Proof.Gen.KernelIdeal.Skeleton
import proofs.«133897_j52853867545194_2_alg».proof.Proof.Gen.KernelIdeal.Points
import proofs.«133897_j52853867545194_2_alg».proof.Proof.Flash.Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the windows' arrays, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec2 c W : sProp 𝕄)
      = iprop((((c : Thread nD τ).loc main_v7) ↦{fullShare} W main_v7) ∗ (((c : Thread nD τ).loc main_v8) ↦{fullShare} W main_v8) ∗ (((c : Thread nD τ).loc main_v9) ↦{fullShare} W main_v9)) :=
  bigSep_eq_bigSepL_of_eq [main_v7, main_v8, main_v9] (by decide) (by decide) _

/-- The windows' arrays at their shares, one by one. -/
theorem arrays_eq (c : Dev nD) (G : (w : Fin cfg2.W) → Buf (Elt F) ((cfg2.win w).arr.view.loc (c : Thread nD τ))) :
    ((dat V c).arrays G : sProp 𝕄)
      = iprop((((c : Thread nD τ).loc main_v7) ↦{fullShare.left} G 0) ∗ (((c : Thread nD τ).loc main_v7) ↦{fullShare.right} G 1) ∗ (((c : Thread nD τ).loc main_v8) ↦{fullShare} G 2) ∗ (((c : Thread nD τ).loc main_v9) ↦{fullShare} G 3)) := by
  unfold Dat.arrays; rw [bigSep_W2]
  rw [(arr_whole2 0).set_eq_univ, (arr_whole2 2).set_eq_univ, (arr_whole2 3).set_eq_univ]
  rfl

/-- ENTRY: a core's unscoped buffers at the entry contents are the call's arrays at their shares and the rest. -/
theorem arrays_of_bufs (c : Dev nD) :
    (unscopedBufs (Ix := Unit) (Name := ℕ) (U := UR sig nD τ) (Lvl := ℕ) c (V c) : sProp 𝕄)
      ⊢ iprop((dat V c).arrays ((dat V c).arrAt · 0)
          ∗ Pipeline.unscopedRest (Ix := Unit) (Name := ℕ) (U := UR sig nD τ) (Lvl := ℕ) spec2 c (V c)) := by
  have h : (unscopedBufs (Ix := Unit) (Name := ℕ) (U := UR sig nD τ) (Lvl := ℕ) c (V c) : sProp 𝕄)
      = iprop(Pipeline.arrBufs spec2 c (V c) ∗ Pipeline.unscopedRest spec2 c (V c)) :=
    Pipeline.unscopedBufs_split₀ cfgs (2 : Fin 3) winFacts₀2.arr_unscoped c (V c)
  rw [h]
  refine sep_mono ?_ .rfl
  rw [arrBufs_eq, arrays_eq]
  have hs : (((c : Thread nD τ).loc main_v7) ↦{fullShare} V c main_v7 : sProp 𝕄)
      ⊢ iprop((((c : Thread nD τ).loc main_v7) ↦{fullShare.left} V c main_v7) ∗ (((c : Thread nD τ).loc main_v7) ↦{fullShare.right} V c main_v7)) :=
    (pointsTo_share (PosShare.mem_left_op_right fullShare)).1
  refine (sep_mono hs .rfl).trans ?_
  iintro ⟨⟨Hl, Hr⟩, H8, H9⟩
  isplitl [Hl]; · iexact Hl
  isplitl [Hr]; · iexact Hr
  isplitl [H8]; · iexact H8
  iexact H9

/-- EXIT: the arrays at their final contents and the rest are the unscoped buffers at any valuation that has the
    output array at the folded write-backs and agrees with the entry contents elsewhere. -/
theorem bufs_of_arrays (c : Dev nD) (V' : (b : Ref sig .tc) → Buf (Elt F) ((c : Thread nD τ).loc b))
    (h9 : V' main_v9 = (dat V c).arrAt 3 cfg2.N) (hrest : ∀ b, b ≠ main_v9 → V' b = V c b) :
    iprop((dat V c).arrays ((dat V c).arrAt · cfg2.N)
        ∗ Pipeline.unscopedRest (Ix := Unit) (Name := ℕ) (U := UR sig nD τ) (Lvl := ℕ) spec2 c (V c))
      ⊢ (unscopedBufs (Ix := Unit) (Name := ℕ) (U := UR sig nD τ) (Lvl := ℕ) c V' : sProp 𝕄) := by
  have h : (unscopedBufs (Ix := Unit) (Name := ℕ) (U := UR sig nD τ) (Lvl := ℕ) c V' : sProp 𝕄)
      = iprop(Pipeline.arrBufs spec2 c V' ∗ Pipeline.unscopedRest spec2 c V') :=
    Pipeline.unscopedBufs_split₀ cfgs (2 : Fin 3) winFacts₀2.arr_unscoped c V'
  rw [h]
  refine sep_mono ?_ (Entails.of_eq ?_)
  · rw [arrBufs_eq, arrays_eq]
    have e0 : (dat V c).arrAt 0 cfg2.N = V c main_v7 := ((dat V c).arrAt_in 0 rfl _).trans (A_eq V c 0)
    have e1 : (dat V c).arrAt 1 cfg2.N = V c main_v7 := ((dat V c).arrAt_in 1 rfl _).trans (A_eq V c 1)
    have e2 : (dat V c).arrAt 2 cfg2.N = V c main_v8 := ((dat V c).arrAt_in 2 rfl _).trans (A_eq V c 2)
    rw [e0, e1, e2, hrest main_v7 (by decide), hrest main_v8 (by decide), h9]
    have hj : iprop((((c : Thread nD τ).loc main_v7) ↦{fullShare.left} V c main_v7) ∗ (((c : Thread nD τ).loc main_v7) ↦{fullShare.right} V c main_v7))
        ⊢ (((c : Thread nD τ).loc main_v7) ↦{fullShare} V c main_v7 : sProp 𝕄) :=
      (pointsTo_share (PosShare.mem_left_op_right fullShare)).2
    refine .trans ?_ (sep_mono hj .rfl)
    iintro ⟨Hl, Hr, H8, H9⟩
    isplitl [Hl Hr]
    · isplitl [Hl]; · iexact Hl
      iexact Hr
    isplitl [H8]; · iexact H8
    iexact H9
  · unfold Pipeline.unscopedRest
    exact bigSep_congr fun b hb => by
      rw [hrest b (fun e => (Finset.mem_sdiff.mp hb).2 (Finset.mem_image.mpr ⟨3, Finset.mem_univ _, e.symm⟩))]

end Cert.KernelIdeal.Flash

end
-- ==== Proof.Run.lean ====
/-
  The whole program's run: @main as five segments — the host operations before the calls, the two projection
  calls, the two reshapes, the attention call — composed in order, every unscoped buffer tracked at a valuation
  from the launch to the return.

  Between two segments core `c` holds every unscoped buffer whole: at the launch contents, then at what the host
  operations leave, then with each call's output array at the folded write-backs of that call's proof data. The
  final state's memory is read against the last valuation: the argument arrays are as launched (no segment writes
  one), and the result array holds what the attention call's write-backs left.
-/
import proofs.«133897_j52853867545194_2_alg».proof.Proof.Gen.KernelIdeal.Launch
import proofs.«133897_j52853867545194_2_alg».proof.Proof.Gen.KernelIdeal.Skeleton
import proofs.«133897_j52853867545194_2_alg».proof.Proof.Gen.KernelIdeal.Points
import proofs.«133897_j52853867545194_2_alg».proof.Proof.QKProj
import proofs.«133897_j52853867545194_2_alg».proof.Proof.VProj
import proofs.«133897_j52853867545194_2_alg».proof.Proof.Flash.Oblig
import proofs.«133897_j52853867545194_2_alg».proof.Proof.Flash.Entry
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host operations before the calls. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At the first call's exit: its arrays at what the pipeline leaves (the inputs as entered, the output's
    write-backs folded), every other buffer as entered. -/
def W2 (c : Dev nD) : Valuation τ sig (Elt F) :=
  Pipeline.withArrays spec0 c (W1 m ρ c) fun w => (QKProj.dat (V1 m ρ) c).arrAt w cfg0.N
theorem W2_arr (c : Dev nD) (w : Fin cfg0.W) :
    W2 m ρ c (Proc.devRef .tc (Pipeline.arrRef spec0 w)) = (QKProj.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (QKProj.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second call's exit: its arrays at what the pipeline leaves (the inputs as entered, the output's
    write-backs folded), every other buffer as entered. -/
def W3 (c : Dev nD) : Valuation τ sig (Elt F) :=
  Pipeline.withArrays spec1 c (W2 m ρ c) fun w => (VProj.dat (V2 m ρ) c).arrAt w cfg1.N
theorem W3_arr (c : Dev nD) (w : Fin cfg1.W) :
    W3 m ρ c (Proc.devRef .tc (Pipeline.arrRef spec1 w)) = (VProj.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (VProj.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the two reshapes. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- At the attention call's exit: the result array at the folded write-backs, every other buffer as entered. -/
def W5 (c : Dev nD) : Valuation τ sig (Elt F) :=
  Function.update (W4 m ρ c) (Proc.devRef .tc main_v9) ((Flash.dat (V4 m ρ) c).arrAt 3 cfg2.N)
abbrev V5 : (c : Dev nD) → (b : Ref sig .tc) → Buf (Elt F) ((c : Thread nD τ).loc b) := fun c b => W5 m ρ c b
theorem V5_out (c : Dev nD) : V5 m ρ c main_v9 = (Flash.dat (V4 m ρ) c).arrAt 3 cfg2.N := by
  show W5 m ρ c (Proc.devRef .tc main_v9) = _
  unfold W5; exact Function.update_self ..
theorem V5_of_ne (c : Dev nD) (b : Ref sig .tc) (hb : b ≠ main_v9) : V5 m ρ c b = V4 m ρ c b := by
  show W5 m ρ c (Proc.devRef .tc b) = W4 m ρ c (Proc.devRef .tc b)
  unfold W5; exact Function.update_of_ne (StableHlo.devRef_ne_of_ne hb) ..

/-! ## The proof data family and the thread state -/

abbrev adm : (p : Fin 3) → (pcfgs (F := F) p).Adm := fun p => (cfgs p).toPCfg_adm
/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => QKProj.dat (V1 m ρ) c
  | ⟨1, _⟩ => fun c => VProj.dat (V2 m ρ) c
  | ⟨2, _⟩ => fun c => Flash.dat (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The calls as segments -/

-- unification with the library's lemmas over `pin pcs a p` takes unfolding plain definitions in a metavariable's type
set_option backward.isDefEq.respectTransparency.types false in
/-- The query/key projection call over the thread state: entered from every unscoped buffer at `W1`, left at `W2`.
    Its arrays are split out of the unscoped buffers at the entry and put back at the exit contents; the generator
    register goes into the class invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (QKProj.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the library's lemmas over `pin pcs a p` takes unfolding plain definitions in a metavariable's type
set_option backward.isDefEq.respectTransparency.types false in
/-- The value projection call over the thread state: entered from every unscoped buffer at `W2`, left at `W3`.
    Its arrays are split out of the unscoped buffers at the entry and put back at the exit contents; the generator
    register goes into the class invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (VProj.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call over the thread state: entered from every unscoped buffer at `W4`, left at `W5`. The
    query/key array is split between the two windows that read it at the entry and joined at the exit. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (Flash.body_obligation (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Flash.arrays_of_bufs (V4 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Flash.hin (V4 m ρ) c)
    unfold Pipeline.ΦA
    iintro ⟨Hp, -, Hr⟩
    isplitl [Hr]; · iexact Hr
    iexact Hp
  hout c := by
    rw [Pipeline.ownSems0_none]
    refine (Flash.hout (V4 m ρ) c).trans ?_
    unfold Pipeline.ΦA
    iintro ⟨Hr, Hp⟩
    isplitl [Hp]; · iexact Hp
    isplitr; · iempintro
    iexact Hr
  hexit c := by
    have hjoin := Flash.bufs_of_arrays (V4 m ρ) c (V5 m ρ c) (V5_out m ρ c) (fun b hb => V5_of_ne m ρ c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final memory holds each unscoped buffer at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Run

end
-- ==== Proof.Frame.lean ====
/-
  What the run says of the argument arrays and of the result array: no segment writes an argument, so each ends
  holding its launch contents; the result array ends at the attention call's folded write-backs.
-/
import proofs.«133897_j52853867545194_2_alg».proof.Proof.Gen.KernelIdeal.Launch
import proofs.«133897_j52853867545194_2_alg».proof.Proof.Gen.KernelIdeal.Skeleton
import proofs.«133897_j52853867545194_2_alg».proof.Proof.Gen.KernelIdeal.Points
import proofs.«133897_j52853867545194_2_alg».proof.Proof.Run
import proofs.«133897_j52853867545194_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that no host operation writes, that is no array of either projection call and is not the result array
    reaches the end as launched. -/
theorem W5_launch (c : Dev nD) (r : Ref sig .tc) (h0 : r ∉ Gen.hostOps0_W) (h2 : r ∉ Gen.hostOps2_W)
    (hs0 : ∀ w, Pipeline.arrRef spec0 w ≠ r) (hs1 : ∀ w, Pipeline.arrRef spec1 w ≠ r) (h9 : r ≠ main_v9) :
    W5 m ρ c (Proc.devRef .tc r) = m ((c : Thread nD τ).loc r) :=
  (V5_of_ne m ρ c r h9).trans <| (StableHlo.after_of_writes_sub hostOps2 _ Gen.hostOps2_writes h2).trans <|
    (W3_of_ne m ρ c r hs1).trans <| (W2_of_ne m ρ c r hs0).trans <|
    (StableHlo.after_of_writes_sub hostOps0 _ Gen.hostOps0_writes h0).trans rfl

/-- The value projection's weight matrix is an INPUT array of the second call: what that call leaves in it is what it found. -/
theorem W5_arg5 (c : Dev nD) : W5 m ρ c (Proc.devRef .tc main_arg5) = m ((c : Thread nD τ).loc main_arg5) :=
  (V5_of_ne m ρ c main_arg5 (by decide)).trans <| (StableHlo.after_of_writes_sub hostOps2 _ Gen.hostOps2_writes (by decide)).trans <|
    ((W3_arr m ρ c 1).trans (((VProj.dat (V2 m ρ) c).arrAt_in 1 rfl _).trans (VProj.A_eq (V2 m ρ) c 1))).trans <|
    (W2_of_ne m ρ c main_arg5 (by decide)).trans <|
    (StableHlo.after_of_writes_sub hostOps0 _ Gen.hostOps0_writes (by decide)).trans rfl

/-- THE FRAME, at any value family: every weakly fair execution of @main terminates, nothing faulting, with the
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W5_launch m ρ c main_arg0 (by decide) (by decide) (by decide) (by decide) (by decide)),
     (h c _ (mem_uc main_arg1 (by decide))).trans (W5_launch m ρ c main_arg1 (by decide) (by decide) (by decide) (by decide) (by decide)),
     (h c _ (mem_uc main_arg2 (by decide))).trans (W5_launch m ρ c main_arg2 (by decide) (by decide) (by decide) (by decide) (by decide)),
     (h c _ (mem_uc main_arg3 (by decide))).trans (W5_launch m ρ c main_arg3 (by decide) (by decide) (by decide) (by decide) (by decide)),
     (h c _ (mem_uc main_arg4 (by decide))).trans (W5_launch m ρ c main_arg4 (by decide) (by decide) (by decide) (by decide) (by decide)),
     (h c _ (mem_uc main_arg5 (by decide))).trans (W5_arg5 m ρ c),
     (h c _ (mem_uc main_arg6 (by decide))).trans (W5_launch m ρ c main_arg6 (by decide) (by decide) (by decide) (by decide) (by decide))⟩)
    (run_main m ρ)

/-- The run with the result array named: it ends at the attention call's folded write-backs, the arguments as launched. -/
theorem run_value : θ_run defs (onTc (τ := τ) (main (F := F))) ⟨m, fun _ => 0, ρ⟩ (fun r => ∀ c : Dev nD,
      r.2.mem ((c.tc : Thread nD τ).loc main_v9) = (Flash.dat (V4 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v9 (by decide))).trans (V5_out m ρ c),
     (h c _ (mem_uc main_arg0 (by decide))).trans (W5_launch m ρ c main_arg0 (by decide) (by decide) (by decide) (by decide) (by decide)),
     (h c _ (mem_uc main_arg1 (by decide))).trans (W5_launch m ρ c main_arg1 (by decide) (by decide) (by decide) (by decide) (by decide)),
     (h c _ (mem_uc main_arg2 (by decide))).trans (W5_launch m ρ c main_arg2 (by decide) (by decide) (by decide) (by decide) (by decide)),
     (h c _ (mem_uc main_arg3 (by decide))).trans (W5_launch m ρ c main_arg3 (by decide) (by decide) (by decide) (by decide) (by decide)),
     (h c _ (mem_uc main_arg4 (by decide))).trans (W5_launch m ρ c main_arg4 (by decide) (by decide) (by decide) (by decide) (by decide)),
     (h c _ (mem_uc main_arg5 (by decide))).trans (W5_arg5 m ρ c),
     (h c _ (mem_uc main_arg6 (by decide))).trans (W5_launch m ρ c main_arg6 (by decide) (by decide) (by decide) (by decide) (by decide))⟩)
    (run_main m ρ)

end Cert.KernelIdeal.Run

end
-- ==== Proof.Bits.QKProj.lean ====
/-
  The first projection call (the fused query/key projection): what one grid point leaves in its output
  buffer, as a function of the three input blocks it finds, and the body's triple at every point.

  A grid point `t` of the 16-point grid finds rows 512·t … 512·t+511 of the flattened input, the whole
  1024×2048 weight matrix and the whole 1×2048 bias row, and stores the 512×2048 block
  `x·W + b` (the weights and the input rounded on the way into the product) over its whole output buffer.
  Nothing is kept between points: the invariant is the untouched rest of the core's scoped memory.
-/
import proofs.«133897_j52853867545194_2_alg».proof.Proof.Gen.Kernel.Launch
import proofs.«133897_j52853867545194_2_alg».proof.Proof.Gen.Kernel.Skeleton
import proofs.«133897_j52853867545194_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.QKProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-- Window `w`'s block at grid point `t`, read off the window's array as the call finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether the point fetched it or the
    block index stood still since the last fetch (one statement per input window: the windows are uncut, which
    is read off each literal window). -/
theorem found0_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found1_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found2_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The one rectangle each access of the body uses: the whole buffer. -/
abbrev rX : Rect S512x1024 := Rect.unit (s := S512x1024) ![0, 0] S512x1024.size inb_S512x1024_S512x1024_0_0
abbrev rW : Rect S1024x2048 := Rect.unit (s := S1024x2048) ![0, 0] S1024x2048.size inb_S1024x2048_S1024x2048_0_0
abbrev rB : Rect S1x2048 := Rect.unit (s := S1x2048) ![0, 0] S1x2048.size inb_S1x2048_S1x2048_0_0
abbrev rO : Rect S512x2048 := Rect.unit (s := S512x2048) ![0, 0] S512x2048.size inb_S512x2048_S512x2048_0_0

/-- The output buffer after the body: its one store, of the product-plus-bias of the three loads. -/
def outBlock (x : Vec F S512x1024 .f32) (w : Vec F S1024x2048 .f32) (b : Vec F S1x2048 .f32) : Vec F S512x2048 .f32 :=
  View.canon [⟨rO, k0_pay1 (View.ld x rX) (View.ld w rW) (View.ld b rB)⟩]

/-- The store covers the buffer. -/
theorem outCover (p : Vec F S512x2048 .f32) (y : S512x2048.Idx) :
    ∃ pc ∈ ([⟨rO, p⟩] : List (View.Piece (Elt F) S512x2048 .f32)), y ∈ pc.1.set :=
  View.cover_of_tiled [⟨rO, p⟩] S512x2048.size (by rfl) y

set_option maxHeartbeats 1000000 in
/-- The body on whole memrefs: the three inputs at known contents and the output at anything run to the
    inputs unchanged and the output at `outBlock` of them. -/
theorem body_triple (c : Dev nD) (E : Set ℕ) (i : grid0.Coords)
    (a1 : Memref sig .tc .vmem S512x1024 .f32) (h1 : a1.IsWhole) (a2 : Memref sig .tc .vmem S1024x2048 .f32) (h2 : a2.IsWhole)
    (a3 : Memref sig .tc .vmem S1x2048 .f32) (h3 : a3.IsWhole) (a4 : Memref sig .tc .vmem S512x2048 .f32) (h4 : a4.IsWhole)
    (x : Vec F S512x1024 .f32) (w : Vec F S1024x2048 .f32) (b : Vec F S1x2048 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d)
        ∗ (iprop(owns (c : Thread nD τ) a1 fullShare x ∗ owns (c : Thread nD τ) a2 fullShare w ∗ owns (c : Thread nD τ) a3 fullShare b
            ∗ owns (c : Thread nD τ) a4 fullShare (outBlock x w b)) -∗ K ⟨⟩))
      ⊢ wp frame (wpE (defs₀ (F := F)) Variants.none c none) E (cc0__proj_kernel i a1 h1 a2 h2 a3 h3 a4 h4) K := by
  simp only [cc0__proj_kernel_eq_skeleton]; unfold cc0__proj_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover _)

/-! ## The proof data of the call and the body obligation -/

/-- The proof data on core `c`: the arrays as the call finds them; after the body at point `t` each input
    buffer still at its block and the output buffer at `outBlock` of the three blocks; the invariant is the
    untouched scoped rest and the generator register; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => outBlock (blk V c 0 t) (blk V c 1 t) (blk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
theorem after3 (c : Dev nD) (t : Fin cfg0.N) :
    (dat V c).after 3 t = outBlock (blk V c 0 t) (blk V c 1 t) (blk V c 2 t) := by dsimp only [dat]

theorem found0 (c : Dev nD) (t : Fin cfg0.N) (d) : (dat V c).before 0 t d = blk V c 0 t :=
  found0_of V (dat V c) (A_eq V c 0) (after0 V c) t d
theorem found1 (c : Dev nD) (t : Fin cfg0.N) (d) : (dat V c).before 1 t d = blk V c 1 t :=
  found1_of V (dat V c) (A_eq V c 1) (after1 V c) t d
theorem found2 (c : Dev nD) (t : Fin cfg0.N) (d) : (dat V c).before 2 t d = blk V c 2 t :=
  found2_of V (dat V c) (A_eq V c 2) (after2 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the input buffers hold their blocks, so the triple applies; the invariant and what the
    core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [found0, found1, found2]
  rw [show (dat V c).Φ t.succ = (dat V c).Φ t.castSucc from rfl,
    show (dat V c).owesAt () t.succ = (dat V c).owesAt () t.castSucc from rfl,
    after0, after1, after2, after3]
  iintro ⟨HΦ, Ho, ⟨%d0, H0⟩, ⟨%d1, H1⟩, ⟨%d2, H2⟩, ⟨%d3, H3⟩⟩
  iapply (body_triple c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the call, at every point. -/
theorem body_obligation (c : Dev nD) : BodyObligation (dat (F := F) V c) (defs₀ (F := F)) Variants.none () Set.univ := fun t => by
  rw [bigSep_W0, bigSep_W0]
  exact sound_body V c t

end Cert.Kernel.QKProj

end
-- ==== Proof.Bits.VProj.lean ====
/-
  The second projection call (the value projection): what one grid point leaves in its output buffer, as a
  function of the three input blocks it finds, and the body's triple at every point.

  A grid point `t` of the 16-point grid finds rows 512·t … 512·t+511 of the flattened input, the whole
  1024×1024 weight matrix and the whole 1×1024 bias row, and stores the 512×1024 block `x·W + b`, rounded to
  the output's narrower format, over its whole output buffer. Nothing is kept between points.
-/
import proofs.«133897_j52853867545194_2_alg».proof.Proof.Gen.Kernel.Launch
import proofs.«133897_j52853867545194_2_alg».proof.Proof.Gen.Kernel.Skeleton
import proofs.«133897_j52853867545194_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.VProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-- Window `w`'s block at grid point `t`, read off the window's array as the call finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether the point fetched it or the
    block index stood still since the last fetch (one statement per input window: the windows are uncut, which
    is read off each literal window). -/
theorem found0_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found1_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found2_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The one rectangle each access of the body uses: the whole buffer. -/
abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0
abbrev rO : Rect S512x1024 := Rect.unit (s := S512x1024) ![0, 0] S512x1024.size inb_S512x1024_S512x1024_0_0

/-- The output buffer after the body: its one store, of the product-plus-bias of the three loads. -/
def outBlock (x : Vec F S512x1024 .f32) (w : Vec F S1024x1024 .f32) (b : Vec F S1x1024 .f32) : Vec F S512x1024 .bf16 :=
  View.canon [⟨rO, k1_pay1 (View.ld x rX) (View.ld w rW) (View.ld b rB)⟩]

/-- The store covers the buffer. -/
theorem outCover (p : Vec F S512x1024 .bf16) (y : S512x1024.Idx) :
    ∃ pc ∈ ([⟨rO, p⟩] : List (View.Piece (Elt F) S512x1024 .bf16)), y ∈ pc.1.set :=
  View.cover_of_tiled [⟨rO, p⟩] S512x1024.size (by rfl) y

set_option maxHeartbeats 1000000 in
/-- The body on whole memrefs: the three inputs at known contents and the output at anything run to the
    inputs unchanged and the output at `outBlock` of them. -/
theorem body_triple (c : Dev nD) (E : Set ℕ) (i : grid1.Coords)
    (a1 : Memref sig .tc .vmem S512x1024 .f32) (h1 : a1.IsWhole) (a2 : Memref sig .tc .vmem S1024x1024 .f32) (h2 : a2.IsWhole)
    (a3 : Memref sig .tc .vmem S1x1024 .f32) (h3 : a3.IsWhole) (a4 : Memref sig .tc .vmem S512x1024 .bf16) (h4 : a4.IsWhole)
    (x : Vec F S512x1024 .f32) (w : Vec F S1024x1024 .f32) (b : Vec F S1x1024 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d)
        ∗ (iprop(owns (c : Thread nD τ) a1 fullShare x ∗ owns (c : Thread nD τ) a2 fullShare w ∗ owns (c : Thread nD τ) a3 fullShare b
            ∗ owns (c : Thread nD τ) a4 fullShare (outBlock x w b)) -∗ K ⟨⟩))
      ⊢ wp frame (wpE (defs₀ (F := F)) Variants.none c none) E (cc1__proj_kernel i a1 h1 a2 h2 a3 h3 a4 h4) K := by
  simp only [cc1__proj_kernel_eq_skeleton]; unfold cc1__proj_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover _)

/-! ## The proof data of the call and the body obligation -/

/-- The proof data on core `c`: the arrays as the call finds them; after the body at point `t` each input
    buffer still at its block and the output buffer at `outBlock` of the three blocks; the invariant is the
    untouched scoped rest and the generator register; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => outBlock (blk V c 0 t) (blk V c 1 t) (blk V c 2 t)
  Φ _ := Pipeline.ΦA spec1 c
  q _ := fullShare
  owed _ := 0

theorem A_eq (c : Dev nD) (w : Fin cfg1.W) : (dat V c).A w = V c (Pipeline.arrRef spec1 w) := by
  dsimp only [dat]

theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = blk V c 2 t := by dsimp only [dat]
theorem after3 (c : Dev nD) (t : Fin cfg1.N) :
    (dat V c).after 3 t = outBlock (blk V c 0 t) (blk V c 1 t) (blk V c 2 t) := by dsimp only [dat]

theorem found0 (c : Dev nD) (t : Fin cfg1.N) (d) : (dat V c).before 0 t d = blk V c 0 t :=
  found0_of V (dat V c) (A_eq V c 0) (after0 V c) t d
theorem found1 (c : Dev nD) (t : Fin cfg1.N) (d) : (dat V c).before 1 t d = blk V c 1 t :=
  found1_of V (dat V c) (A_eq V c 1) (after1 V c) t d
theorem found2 (c : Dev nD) (t : Fin cfg1.N) (d) : (dat V c).before 2 t d = blk V c 2 t :=
  found2_of V (dat V c) (A_eq V c 2) (after2 V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the input buffers hold their blocks, so the triple applies; the invariant and what the
    core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [found0, found1, found2]
  rw [show (dat V c).Φ t.succ = (dat V c).Φ t.castSucc from rfl,
    show (dat V c).owesAt () t.succ = (dat V c).owesAt () t.castSucc from rfl,
    after0, after1, after2, after3]
  iintro ⟨HΦ, Ho, ⟨%d0, H0⟩, ⟨%d1, H1⟩, ⟨%d2, H2⟩, ⟨%d3, H3⟩⟩
  iapply (body_triple c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the call, at every point. -/
theorem body_obligation (c : Dev nD) : BodyObligation (dat (F := F) V c) (defs₀ (F := F)) Variants.none () Set.univ := fun t => by
  rw [bigSep_W1, bigSep_W1]
  exact sound_body V c t

end Cert.Kernel.VProj

end
-- ==== Proof.Bits.Flash.Conds.lean ====
/-
  The attention call: where on its 4×4×8 grid the body's two branches are taken, and where its output
  window is idle.

  The innermost grid coordinate walks the eight key/value blocks of one (batch, query tile) pair. The first
  branch (resetting the running maximum, the running denominator and the accumulator) is taken exactly at
  the first of the eight; the second (normalising the accumulator and storing the output tile) exactly at the
  last. Elsewhere the output buffer is neither stored into nor written back.
-/
import proofs.«133897_j52853867545194_2_alg».proof.Proof.Gen.Kernel.Launch
import proofs.«133897_j52853867545194_2_alg».proof.Proof.Gen.Kernel.Skeleton
import proofs.«133897_j52853867545194_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The reset branch's condition, from the grid coordinates. -/
abbrev condFirst (i : grid2.Coords) : Prop :=
  (Scalar.cmpi .ne (Scalar.extui (Scalar.cmpi .eq (BitVec.ofNat 32 (i 2).val) 0#32)) 0#32) = 1#1
/-- It holds at the points ≡ 0 (mod 8). -/
theorem condFirst_iff : ∀ t : Fin cfg2.N, condFirst (grid2.coords t) ↔ t.val % 8 = 0 :=
  (by decide +kernel : ∀ t : Fin grid2.N, condFirst (grid2.coords t) ↔ t.val % 8 = 0)

/-- The output branch's condition. -/
abbrev condLast (i : grid2.Coords) : Prop := k2_cond2 i = 1#1
/-- It holds at the points ≡ 7 (mod 8). -/
theorem condLast_iff : ∀ t : Fin cfg2.N, condLast (grid2.coords t) ↔ t.val % 8 = 7 :=
  (by decide +kernel : ∀ t : Fin grid2.N, condLast (grid2.coords t) ↔ t.val % 8 = 7)

/-- The input windows are never idle. -/
theorem live0 : ∀ t : Fin cfg2.N, cfg2.idle 0 (grid2.coords t) = false := by decide +kernel
theorem live1 : ∀ t : Fin cfg2.N, cfg2.idle 1 (grid2.coords t) = false := by decide +kernel
theorem live2 : ∀ t : Fin cfg2.N, cfg2.idle 2 (grid2.coords t) = false := by decide +kernel
/-- The output window is idle, and not written back, away from the last key/value block; -/
theorem idle3 : ∀ t : Fin cfg2.N, ¬condLast (grid2.coords t) → cfg2.idle 3 (grid2.coords t) = true := by decide +kernel
theorem noFlush3 : ∀ t : Fin cfg2.N, ¬condLast (grid2.coords t) → (cfg2.win 3).flush t = false := by decide +kernel
/-- and live there. -/
theorem live3 : ∀ t : Fin cfg2.N, condLast (grid2.coords t) → cfg2.idle 3 (grid2.coords t) = false := by decide +kernel

/-- The windows' current staging memrefs at a point, as the pipeline passes them, and their wholeness. -/
abbrev mQ (t : Fin cfg2.N) : Memref sig .tc .vmem S1x512x1024 .f32 := win2_0.stage (cfg2.slots t 0)
abbrev hQ (t : Fin cfg2.N) : (mQ t).IsWhole := hstage2_0 ((cfg2.slots t 0).cast nbuf2_0)
abbrev mK (t : Fin cfg2.N) : Memref sig .tc .vmem S1x256x1024 .f32 := win2_1.stage (cfg2.slots t 1)
abbrev hK (t : Fin cfg2.N) : (mK t).IsWhole := hstage2_1 ((cfg2.slots t 1).cast nbuf2_1)
abbrev mV (t : Fin cfg2.N) : Memref sig .tc .vmem S1x256x1024 .bf16 := win2_2.stage (cfg2.slots t 2)
abbrev hV (t : Fin cfg2.N) : (mV t).IsWhole := hstage2_2 ((cfg2.slots t 2).cast nbuf2_2)
abbrev mO (t : Fin cfg2.N) : Memref sig .tc .vmem S1x512x1024 .f32 := win2_3.stage (cfg2.slots t 3)
abbrev hO (t : Fin cfg2.N) : (mO t).IsWhole := hstage2_3 ((cfg2.slots t 3).cast nbuf2_3)
/-- The three scratch operands: the running maximum, the running denominator, the accumulator. -/
abbrev sM : Memref sig .tc .vmem S1x512x1 .f32 := Memref.whole cc2_scratch0
abbrev sL : Memref sig .tc .vmem S1x512x1 .f32 := Memref.whole cc2_scratch1
abbrev sA : Memref sig .tc .vmem S1x512x1024 .f32 := Memref.whole cc2_scratch2
/-- One staging buffer of the output window, through which its contents are stated. -/
abbrev vO : View sig .tc .vmem S1x512x1024 .f32 := (Memref.whole cc2_stg3_0 : Memref sig .tc .vmem S1x512x1024 .f32).view

end Cert.Kernel.Flash

end
-- ==== Proof.Bits.Flash.RunFirst.lean ====
/-
  The attention call's body, run once at a first key/value block: the reset branch taken, the output branch not.
-/
import proofs.«133897_j52853867545194_2_alg».proof.Proof.Gen.Kernel.Launch
import proofs.«133897_j52853867545194_2_alg».proof.Proof.Gen.Kernel.Skeleton
import proofs.«133897_j52853867545194_2_alg».proof.Proof.Gen.Kernel.Points
import proofs.«133897_j52853867545194_2_alg».proof.Proof.Bits.Flash.Conds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave in the scratch buffers, as pieces (last first), with the proof that on whole
    memrefs — the three inputs at their contents, the scratch buffers at anything —
    the body runs to the continuation holding the inputs as they were and each stored buffer with its pieces
    written. The pieces are what the run finds. -/
noncomputable def runFirst (c : Dev nD) (i : grid2.Coords)
    (a3 : Memref sig .tc .vmem S1x512x1024 .f32) (h3 : a3.IsWhole) (a4 : Memref sig .tc .vmem S1x256x1024 .f32) (h4 : a4.IsWhole)
    (a5 : Memref sig .tc .vmem S1x256x1024 .bf16) (h5 : a5.IsWhole) (a6 : Memref sig .tc .vmem S1x512x1024 .f32) (h6 : a6.IsWhole)
    (a7 : Memref sig .tc .vmem S1x512x1 .f32) (h7 : a7.IsWhole) (a8 : Memref sig .tc .vmem S1x512x1 .f32) (h8 : a8.IsWhole)
    (a9 : Memref sig .tc .vmem S1x512x1024 .f32) (h9 : a9.IsWhole)
    (hc1 : condFirst i) (hc2 : ¬condLast i)
    (xq : Vec F S1x512x1024 .f32) (xk : Vec F S1x256x1024 .f32) (xv : Vec F S1x256x1024 .bf16) :
    Σ' (LM : List (View.Piece (Elt F) S1x512x1 .f32)) (LL : List (View.Piece (Elt F) S1x512x1 .f32)), { LA : List (View.Piece (Elt F) S1x512x1024 .f32) //
      ∀ (E : Set ℕ) (K : PUnit → sProp 𝕄),
        iprop(owns (c : Thread nD τ) a3 fullShare xq ∗ owns (c : Thread nD τ) a4 fullShare xk ∗ owns (c : Thread nD τ) a5 fullShare xv
            ∗ (∃ d, owns (c : Thread nD τ) a7 fullShare d) ∗ (∃ d, owns (c : Thread nD τ) a8 fullShare d) ∗ (∃ d, owns (c : Thread nD τ) a9 fullShare d)
            ∗ (iprop(owns (c : Thread nD τ) a3 fullShare xq ∗ owns (c : Thread nD τ) a4 fullShare xk ∗ owns (c : Thread nD τ) a5 fullShare xv
                ∗ (∃ f, a7.view.loc (c : Thread nD τ) ↦[a7.view.set]{fullShare} a7.view.writes (Elt F) f LM) ∗ (∃ f, a8.view.loc (c : Thread nD τ) ↦[a8.view.set]{fullShare} a8.view.writes (Elt F) f LL) ∗ (∃ f, a9.view.loc (c : Thread nD τ) ↦[a9.view.set]{fullShare} a9.view.writes (Elt F) f LA)) -∗ K ⟨⟩))
          ⊢ wp frame (wpE (defs₀ (F := F)) Variants.none c none) E (cc2__flash_kernel i a3 h3 a4 h4 a5 h5 a6 h6 a7 h7 a8 h8 a9 h9) K } := by
  refine ⟨?_, ?_, ?_, fun E K => ?run⟩
  case run =>
    simp only [cc2__flash_kernel_eq_skeleton]; unfold cc2__flash_kernel_skel
    unfold owns
    iintro ⟨⟨%f3, %hf3, H3⟩, ⟨%f4, %hf4, H4⟩, ⟨%f5, %hf5, H5⟩, ⟨%d7, %f7, -, H7⟩, ⟨%d8, %f8, -, H8⟩, ⟨%d9, %f9, -, H9⟩, Hk⟩
    obtain rfl := h3.eq_unread hf3; obtain rfl := h4.eq_unread hf4; obtain rfl := h5.eq_unread hf5
    sl_exec (disch := first | exact hc1 | exact hc2)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H7]; · iexists _; iexact H7
    isplitl [H8]; · iexists _; iexact H8
    iexists _; iexact H9

end Cert.Kernel.Flash

end
-- ==== Proof.Bits.Flash.RunMid.lean ====
/-
  The attention call's body, run once at a key/value block that is neither the first nor the last: neither branch taken.
-/
import proofs.«133897_j52853867545194_2_alg».proof.Proof.Gen.Kernel.Launch
import proofs.«133897_j52853867545194_2_alg».proof.Proof.Gen.Kernel.Skeleton
import proofs.«133897_j52853867545194_2_alg».proof.Proof.Gen.Kernel.Points
import proofs.«133897_j52853867545194_2_alg».proof.Proof.Bits.Flash.Conds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave in the scratch buffers, as pieces (last first), with the proof that on whole
    memrefs — the three inputs at their contents, the scratch buffers at what the point before left —
    the body runs to the continuation holding the inputs as they were and each stored buffer with its pieces
    written. The pieces are what the run finds. -/
noncomputable def runMid (c : Dev nD) (i : grid2.Coords)
    (a3 : Memref sig .tc .vmem S1x512x1024 .f32) (h3 : a3.IsWhole) (a4 : Memref sig .tc .vmem S1x256x1024 .f32) (h4 : a4.IsWhole)
    (a5 : Memref sig .tc .vmem S1x256x1024 .bf16) (h5 : a5.IsWhole) (a6 : Memref sig .tc .vmem S1x512x1024 .f32) (h6 : a6.IsWhole)
    (a7 : Memref sig .tc .vmem S1x512x1 .f32) (h7 : a7.IsWhole) (a8 : Memref sig .tc .vmem S1x512x1 .f32) (h8 : a8.IsWhole)
    (a9 : Memref sig .tc .vmem S1x512x1024 .f32) (h9 : a9.IsWhole)
    (hc1 : ¬condFirst i) (hc2 : ¬condLast i)
    (xq : Vec F S1x512x1024 .f32) (xk : Vec F S1x256x1024 .f32) (xv : Vec F S1x256x1024 .bf16)
    (xm : Vec F S1x512x1 .f32) (xl : Vec F S1x512x1 .f32) (xa : Vec F S1x512x1024 .f32) :
    Σ' (LM : List (View.Piece (Elt F) S1x512x1 .f32)) (LL : List (View.Piece (Elt F) S1x512x1 .f32)), { LA : List (View.Piece (Elt F) S1x512x1024 .f32) //
      ∀ (E : Set ℕ) (K : PUnit → sProp 𝕄),
        iprop(owns (c : Thread nD τ) a3 fullShare xq ∗ owns (c : Thread nD τ) a4 fullShare xk ∗ owns (c : Thread nD τ) a5 fullShare xv
            ∗ owns (c : Thread nD τ) a7 fullShare xm ∗ owns (c : Thread nD τ) a8 fullShare xl ∗ owns (c : Thread nD τ) a9 fullShare xa
            ∗ (iprop(owns (c : Thread nD τ) a3 fullShare xq ∗ owns (c : Thread nD τ) a4 fullShare xk ∗ owns (c : Thread nD τ) a5 fullShare xv
                ∗ (∃ f, a7.view.loc (c : Thread nD τ) ↦[a7.view.set]{fullShare} a7.view.writes (Elt F) f LM) ∗ (∃ f, a8.view.loc (c : Thread nD τ) ↦[a8.view.set]{fullShare} a8.view.writes (Elt F) f LL) ∗ (∃ f, a9.view.loc (c : Thread nD τ) ↦[a9.view.set]{fullShare} a9.view.writes (Elt F) f LA)) -∗ K ⟨⟩))
          ⊢ wp frame (wpE (defs₀ (F := F)) Variants.none c none) E (cc2__flash_kernel i a3 h3 a4 h4 a5 h5 a6 h6 a7 h7 a8 h8 a9 h9) K } := by
  refine ⟨?_, ?_, ?_, fun E K => ?run⟩
  case run =>
    simp only [cc2__flash_kernel_eq_skeleton]; unfold cc2__flash_kernel_skel
    unfold owns
    iintro ⟨⟨%f3, %hf3, H3⟩, ⟨%f4, %hf4, H4⟩, ⟨%f5, %hf5, H5⟩, ⟨%f7, %hf7, H7⟩, ⟨%f8, %hf8, H8⟩, ⟨%f9, %hf9, H9⟩, Hk⟩
    obtain rfl := h3.eq_unread hf3; obtain rfl := h4.eq_unread hf4; obtain rfl := h5.eq_unread hf5
    obtain rfl := h7.eq_unread hf7; obtain rfl := h8.eq_unread hf8; obtain rfl := h9.eq_unread hf9
    sl_exec (disch := first | exact hc1 | exact hc2)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H7]; · iexists _; iexact H7
    isplitl [H8]; · iexists _; iexact H8
    iexists _; iexact H9

end Cert.Kernel.Flash

end
-- ==== Proof.Bits.Flash.RunLast.lean ====
/-
  The attention call's body, run once at a last key/value block: the reset branch not taken, the output branch taken.
-/
import proofs.«133897_j52853867545194_2_alg».proof.Proof.Gen.Kernel.Launch
import proofs.«133897_j52853867545194_2_alg».proof.Proof.Gen.Kernel.Skeleton
import proofs.«133897_j52853867545194_2_alg».proof.Proof.Gen.Kernel.Points
import proofs.«133897_j52853867545194_2_alg».proof.Proof.Bits.Flash.Conds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave in the scratch buffers and the output buffer, as pieces (last first), with the proof that on whole
    memrefs — the three inputs at their contents, the scratch buffers at what the point before left —
    the body runs to the continuation holding the inputs as they were and each stored buffer with its pieces
    written. The pieces are what the run finds. -/
noncomputable def runLast (c : Dev nD) (i : grid2.Coords)
    (a3 : Memref sig .tc .vmem S1x512x1024 .f32) (h3 : a3.IsWhole) (a4 : Memref sig .tc .vmem S1x256x1024 .f32) (h4 : a4.IsWhole)
    (a5 : Memref sig .tc .vmem S1x256x1024 .bf16) (h5 : a5.IsWhole) (a6 : Memref sig .tc .vmem S1x512x1024 .f32) (h6 : a6.IsWhole)
    (a7 : Memref sig .tc .vmem S1x512x1 .f32) (h7 : a7.IsWhole) (a8 : Memref sig .tc .vmem S1x512x1 .f32) (h8 : a8.IsWhole)
    (a9 : Memref sig .tc .vmem S1x512x1024 .f32) (h9 : a9.IsWhole)
    (hc1 : ¬condFirst i) (hc2 : condLast i)
    (xq : Vec F S1x512x1024 .f32) (xk : Vec F S1x256x1024 .f32) (xv : Vec F S1x256x1024 .bf16)
    (xm : Vec F S1x512x1 .f32) (xl : Vec F S1x512x1 .f32) (xa : Vec F S1x512x1024 .f32) :
    Σ' (LO : List (View.Piece (Elt F) S1x512x1024 .f32)) (LM : List (View.Piece (Elt F) S1x512x1 .f32)) (LL : List (View.Piece (Elt F) S1x512x1 .f32)), { LA : List (View.Piece (Elt F) S1x512x1024 .f32) //
      ∀ (E : Set ℕ) (K : PUnit → sProp 𝕄),
        iprop(owns (c : Thread nD τ) a3 fullShare xq ∗ owns (c : Thread nD τ) a4 fullShare xk ∗ owns (c : Thread nD τ) a5 fullShare xv
            ∗ (∃ d, owns (c : Thread nD τ) a6 fullShare d)
            ∗ owns (c : Thread nD τ) a7 fullShare xm ∗ owns (c : Thread nD τ) a8 fullShare xl ∗ owns (c : Thread nD τ) a9 fullShare xa
            ∗ (iprop(owns (c : Thread nD τ) a3 fullShare xq ∗ owns (c : Thread nD τ) a4 fullShare xk ∗ owns (c : Thread nD τ) a5 fullShare xv
                ∗ (∃ f, a6.view.loc (c : Thread nD τ) ↦[a6.view.set]{fullShare} a6.view.writes (Elt F) f LO)
                ∗ (∃ f, a7.view.loc (c : Thread nD τ) ↦[a7.view.set]{fullShare} a7.view.writes (Elt F) f LM) ∗ (∃ f, a8.view.loc (c : Thread nD τ) ↦[a8.view.set]{fullShare} a8.view.writes (Elt F) f LL) ∗ (∃ f, a9.view.loc (c : Thread nD τ) ↦[a9.view.set]{fullShare} a9.view.writes (Elt F) f LA)) -∗ K ⟨⟩))
          ⊢ wp frame (wpE (defs₀ (F := F)) Variants.none c none) E (cc2__flash_kernel i a3 h3 a4 h4 a5 h5 a6 h6 a7 h7 a8 h8 a9 h9) K } := by
  refine ⟨?_, ?_, ?_, ?_, fun E K => ?run⟩
  case run =>
    simp only [cc2__flash_kernel_eq_skeleton]; unfold cc2__flash_kernel_skel
    unfold owns
    iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := h3.eq_unread hf3; obtain rfl := h4.eq_unread hf4; obtain rfl := h5.eq_unread hf5
    obtain rfl := h7.eq_unread hf7; obtain rfl := h8.eq_unread hf8; obtain rfl := h9.eq_unread hf9
    sl_exec (disch := first | exact hc1 | exact hc2)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [H7]; · iexists _; iexact H7
    isplitl [H8]; · iexists _; iexact H8
    iexists _; iexact H9

end Cert.Kernel.Flash

end
-- ==== Proof.Bits.Flash.Scratch.lean ====
/-
  The attention call: what its three scratch buffers hold after every grid point, its proof data, and the body
  obligation.

  The 128 grid points run in order; the innermost coordinate walks the eight key/value blocks of one (batch,
  query tile) pair. After each point the three scratch buffers hold the running row maximum, the running
  denominator and the running accumulator of the online softmax over the key/value blocks met so far: at the
  first block they are computed from the reset values, afterwards from what the point before left. At the last
  block the output buffer receives the normalised, scaled accumulator; elsewhere it is idle.
-/
import proofs.«133897_j52853867545194_2_alg».proof.Proof.Gen.Kernel.Launch
import proofs.«133897_j52853867545194_2_alg».proof.Proof.Gen.Kernel.Skeleton
import proofs.«133897_j52853867545194_2_alg».proof.Proof.Gen.Kernel.Points
import proofs.«133897_j52853867545194_2_alg».proof.Proof.Bits.Flash.RunFirst
import proofs.«133897_j52853867545194_2_alg».proof.Proof.Bits.Flash.RunMid
import proofs.«133897_j52853867545194_2_alg».proof.Proof.Bits.Flash.RunLast
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-- Window `w`'s block at grid point `t`, read off the window's array as the call finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not. -/
theorem found0_of {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found1_of {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found2_of {c : Dev nD} (dat : Dat τ (Elt F) Unit ℕ (UR sig nD τ) ℕ cfg2 c) (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## What the scratch buffers hold after each point -/

/-- The running maximum, the running denominator and the accumulator. -/
abbrev Scr (F : FTy → Type) : Type := Vec F S1x512x1 .f32 × Vec F S1x512x1 .f32 × Vec F S1x512x1024 .f32

/-- A list of stores read back as one buffer's contents (the contents before them do not matter once they cover). -/
def rdM (L : List (View.Piece (Elt F) S1x512x1 .f32)) : Vec F S1x512x1 .f32 :=
  sM.view.read (Elt F) (sM.view.writes (Elt F) sM.view.junk L)
def rdL (L : List (View.Piece (Elt F) S1x512x1 .f32)) : Vec F S1x512x1 .f32 :=
  sL.view.read (Elt F) (sL.view.writes (Elt F) sL.view.junk L)
def rdA (L : List (View.Piece (Elt F) S1x512x1024 .f32)) : Vec F S1x512x1024 .f32 :=
  sA.view.read (Elt F) (sA.view.writes (Elt F) sA.view.junk L)
def rdO (L : List (View.Piece (Elt F) S1x512x1024 .f32)) : Vec F S1x512x1024 .f32 :=
  vO.read (Elt F) (vO.writes (Elt F) vO.junk L)

theorem notLast_of_first (t : Fin cfg2.N) (h : t.val % 8 = 0) : ¬condLast (grid2.coords t) :=
  fun hl => by have := (condLast_iff t).mp hl; omega

/-- The run at a first key/value block, on the point's buffers and blocks. -/
def runFirstAt (c : Dev nD) (t : Fin cfg2.N) (h : t.val % 8 = 0) :=
  runFirst (F := F) c (grid2.coords t) (mQ t) (hQ t) (mK t) (hK t) (mV t) (hV t) (mO t) (hO t) sM (Memref.isWhole_whole _) sL (Memref.isWhole_whole _) sA (Memref.isWhole_whole _) ((condFirst_iff t).mpr h) (notLast_of_first t h) (blk V c 0 t) (blk V c 1 t) (blk V c 2 t)
/-- The run at a block neither first nor last, from what the point before left. -/
def runMidAt (c : Dev nD) (t : Fin cfg2.N) (h1 : ¬t.val % 8 = 0) (h2 : ¬t.val % 8 = 7) (s : Scr F) :=
  runMid (F := F) c (grid2.coords t) (mQ t) (hQ t) (mK t) (hK t) (mV t) (hV t) (mO t) (hO t) sM (Memref.isWhole_whole _) sL (Memref.isWhole_whole _) sA (Memref.isWhole_whole _) (fun h => h1 ((condFirst_iff t).mp h)) (fun h => h2 ((condLast_iff t).mp h)) (blk V c 0 t) (blk V c 1 t) (blk V c 2 t) s.1 s.2.1 s.2.2
/-- The run at a last block. -/
def runLastAt (c : Dev nD) (t : Fin cfg2.N) (h1 : ¬t.val % 8 = 0) (h2 : t.val % 8 = 7) (s : Scr F) :=
  runLast (F := F) c (grid2.coords t) (mQ t) (hQ t) (mK t) (hK t) (mV t) (hV t) (mO t) (hO t) sM (Memref.isWhole_whole _) sL (Memref.isWhole_whole _) sA (Memref.isWhole_whole _) (fun h => h1 ((condFirst_iff t).mp h)) ((condLast_iff t).mpr h2) (blk V c 0 t) (blk V c 1 t) (blk V c 2 t) s.1 s.2.1 s.2.2

/-- The scratch contents after point `n`, by recursion on the point. -/
def scr (c : Dev nD) : (n : ℕ) → n < cfg2.N → Scr F
  | 0, hn => (rdM (runFirstAt V c ⟨0, hn⟩ rfl).1, rdL (runFirstAt V c ⟨0, hn⟩ rfl).2.1, rdA (runFirstAt V c ⟨0, hn⟩ rfl).2.2.1)
  | n + 1, hn =>
    if h1 : (n + 1) % 8 = 0 then
      (rdM (runFirstAt V c ⟨n + 1, hn⟩ h1).1, rdL (runFirstAt V c ⟨n + 1, hn⟩ h1).2.1, rdA (runFirstAt V c ⟨n + 1, hn⟩ h1).2.2.1)
    else if h2 : (n + 1) % 8 = 7 then
      (rdM (runLastAt V c ⟨n + 1, hn⟩ h1 h2 (scr c n (Nat.lt_of_succ_lt hn))).2.1,
       rdL (runLastAt V c ⟨n + 1, hn⟩ h1 h2 (scr c n (Nat.lt_of_succ_lt hn))).2.2.1,
       rdA (runLastAt V c ⟨n + 1, hn⟩ h1 h2 (scr c n (Nat.lt_of_succ_lt hn))).2.2.2.1)
    else
      (rdM (runMidAt V c ⟨n + 1, hn⟩ h1 h2 (scr c n (Nat.lt_of_succ_lt hn))).1,
       rdL (runMidAt V c ⟨n + 1, hn⟩ h1 h2 (scr c n (Nat.lt_of_succ_lt hn))).2.1,
       rdA (runMidAt V c ⟨n + 1, hn⟩ h1 h2 (scr c n (Nat.lt_of_succ_lt hn))).2.2.1)

/-- What the point before `t` left (for a point that is not the first of all). -/
def prev (c : Dev nD) (t : Fin cfg2.N) : Scr F :=
  if hz : t.val = 0 then scr V c 0 (by rw [← hz]; exact t.isLt)
  else scr V c (t.val - 1) (Nat.lt_of_le_of_lt (Nat.sub_le _ _) t.isLt)

theorem scr_first (c : Dev nD) (t : Fin cfg2.N) (h : t.val % 8 = 0) :
    scr V c t.val t.isLt = (rdM (runFirstAt V c t h).1, rdL (runFirstAt V c t h).2.1, rdA (runFirstAt V c t h).2.2.1) := by
  obtain ⟨n, hn⟩ := t
  cases n with
  | zero => rfl
  | succ n => exact dif_pos h

theorem scr_mid (c : Dev nD) (t : Fin cfg2.N) (h1 : ¬t.val % 8 = 0) (h2 : ¬t.val % 8 = 7) :
    scr V c t.val t.isLt = (rdM (runMidAt V c t h1 h2 (prev V c t)).1, rdL (runMidAt V c t h1 h2 (prev V c t)).2.1, rdA (runMidAt V c t h1 h2 (prev V c t)).2.2.1) := by
  obtain ⟨n, hn⟩ := t
  cases n with
  | zero => exact absurd (Nat.zero_mod _) h1
  | succ n =>
    have hp : prev V c ⟨n + 1, hn⟩ = scr V c n (Nat.lt_of_succ_lt hn) := by unfold prev; exact dif_neg (Nat.succ_ne_zero n)
    rw [hp]
    exact (dif_neg h1).trans (dif_neg h2)

theorem scr_last (c : Dev nD) (t : Fin cfg2.N) (h1 : ¬t.val % 8 = 0) (h2 : t.val % 8 = 7) :
    scr V c t.val t.isLt = (rdM (runLastAt V c t h1 h2 (prev V c t)).2.1, rdL (runLastAt V c t h1 h2 (prev V c t)).2.2.1, rdA (runLastAt V c t h1 h2 (prev V c t)).2.2.2.1) := by
  obtain ⟨n, hn⟩ := t
  cases n with
  | zero => exact absurd (Nat.zero_mod _) h1
  | succ n =>
    have hp : prev V c ⟨n + 1, hn⟩ = scr V c n (Nat.lt_of_succ_lt hn) := by unfold prev; exact dif_neg (Nat.succ_ne_zero n)
    rw [hp]
    exact (dif_neg h1).trans (dif_pos h2)

/-- What the output buffer holds after point `t`: at a last key/value block, the run's store read back; elsewhere
    nothing is stored and nothing consults this. -/
def outAt (c : Dev nD) (t : Fin cfg2.N) : Vec F S1x512x1024 .f32 :=
  if h2 : t.val % 8 = 7 then rdO (runLastAt V c t (by omega) h2 (prev V c t)).1 else rdO []

theorem outAt_last (c : Dev nD) (t : Fin cfg2.N) (h1 : ¬t.val % 8 = 0) (h2 : t.val % 8 = 7) :
    outAt V c t = rdO (runLastAt V c t h1 h2 (prev V c t)).1 := dif_pos h2

/-! ## The stores cover their buffers -/

theorem coverFirstM (c : Dev nD) (t : Fin cfg2.N) (h : t.val % 8 = 0) (y : S1x512x1.Idx) : ∃ pc ∈ (runFirstAt V c t h).1, y ∈ pc.1.set :=
  View.cover_of_tiledL (runFirstAt V c t h).1 S1x512x1.size (by sl_kernel_rfl) y
theorem coverFirstL (c : Dev nD) (t : Fin cfg2.N) (h : t.val % 8 = 0) (y : S1x512x1.Idx) : ∃ pc ∈ (runFirstAt V c t h).2.1, y ∈ pc.1.set :=
  View.cover_of_tiledL (runFirstAt V c t h).2.1 S1x512x1.size (by sl_kernel_rfl) y
theorem coverFirstA (c : Dev nD) (t : Fin cfg2.N) (h : t.val % 8 = 0) (y : S1x512x1024.Idx) : ∃ pc ∈ (runFirstAt V c t h).2.2.1, y ∈ pc.1.set :=
  View.cover_of_tiledL (runFirstAt V c t h).2.2.1 S1x512x1024.size (by sl_kernel_rfl) y
theorem coverMidM (c : Dev nD) (t : Fin cfg2.N) (h1 h2) (s : Scr F) (y : S1x512x1.Idx) : ∃ pc ∈ (runMidAt V c t h1 h2 s).1, y ∈ pc.1.set :=
  View.cover_of_tiledL (runMidAt V c t h1 h2 s).1 S1x512x1.size (by sl_kernel_rfl) y
theorem coverMidL (c : Dev nD) (t : Fin cfg2.N) (h1 h2) (s : Scr F) (y : S1x512x1.Idx) : ∃ pc ∈ (runMidAt V c t h1 h2 s).2.1, y ∈ pc.1.set :=
  View.cover_of_tiledL (runMidAt V c t h1 h2 s).2.1 S1x512x1.size (by sl_kernel_rfl) y
theorem coverMidA (c : Dev nD) (t : Fin cfg2.N) (h1 h2) (s : Scr F) (y : S1x512x1024.Idx) : ∃ pc ∈ (runMidAt V c t h1 h2 s).2.2.1, y ∈ pc.1.set :=
  View.cover_of_tiledL (runMidAt V c t h1 h2 s).2.2.1 S1x512x1024.size (by sl_kernel_rfl) y
theorem coverLastO (c : Dev nD) (t : Fin cfg2.N) (h1 h2) (s : Scr F) (y : S1x512x1024.Idx) : ∃ pc ∈ (runLastAt V c t h1 h2 s).1, y ∈ pc.1.set :=
  View.cover_of_tiledL (runLastAt V c t h1 h2 s).1 S1x512x1024.size (by sl_kernel_rfl) y
theorem coverLastM (c : Dev nD) (t : Fin cfg2.N) (h1 h2) (s : Scr F) (y : S1x512x1.Idx) : ∃ pc ∈ (runLastAt V c t h1 h2 s).2.1, y ∈ pc.1.set :=
  View.cover_of_tiledL (runLastAt V c t h1 h2 s).2.1 S1x512x1.size (by sl_kernel_rfl) y
theorem coverLastL (c : Dev nD) (t : Fin cfg2.N) (h1 h2) (s : Scr F) (y : S1x512x1.Idx) : ∃ pc ∈ (runLastAt V c t h1 h2 s).2.2.1, y ∈ pc.1.set :=
  View.cover_of_tiledL (runLastAt V c t h1 h2 s).2.2.1 S1x512x1.size (by sl_kernel_rfl) y
theorem coverLastA (c : Dev nD) (t : Fin cfg2.N) (h1 h2) (s : Scr F) (y : S1x512x1024.Idx) : ∃ pc ∈ (runLastAt V c t h1 h2 s).2.2.2.1, y ∈ pc.1.set :=
  View.cover_of_tiledL (runLastAt V c t h1 h2 s).2.2.2.1 S1x512x1024.size (by sl_kernel_rfl) y

end Cert.Kernel.Flash

end
-- ==== Proof.Bits.Flash.Body.lean ====
/-
  The attention call: the region invariant that carries the three scratch buffers from point to point, the
  proof data, and the body obligation at every grid point.

  Before the first point the scratch buffers hold anything; after point `n` they hold the running maximum,
  denominator and accumulator `scr n`. The rest of the invariant — the staging buffers of the two projection
  calls and the generator register — passes through every point untouched. The two query/key windows read ONE
  array, each through half of the share; the value window and the output window hold their arrays whole.
-/
import proofs.«133897_j52853867545194_2_alg».proof.Proof.Gen.Kernel.Launch
import proofs.«133897_j52853867545194_2_alg».proof.Proof.Gen.Kernel.Skeleton
import proofs.«133897_j52853867545194_2_alg».proof.Proof.Gen.Kernel.Points
import proofs.«133897_j52853867545194_2_alg».proof.Proof.Bits.Flash.Scratch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What every point leaves alone: the twelve staging buffers of the two projection calls, each at anything, and
    the generator register at some state. -/
def others (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f)) ∗ ∃ r, prngReg c r)

/-- The launch's class invariant is that and the three scratch buffers at anything. -/
theorem PhiA_open (c : Dev nD) : (Pipeline.ΦA spec2 c : sProp 𝕄)
    ⊢ iprop(others (F := F) c ∗ (∃ d, owns (c : Thread nD τ) sM fullShare d) ∗ (∃ d, owns (c : Thread nD τ) sL fullShare d) ∗ (∃ d, owns (c : Thread nD τ) sA fullShare d)) := by
  unfold Pipeline.ΦA others; rw [scopedRest2_eq]; simp only [sM, sL, sA, owns_whole]
  iintro ⟨⟨G0, G1, G2, G3, G4, G5, G6, G7, G8, G9, G10, G11, S0, S1, S2⟩, Hg⟩
  isplitl [G0 G1 G2 G3 G4 G5 G6 G7 G8 G9 G10 G11 Hg]
  · isplitl [G0 G1 G2 G3 G4 G5 G6 G7 G8 G9 G10 G11]
    ·
      isplitl [G0]; · iexact G0
      isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      isplitl [G9]; · iexact G9
      isplitl [G10]; · iexact G10
      iexact G11
    iexact Hg
  isplitl [S0]; · iexact S0
  isplitl [S1]; · iexact S1
  iexact S2

theorem PhiA_close (c : Dev nD) :
    iprop(others (F := F) c ∗ (∃ d, owns (c : Thread nD τ) sM fullShare d) ∗ (∃ d, owns (c : Thread nD τ) sL fullShare d) ∗ (∃ d, owns (c : Thread nD τ) sA fullShare d))
    ⊢ (Pipeline.ΦA spec2 c : sProp 𝕄) := by
  unfold Pipeline.ΦA others; rw [scopedRest2_eq]; simp only [sM, sL, sA, owns_whole]
  iintro ⟨⟨⟨G0, G1, G2, G3, G4, G5, G6, G7, G8, G9, G10, G11⟩, Hg⟩, S0, S1, S2⟩
  isplitr [Hg]
  · skip
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [S0]; · iexact S0
    isplitl [S1]; · iexact S1
    iexact S2
  iexact Hg

/-- The scratch buffers before position `n`: at anything before the first point, then at what the point before left. -/
def scrRes (c : Dev nD) : (n : ℕ) → n ≤ cfg2.N → sProp 𝕄
  | 0, _ => iprop((∃ d, owns (c : Thread nD τ) sM fullShare d) ∗ (∃ d, owns (c : Thread nD τ) sL fullShare d) ∗ (∃ d, owns (c : Thread nD τ) sA fullShare d))
  | n + 1, hn => iprop(owns (c : Thread nD τ) sM fullShare (scr V c n hn).1 ∗ owns (c : Thread nD τ) sL fullShare (scr V c n hn).2.1
      ∗ owns (c : Thread nD τ) sA fullShare (scr V c n hn).2.2)

theorem scrRes_succ (c : Dev nD) (n : ℕ) (hn : n < cfg2.N) :
    scrRes V c (n + 1) hn = iprop(owns (c : Thread nD τ) sM fullShare (scr V c n hn).1 ∗ owns (c : Thread nD τ) sL fullShare (scr V c n hn).2.1
      ∗ owns (c : Thread nD τ) sA fullShare (scr V c n hn).2.2) := rfl

/-- Whatever the position, the scratch buffers hold something. -/
theorem scrRes_any (c : Dev nD) (n : ℕ) (h : n ≤ cfg2.N) :
    scrRes V c n h ⊢ iprop((∃ d, owns (c : Thread nD τ) sM fullShare d) ∗ (∃ d, owns (c : Thread nD τ) sL fullShare d) ∗ (∃ d, owns (c : Thread nD τ) sA fullShare d)) := by
  cases n with
  | zero => exact .rfl
  | succ n =>
    rw [scrRes_succ]
    iintro ⟨HM, HL, HA⟩
    isplitl [HM]; · iexists _; iexact HM
    isplitl [HL]; · iexists _; iexact HL
    iexists _; iexact HA

/-- Before a point that is not the first of all: at what the point before left. -/
theorem scrRes_pos (c : Dev nD) (t : Fin cfg2.N) (hz : t.val ≠ 0) :
    scrRes V c t.val (Nat.le_of_lt t.isLt) = iprop(owns (c : Thread nD τ) sM fullShare (prev V c t).1 ∗ owns (c : Thread nD τ) sL fullShare (prev V c t).2.1
      ∗ owns (c : Thread nD τ) sA fullShare (prev V c t).2.2) := by
  obtain ⟨n, hn⟩ := t
  cases n with
  | zero => exact absurd rfl hz
  | succ n =>
    have hp : prev V c ⟨n + 1, hn⟩ = scr V c n (Nat.lt_of_succ_lt hn) := by unfold prev; exact dif_neg (Nat.succ_ne_zero n)
    rw [hp]; rfl

/-! ## The proof data -/

/-- The proof data on core `c`: the arrays as the call finds them; after the body at point `t` each input buffer
    still at its block and the output buffer at `outAt`; the invariant as above; nothing owed; the query/key array
    shared half and half between the two windows that read it. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => outAt V c t
  Φ t := iprop(others c ∗ scrRes V c t.val (Nat.le_of_lt_succ t.isLt))
  q w := match w with
    | ⟨0, _⟩ => fullShare.left
    | ⟨1, _⟩ => fullShare.right
    | _ => fullShare
  owed _ := 0

theorem A_eq (c : Dev nD) (w : Fin cfg2.W) : (dat V c).A w = V c (Pipeline.arrRef spec2 w) := by
  dsimp only [dat]
theorem after0 (c : Dev nD) (t : Fin cfg2.N) : (dat V c).after 0 t = blk V c 0 t := by dsimp only [dat]
theorem after1 (c : Dev nD) (t : Fin cfg2.N) : (dat V c).after 1 t = blk V c 1 t := by dsimp only [dat]
theorem after2 (c : Dev nD) (t : Fin cfg2.N) : (dat V c).after 2 t = blk V c 2 t := by dsimp only [dat]
theorem after3 (c : Dev nD) (t : Fin cfg2.N) : (dat V c).after 3 t = outAt V c t := by dsimp only [dat]

theorem found0 (c : Dev nD) (t : Fin cfg2.N) (d) : (dat V c).before 0 t d = blk V c 0 t :=
  found0_of V (dat V c) (A_eq V c 0) (after0 V c) t d
theorem found1 (c : Dev nD) (t : Fin cfg2.N) (d) : (dat V c).before 1 t d = blk V c 1 t :=
  found1_of V (dat V c) (A_eq V c 1) (after1 V c) t d
theorem found2 (c : Dev nD) (t : Fin cfg2.N) (d) : (dat V c).before 2 t d = blk V c 2 t :=
  found2_of V (dat V c) (A_eq V c 2) (after2 V c) t d

theorem Phi_castSucc (c : Dev nD) (t : Fin cfg2.N) :
    (dat V c).Φ t.castSucc = iprop(others c ∗ scrRes V c t.val (Nat.le_of_lt t.isLt)) := by
  dsimp only [dat]; simp only [Fin.coe_castSucc]
theorem Phi_succ (c : Dev nD) (t : Fin cfg2.N) :
    (dat V c).Φ t.succ = iprop(others c ∗ scrRes V c (t.val + 1) t.isLt) := rfl

/-! ## The body obligation -/

def bodyPre (c : Dev nD) (t : Fin cfg2.N) : sProp 𝕄 :=
  iprop((dat V c).Φ t.castSucc ∗ (dat V c).owesAt () t.castSucc
    ∗ (∃ d, owns (c : Thread nD τ) (mQ t) fullShare ((dat V c).before 0 t d))
    ∗ (∃ d, owns (c : Thread nD τ) (mK t) fullShare ((dat V c).before 1 t d))
    ∗ (∃ d, owns (c : Thread nD τ) (mV t) fullShare ((dat V c).before 2 t d))
    ∗ (∃ d, owns (c : Thread nD τ) (mO t) fullShare ((dat V c).before 3 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves0 (c : Dev nD) (t : Fin cfg2.N) : (dat V c).leavesExact 0 t = owns (c : Thread nD τ) (mQ t) fullShare (blk V c 0 t) := by
  unfold Dat.leavesExact; rw [live0 t, after0]
theorem leaves1 (c : Dev nD) (t : Fin cfg2.N) : (dat V c).leavesExact 1 t = owns (c : Thread nD τ) (mK t) fullShare (blk V c 1 t) := by
  unfold Dat.leavesExact; rw [live1 t, after1]
theorem leaves2 (c : Dev nD) (t : Fin cfg2.N) : (dat V c).leavesExact 2 t = owns (c : Thread nD τ) (mV t) fullShare (blk V c 2 t) := by
  unfold Dat.leavesExact; rw [live2 t, after2]

end Cert.Kernel.Flash

end
-- ==== Proof.Bits.Flash.BodyFirst.lean ====
/-
  The attention call's body obligation at a first key/value block.
-/
import proofs.«133897_j52853867545194_2_alg».proof.Proof.Gen.Kernel.Launch
import proofs.«133897_j52853867545194_2_alg».proof.Proof.Gen.Kernel.Skeleton
import proofs.«133897_j52853867545194_2_alg».proof.Proof.Gen.Kernel.Points
import proofs.«133897_j52853867545194_2_alg».proof.Proof.Bits.Flash.Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
theorem sound_first (c : Dev nD) (t : Fin cfg2.N) (h1 : t.val % 8 = 0) :
    bodyPre V c t ⊢ wp frame (wpE (defs₀ (F := F)) Variants.none c none) Set.univ (bodyAt2 t) (fun _ => bodyPost V c t) := by
  unfold bodyPre bodyPost bodyAt2
  simp only [found0, found1, found2]
  rw [show (dat V c).owesAt () t.succ = (dat V c).owesAt () t.castSucc from rfl, Phi_succ, Phi_castSucc, scrRes_succ,
    leaves0, leaves1, leaves2]
  rw [Dat.leavesExact_idle (dat V c) 3 t (idle3 t (notLast_of_first t h1)) (noFlush3 t (notLast_of_first t h1))]
  rw [scr_first V c t h1]
  dsimp only
  unfold rdM rdL rdA
  iintro ⟨⟨Hoth, HS⟩, Ho, ⟨%d0, H0⟩, ⟨%d1, H1⟩, ⟨%d2, H2⟩, H3⟩
  ihave HS' := (scrRes_any V c _ _) $$ HS
  icases HS' with ⟨HM, HL, HA⟩
  iapply ((runFirstAt V c t h1).2.2.2 Set.univ _)
  isplitl [H0]; · iexact H0
  isplitl [H1]; · iexact H1
  isplitl [H2]; · iexact H2
  isplitl [HM]; · iexact HM
  isplitl [HL]; · iexact HL
  isplitl [HA]; · iexact HA
  iintro ⟨H0, H1, H2, ⟨%eM, HM⟩, ⟨%eL, HL⟩, ⟨%eA, HA⟩⟩
  isplitl [Hoth HM HL HA]
  · isplitl [Hoth]; · iexact Hoth
    isplitl [HM]
    · unfold owns; iexists _; isplitr
      swap; · iexact HM
      ipureintro; exact View.read_writes_of_cover _ _ _ _ _ (coverFirstM V c t h1)
    isplitl [HL]
    · unfold owns; iexists _; isplitr
      swap; · iexact HL
      ipureintro; exact View.read_writes_of_cover _ _ _ _ _ (coverFirstL V c t h1)
    unfold owns; iexists _; isplitr
    swap; · iexact HA
    ipureintro; exact View.read_writes_of_cover _ _ _ _ _ (coverFirstA V c t h1)
  isplitl [Ho]; · iexact Ho
  isplitl [H0]; · iexact H0
  isplitl [H1]; · iexact H1
  isplitl [H2]; · iexact H2
  iexact H3

end Cert.Kernel.Flash

end
-- ==== Proof.Bits.Flash.BodyMid.lean ====
/-
  The attention call's body obligation at a key/value block neither first nor last.
-/
import proofs.«133897_j52853867545194_2_alg».proof.Proof.Gen.Kernel.Launch
import proofs.«133897_j52853867545194_2_alg».proof.Proof.Gen.Kernel.Skeleton
import proofs.«133897_j52853867545194_2_alg».proof.Proof.Gen.Kernel.Points
import proofs.«133897_j52853867545194_2_alg».proof.Proof.Bits.Flash.Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
theorem sound_mid (c : Dev nD) (t : Fin cfg2.N) (h1 : ¬t.val % 8 = 0) (h2 : ¬t.val % 8 = 7) :
    bodyPre V c t ⊢ wp frame (wpE (defs₀ (F := F)) Variants.none c none) Set.univ (bodyAt2 t) (fun _ => bodyPost V c t) := by
  unfold bodyPre bodyPost bodyAt2
  simp only [found0, found1, found2]
  rw [show (dat V c).owesAt () t.succ = (dat V c).owesAt () t.castSucc from rfl, Phi_succ, Phi_castSucc, scrRes_succ,
    leaves0, leaves1, leaves2]
  have hz : t.val ≠ 0 := fun e => h1 (by rw [e])
  rw [scrRes_pos V c t hz]
  rw [Dat.leavesExact_idle (dat V c) 3 t (idle3 t (fun h => h2 ((condLast_iff t).mp h))) (noFlush3 t (fun h => h2 ((condLast_iff t).mp h)))]
  rw [scr_mid V c t h1 h2]
  dsimp only
  unfold rdM rdL rdA
  iintro ⟨⟨Hoth, HM, HL, HA⟩, Ho, ⟨%d0, H0⟩, ⟨%d1, H1⟩, ⟨%d2, H2⟩, H3⟩
  iapply ((runMidAt V c t h1 h2 (prev V c t)).2.2.2 Set.univ _)
  isplitl [H0]; · iexact H0
  isplitl [H1]; · iexact H1
  isplitl [H2]; · iexact H2
  isplitl [HM]; · iexact HM
  isplitl [HL]; · iexact HL
  isplitl [HA]; · iexact HA
  iintro ⟨H0, H1, H2, ⟨%eM, HM⟩, ⟨%eL, HL⟩, ⟨%eA, HA⟩⟩
  isplitl [Hoth HM HL HA]
  · isplitl [Hoth]; · iexact Hoth
    isplitl [HM]
    · unfold owns; iexists _; isplitr
      swap; · iexact HM
      ipureintro; exact View.read_writes_of_cover _ _ _ _ _ (coverMidM V c t h1 h2 (prev V c t))
    isplitl [HL]
    · unfold owns; iexists _; isplitr
      swap; · iexact HL
      ipureintro; exact View.read_writes_of_cover _ _ _ _ _ (coverMidL V c t h1 h2 (prev V c t))
    unfold owns; iexists _; isplitr
    swap; · iexact HA
    ipureintro; exact View.read_writes_of_cover _ _ _ _ _ (coverMidA V c t h1 h2 (prev V c t))
  isplitl [Ho]; · iexact Ho
  isplitl [H0]; · iexact H0
  isplitl [H1]; · iexact H1
  isplitl [H2]; · iexact H2
  iexact H3

end Cert.Kernel.Flash

end
-- ==== Proof.Bits.Flash.BodyLast.lean ====
/-
  The attention call's body obligation at a last key/value block.
-/
import proofs.«133897_j52853867545194_2_alg».proof.Proof.Gen.Kernel.Launch
import proofs.«133897_j52853867545194_2_alg».proof.Proof.Gen.Kernel.Skeleton
import proofs.«133897_j52853867545194_2_alg».proof.Proof.Gen.Kernel.Points
import proofs.«133897_j52853867545194_2_alg».proof.Proof.Bits.Flash.Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
theorem sound_last (c : Dev nD) (t : Fin cfg2.N) (h1 : ¬t.val % 8 = 0) (h2 : t.val % 8 = 7) :
    bodyPre V c t ⊢ wp frame (wpE (defs₀ (F := F)) Variants.none c none) Set.univ (bodyAt2 t) (fun _ => bodyPost V c t) := by
  unfold bodyPre bodyPost bodyAt2
  simp only [found0, found1, found2]
  rw [show (dat V c).owesAt () t.succ = (dat V c).owesAt () t.castSucc from rfl, Phi_succ, Phi_castSucc, scrRes_succ,
    leaves0, leaves1, leaves2]
  have hz : t.val ≠ 0 := fun e => h1 (by rw [e])
  rw [scrRes_pos V c t hz]
  rw [show (dat V c).leavesExact 3 t = owns (c : Thread nD τ) (mO t) fullShare ((dat V c).after 3 t) from by
    unfold Dat.leavesExact; rw [live3 t ((condLast_iff t).mpr h2)], after3, outAt_last V c t h1 h2]
  rw [scr_last V c t h1 h2]
  dsimp only
  unfold rdM rdL rdA rdO
  iintro ⟨⟨Hoth, HM, HL, HA⟩, Ho, ⟨%d0, H0⟩, ⟨%d1, H1⟩, ⟨%d2, H2⟩, ⟨%d3, H3⟩⟩
  iapply ((runLastAt V c t h1 h2 (prev V c t)).2.2.2.2 Set.univ _)
  isplitl [H0]; · iexact H0
  isplitl [H1]; · iexact H1
  isplitl [H2]; · iexact H2
  isplitl [H3]; · iexists _; iexact H3
  isplitl [HM]; · iexact HM
  isplitl [HL]; · iexact HL
  isplitl [HA]; · iexact HA
  iintro ⟨H0, H1, H2, ⟨%eO, H3⟩, ⟨%eM, HM⟩, ⟨%eL, HL⟩, ⟨%eA, HA⟩⟩
  isplitl [Hoth HM HL HA]
  · isplitl [Hoth]; · iexact Hoth
    isplitl [HM]
    · unfold owns; iexists _; isplitr
      swap; · iexact HM
      ipureintro; exact View.read_writes_of_cover _ _ _ _ _ (coverLastM V c t h1 h2 (prev V c t))
    isplitl [HL]
    · unfold owns; iexists _; isplitr
      swap; · iexact HL
      ipureintro; exact View.read_writes_of_cover _ _ _ _ _ (coverLastL V c t h1 h2 (prev V c t))
    unfold owns; iexists _; isplitr
    swap; · iexact HA
    ipureintro; exact View.read_writes_of_cover _ _ _ _ _ (coverLastA V c t h1 h2 (prev V c t))
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (coverLastO V c t h1 h2 (prev V c t))

end Cert.Kernel.Flash

end
-- ==== Proof.Bits.Flash.Oblig.lean ====
/-
  The attention call's body obligation at every grid point, and the invariant's two ends.
-/
import proofs.«133897_j52853867545194_2_alg».proof.Proof.Gen.Kernel.Launch
import proofs.«133897_j52853867545194_2_alg».proof.Proof.Gen.Kernel.Skeleton
import proofs.«133897_j52853867545194_2_alg».proof.Proof.Gen.Kernel.Points
import proofs.«133897_j52853867545194_2_alg».proof.Proof.Bits.Flash.BodyFirst
import proofs.«133897_j52853867545194_2_alg».proof.Proof.Bits.Flash.BodyMid
import proofs.«133897_j52853867545194_2_alg».proof.Proof.Bits.Flash.BodyLast
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body at any point: the closed forms say which of the three runs the point is. -/
theorem sound_body (c : Dev nD) (t : Fin cfg2.N) :
    bodyPre V c t ⊢ wp frame (wpE (defs₀ (F := F)) Variants.none c none) Set.univ (bodyAt2 t) (fun _ => bodyPost V c t) := by
  by_cases h1 : t.val % 8 = 0
  · exact sound_first V c t h1
  · by_cases h2 : t.val % 8 = 7
    · exact sound_last V c t h1 h2
    · exact sound_mid V c t h1 h2

/-- The body obligation of the call, at every point. -/
theorem body_obligation (c : Dev nD) : BodyObligation (dat (F := F) V c) (defs₀ (F := F)) Variants.none () Set.univ := fun t => by
  rw [bigSep_W2, bigSep_W2]
  exact sound_body V c t

/-- What the launch hands the call is the invariant before the first point, -/
theorem hin (c : Dev nD) : Pipeline.ΦA spec2 c ⊢ (dat V c).Φ 0 := by
  rw [show (dat V c).Φ 0 = iprop(others c ∗ scrRes V c 0 (Nat.zero_le _)) from rfl]
  exact PhiA_open c

/-- and after the last point the invariant gives it back, the scratch buffers' contents forgotten. -/
theorem hout (c : Dev nD) : (dat V c).Φ (Fin.last cfg2.N) ⊢ Pipeline.ΦA spec2 c := by
  rw [show (dat V c).Φ (Fin.last cfg2.N) = iprop(others c ∗ scrRes V c (Fin.last cfg2.N).val (Nat.le_of_lt_succ (Fin.last cfg2.N).isLt)) from rfl]
  refine .trans ?_ (PhiA_close c)
  iintro ⟨Hoth, HS⟩
  isplitl [Hoth]; · iexact Hoth
  iapply (scrRes_any V c _ _); iexact HS

end Cert.Kernel.Flash

end
-- ==== Proof.Bits.Flash.Entry.lean ====
/-
  The attention call's arrays at its two ends.

  Three buffers stand behind its four windows: the query window and the key window read ONE array (the fused
  query/key projection), each through half of the share of it; the value window and the output window hold theirs
  whole. At the entry the three buffers, whole at the full share, are split that way; at the exit the two halves,
  which still hold what the call found (an input array is never written), are joined again, and the output
  array holds the folded write-backs.
-/
import proofs.«133897_j52853867545194_2_alg».proof.Proof.Gen.Kernel.Launch
import proofs.«133897_j52853867545194_2_alg».proof.Proof.Gen.Kernel.Skeleton
import proofs.«133897_j52853867545194_2_alg».proof.Proof.Gen.Kernel.Points
import proofs.«133897_j52853867545194_2_alg».proof.Proof.Bits.Flash.Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the windows' arrays, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec2 c W : sProp 𝕄)
      = iprop((((c : Thread nD τ).loc main_v7) ↦{fullShare} W main_v7) ∗ (((c : Thread nD τ).loc main_v8) ↦{fullShare} W main_v8) ∗ (((c : Thread nD τ).loc main_v9) ↦{fullShare} W main_v9)) :=
  bigSep_eq_bigSepL_of_eq [main_v7, main_v8, main_v9] (by decide) (by decide) _

/-- The windows' arrays at their shares, one by one. -/
theorem arrays_eq (c : Dev nD) (G : (w : Fin cfg2.W) → Buf (Elt F) ((cfg2.win w).arr.view.loc (c : Thread nD τ))) :
    ((dat V c).arrays G : sProp 𝕄)
      = iprop((((c : Thread nD τ).loc main_v7) ↦{fullShare.left} G 0) ∗ (((c : Thread nD τ).loc main_v7) ↦{fullShare.right} G 1) ∗ (((c : Thread nD τ).loc main_v8) ↦{fullShare} G 2) ∗ (((c : Thread nD τ).loc main_v9) ↦{fullShare} G 3)) := by
  unfold Dat.arrays; rw [bigSep_W2]
  rw [(arr_whole2 0).set_eq_univ, (arr_whole2 2).set_eq_univ, (arr_whole2 3).set_eq_univ]
  rfl

/-- ENTRY: a core's unscoped buffers at the entry contents are the call's arrays at their shares and the rest. -/
theorem arrays_of_bufs (c : Dev nD) :
    (unscopedBufs (Ix := Unit) (Name := ℕ) (U := UR sig nD τ) (Lvl := ℕ) c (V c) : sProp 𝕄)
      ⊢ iprop((dat V c).arrays ((dat V c).arrAt · 0)
          ∗ Pipeline.unscopedRest (Ix := Unit) (Name := ℕ) (U := UR sig nD τ) (Lvl := ℕ) spec2 c (V c)) := by
  have h : (unscopedBufs (Ix := Unit) (Name := ℕ) (U := UR sig nD τ) (Lvl := ℕ) c (V c) : sProp 𝕄)
      = iprop(Pipeline.arrBufs spec2 c (V c) ∗ Pipeline.unscopedRest spec2 c (V c)) :=
    Pipeline.unscopedBufs_split₀ cfgs (2 : Fin 3) winFacts₀2.arr_unscoped c (V c)
  rw [h]
  refine sep_mono ?_ .rfl
  rw [arrBufs_eq, arrays_eq]
  have hs : (((c : Thread nD τ).loc main_v7) ↦{fullShare} V c main_v7 : sProp 𝕄)
      ⊢ iprop((((c : Thread nD τ).loc main_v7) ↦{fullShare.left} V c main_v7) ∗ (((c : Thread nD τ).loc main_v7) ↦{fullShare.right} V c main_v7)) :=
    (pointsTo_share (PosShare.mem_left_op_right fullShare)).1
  refine (sep_mono hs .rfl).trans ?_
  iintro ⟨⟨Hl, Hr⟩, H8, H9⟩
  isplitl [Hl]; · iexact Hl
  isplitl [Hr]; · iexact Hr
  isplitl [H8]; · iexact H8
  iexact H9

/-- EXIT: the arrays at their final contents and the rest are the unscoped buffers at any valuation that has the
    output array at the folded write-backs and agrees with the entry contents elsewhere. -/
theorem bufs_of_arrays (c : Dev nD) (V' : (b : Ref sig .tc) → Buf (Elt F) ((c : Thread nD τ).loc b))
    (h9 : V' main_v9 = (dat V c).arrAt 3 cfg2.N) (hrest : ∀ b, b ≠ main_v9 → V' b = V c b) :
    iprop((dat V c).arrays ((dat V c).arrAt · cfg2.N)
        ∗ Pipeline.unscopedRest (Ix := Unit) (Name := ℕ) (U := UR sig nD τ) (Lvl := ℕ) spec2 c (V c))
      ⊢ (unscopedBufs (Ix := Unit) (Name := ℕ) (U := UR sig nD τ) (Lvl := ℕ) c V' : sProp 𝕄) := by
  have h : (unscopedBufs (Ix := Unit) (Name := ℕ) (U := UR sig nD τ) (Lvl := ℕ) c V' : sProp 𝕄)
      = iprop(Pipeline.arrBufs spec2 c V' ∗ Pipeline.unscopedRest spec2 c V') :=
    Pipeline.unscopedBufs_split₀ cfgs (2 : Fin 3) winFacts₀2.arr_unscoped c V'
  rw [h]
  refine sep_mono ?_ (Entails.of_eq ?_)
  · rw [arrBufs_eq, arrays_eq]
    have e0 : (dat V c).arrAt 0 cfg2.N = V c main_v7 := ((dat V c).arrAt_in 0 rfl _).trans (A_eq V c 0)
    have e1 : (dat V c).arrAt 1 cfg2.N = V c main_v7 := ((dat V c).arrAt_in 1 rfl _).trans (A_eq V c 1)
    have e2 : (dat V c).arrAt 2 cfg2.N = V c main_v8 := ((dat V c).arrAt_in 2 rfl _).trans (A_eq V c 2)
    rw [e0, e1, e2, hrest main_v7 (by decide), hrest main_v8 (by decide), h9]
    have hj : iprop((((c : Thread nD τ).loc main_v7) ↦{fullShare.left} V c main_v7) ∗ (((c : Thread nD τ).loc main_v7) ↦{fullShare.right} V c main_v7))
        ⊢ (((c : Thread nD τ).loc main_v7) ↦{fullShare} V c main_v7 : sProp 𝕄) :=
      (pointsTo_share (PosShare.mem_left_op_right fullShare)).2
    refine .trans ?_ (sep_mono hj .rfl)
    iintro ⟨Hl, Hr, H8, H9⟩
    isplitl [Hl Hr]
    · isplitl [Hl]; · iexact Hl
      iexact Hr
    isplitl [H8]; · iexact H8
    iexact H9
  · unfold Pipeline.unscopedRest
    exact bigSep_congr fun b hb => by
      rw [hrest b (fun e => (Finset.mem_sdiff.mp hb).2 (Finset.mem_image.mpr ⟨3, Finset.mem_univ _, e.symm⟩))]

end Cert.Kernel.Flash

end
-- ==== Proof.Bits.Run.lean ====
/-
  The whole program's run: @main as five segments — the host operations before the calls, the two projection
  calls, the two reshapes, the attention call — composed in order, every unscoped buffer tracked at a valuation
  from the launch to the return.

  Between two segments core `c` holds every unscoped buffer whole: at the launch contents, then at what the host
  operations leave, then with each call's output array at the folded write-backs of that call's proof data. The
  final state's memory is read against the last valuation: the argument arrays are as launched (no segment writes
  one), and the result array holds what the attention call's write-backs left.
-/
import proofs.«133897_j52853867545194_2_alg».proof.Proof.Gen.Kernel.Launch
import proofs.«133897_j52853867545194_2_alg».proof.Proof.Gen.Kernel.Skeleton
import proofs.«133897_j52853867545194_2_alg».proof.Proof.Gen.Kernel.Points
import proofs.«133897_j52853867545194_2_alg».proof.Proof.Bits.QKProj
import proofs.«133897_j52853867545194_2_alg».proof.Proof.Bits.VProj
import proofs.«133897_j52853867545194_2_alg».proof.Proof.Bits.Flash.Oblig
import proofs.«133897_j52853867545194_2_alg».proof.Proof.Bits.Flash.Entry
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host operations before the calls. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At the first call's exit: its arrays at what the pipeline leaves (the inputs as entered, the output's
    write-backs folded), every other buffer as entered. -/
def W2 (c : Dev nD) : Valuation τ sig (Elt F) :=
  Pipeline.withArrays spec0 c (W1 m ρ c) fun w => (QKProj.dat (V1 m ρ) c).arrAt w cfg0.N
theorem W2_arr (c : Dev nD) (w : Fin cfg0.W) :
    W2 m ρ c (Proc.devRef .tc (Pipeline.arrRef spec0 w)) = (QKProj.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (QKProj.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second call's exit: its arrays at what the pipeline leaves (the inputs as entered, the output's
    write-backs folded), every other buffer as entered. -/
def W3 (c : Dev nD) : Valuation τ sig (Elt F) :=
  Pipeline.withArrays spec1 c (W2 m ρ c) fun w => (VProj.dat (V2 m ρ) c).arrAt w cfg1.N
theorem W3_arr (c : Dev nD) (w : Fin cfg1.W) :
    W3 m ρ c (Proc.devRef .tc (Pipeline.arrRef spec1 w)) = (VProj.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (VProj.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the two reshapes. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- At the attention call's exit: the result array at the folded write-backs, every other buffer as entered. -/
def W5 (c : Dev nD) : Valuation τ sig (Elt F) :=
  Function.update (W4 m ρ c) (Proc.devRef .tc main_v9) ((Flash.dat (V4 m ρ) c).arrAt 3 cfg2.N)
abbrev V5 : (c : Dev nD) → (b : Ref sig .tc) → Buf (Elt F) ((c : Thread nD τ).loc b) := fun c b => W5 m ρ c b
theorem V5_out (c : Dev nD) : V5 m ρ c main_v9 = (Flash.dat (V4 m ρ) c).arrAt 3 cfg2.N := by
  show W5 m ρ c (Proc.devRef .tc main_v9) = _
  unfold W5; exact Function.update_self ..
theorem V5_of_ne (c : Dev nD) (b : Ref sig .tc) (hb : b ≠ main_v9) : V5 m ρ c b = V4 m ρ c b := by
  show W5 m ρ c (Proc.devRef .tc b) = W4 m ρ c (Proc.devRef .tc b)
  unfold W5; exact Function.update_of_ne (StableHlo.devRef_ne_of_ne hb) ..

/-! ## The proof data family and the thread state -/

abbrev adm : (p : Fin 3) → (pcfgs (F := F) p).Adm := fun p => (cfgs p).toPCfg_adm
/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => QKProj.dat (V1 m ρ) c
  | ⟨1, _⟩ => fun c => VProj.dat (V2 m ρ) c
  | ⟨2, _⟩ => fun c => Flash.dat (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The calls as segments -/

-- unification with the library's lemmas over `pin pcs a p` takes unfolding plain definitions in a metavariable's type
set_option backward.isDefEq.respectTransparency.types false in
/-- The query/key projection call over the thread state: entered from every unscoped buffer at `W1`, left at `W2`.
    Its arrays are split out of the unscoped buffers at the entry and put back at the exit contents; the generator
    register goes into the class invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (QKProj.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the library's lemmas over `pin pcs a p` takes unfolding plain definitions in a metavariable's type
set_option backward.isDefEq.respectTransparency.types false in
/-- The value projection call over the thread state: entered from every unscoped buffer at `W2`, left at `W3`.
    Its arrays are split out of the unscoped buffers at the entry and put back at the exit contents; the generator
    register goes into the class invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (VProj.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call over the thread state: entered from every unscoped buffer at `W4`, left at `W5`. The
    query/key array is split between the two windows that read it at the entry and joined at the exit. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (Flash.body_obligation (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Flash.arrays_of_bufs (V4 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Flash.hin (V4 m ρ) c)
    unfold Pipeline.ΦA
    iintro ⟨Hp, -, Hr⟩
    isplitl [Hr]; · iexact Hr
    iexact Hp
  hout c := by
    rw [Pipeline.ownSems0_none]
    refine (Flash.hout (V4 m ρ) c).trans ?_
    unfold Pipeline.ΦA
    iintro ⟨Hr, Hp⟩
    isplitl [Hp]; · iexact Hp
    isplitr; · iempintro
    iexact Hr
  hexit c := by
    have hjoin := Flash.bufs_of_arrays (V4 m ρ) c (V5 m ρ c) (V5_out m ρ c) (fun b hb => V5_of_ne m ρ c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final memory holds each unscoped buffer at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Run

end
-- ==== Proof.Bits.Frame.lean ====
/-
  What the run says of the argument arrays and of the result array: no segment writes an argument, so each ends
  holding its launch contents; the result array ends at the attention call's folded write-backs.
-/
import proofs.«133897_j52853867545194_2_alg».proof.Proof.Gen.Kernel.Launch
import proofs.«133897_j52853867545194_2_alg».proof.Proof.Gen.Kernel.Skeleton
import proofs.«133897_j52853867545194_2_alg».proof.Proof.Gen.Kernel.Points
import proofs.«133897_j52853867545194_2_alg».proof.Proof.Bits.Run
import proofs.«133897_j52853867545194_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that no host operation writes, that is no array of either projection call and is not the result array
    reaches the end as launched. -/
theorem W5_launch (c : Dev nD) (r : Ref sig .tc) (h0 : r ∉ Gen.hostOps0_W) (h2 : r ∉ Gen.hostOps2_W)
    (hs0 : ∀ w, Pipeline.arrRef spec0 w ≠ r) (hs1 : ∀ w, Pipeline.arrRef spec1 w ≠ r) (h9 : r ≠ main_v9) :
    W5 m ρ c (Proc.devRef .tc r) = m ((c : Thread nD τ).loc r) :=
  (V5_of_ne m ρ c r h9).trans <| (StableHlo.after_of_writes_sub hostOps2 _ Gen.hostOps2_writes h2).trans <|
    (W3_of_ne m ρ c r hs1).trans <| (W2_of_ne m ρ c r hs0).trans <|
    (StableHlo.after_of_writes_sub hostOps0 _ Gen.hostOps0_writes h0).trans rfl

/-- The value projection's weight matrix is an INPUT array of the second call: what that call leaves in it is what it found. -/
theorem W5_arg5 (c : Dev nD) : W5 m ρ c (Proc.devRef .tc main_arg5) = m ((c : Thread nD τ).loc main_arg5) :=
  (V5_of_ne m ρ c main_arg5 (by decide)).trans <| (StableHlo.after_of_writes_sub hostOps2 _ Gen.hostOps2_writes (by decide)).trans <|
    ((W3_arr m ρ c 1).trans (((VProj.dat (V2 m ρ) c).arrAt_in 1 rfl _).trans (VProj.A_eq (V2 m ρ) c 1))).trans <|
    (W2_of_ne m ρ c main_arg5 (by decide)).trans <|
    (StableHlo.after_of_writes_sub hostOps0 _ Gen.hostOps0_writes (by decide)).trans rfl

/-- THE FRAME, at any value family: every weakly fair execution of @main terminates, nothing faulting, with the
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W5_launch m ρ c main_arg0 (by decide) (by decide) (by decide) (by decide) (by decide)),
     (h c _ (mem_uc main_arg1 (by decide))).trans (W5_launch m ρ c main_arg1 (by decide) (by decide) (by decide) (by decide) (by decide)),
     (h c _ (mem_uc main_arg2 (by decide))).trans (W5_launch m ρ c main_arg2 (by decide) (by decide) (by decide) (by decide) (by decide)),
     (h c _ (mem_uc main_arg3 (by decide))).trans (W5_launch m ρ c main_arg3 (by decide) (by decide) (by decide) (by decide) (by decide)),
     (h c _ (mem_uc main_arg4 (by decide))).trans (W5_launch m ρ c main_arg4 (by decide) (by decide) (by decide) (by decide) (by decide)),
     (h c _ (mem_uc main_arg5 (by decide))).trans (W5_arg5 m ρ c),
     (h c _ (mem_uc main_arg6 (by decide))).trans (W5_launch m ρ c main_arg6 (by decide) (by decide) (by decide) (by decide) (by decide))⟩)
    (run_main m ρ)

/-- The run with the result array named: it ends at the attention call's folded write-backs, the arguments as launched. -/
theorem run_value : θ_run defs (onTc (τ := τ) (main (F := F))) ⟨m, fun _ => 0, ρ⟩ (fun r => ∀ c : Dev nD,
      r.2.mem ((c.tc : Thread nD τ).loc main_v9) = (Flash.dat (V4 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v9 (by decide))).trans (V5_out m ρ c),
     (h c _ (mem_uc main_arg0 (by decide))).trans (W5_launch m ρ c main_arg0 (by decide) (by decide) (by decide) (by decide) (by decide)),
     (h c _ (mem_uc main_arg1 (by decide))).trans (W5_launch m ρ c main_arg1 (by decide) (by decide) (by decide) (by decide) (by decide)),
     (h c _ (mem_uc main_arg2 (by decide))).trans (W5_launch m ρ c main_arg2 (by decide) (by decide) (by decide) (by decide) (by decide)),
     (h c _ (mem_uc main_arg3 (by decide))).trans (W5_launch m ρ c main_arg3 (by decide) (by decide) (by decide) (by decide) (by decide)),
     (h c _ (mem_uc main_arg4 (by decide))).trans (W5_launch m ρ c main_arg4 (by decide) (by decide) (by decide) (by decide) (by decide)),
     (h c _ (mem_uc main_arg5 (by decide))).trans (W5_arg5 m ρ c),
     (h c _ (mem_uc main_arg6 (by decide))).trans (W5_launch m ρ c main_arg6 (by decide) (by decide) (by decide) (by decide) (by decide))⟩)
    (run_main m ρ)

end Cert.Kernel.Run

end
-- ==== Proof.Spec.lean ====
/-
  The function both programs compute, index by index, on the extended reals: single-head attention over
  projected queries, keys and values, the softmax taken over the UNSCALED scores and multiplied by the
  constant afterwards.

  For a batch `b`, a query row `q` and an output lane `d`:
    Q, K, V (b, s, ·) = x (b, s, ·) · W + bias            (three dense projections)
    S (b, q, s)       = Σ_k Q (b, q, k) · K (b, s, k)
    M (b, q)          = the maximum over s of S (b, q, s)   (a fold of `max` from −∞)
    E (b, q, s)       = exp (S (b, q, s) − M (b, q))
    L (b, q)          = Σ_s E (b, q, s)
    out (b, q, d)     = Σ_s (E (b, q, s) / L (b, q) · c) · V (b, s, d)
  with `c` the one float literal both programs carry (the word 0x3D000000, never evaluated here).
-/
import Idealize.ShloMosaic.PureOps.Ideal
import Idealize.ShloMosaic.Lib.ValueIdx

noncomputable section

namespace Cert.Spec

open Idealize.ShloMosaic Idealize.ShloMosaic.ValueIdx

/-- The argument arrays' types at the ideal values. -/
abbrev Arr3 : Type := (⟨3, ![4, 2048, 1024]⟩ : Shape).Idx → EReal
abbrev Arr2 : Type := (⟨2, ![1024, 1024]⟩ : Shape).Idx → EReal
abbrev Arr1 : Type := (⟨1, ![1024]⟩ : Shape).Idx → EReal

/-- A dense projection of the input's row `(b, s)`, at output lane `k`. -/
def proj (x : Arr3) (w : Arr2) (bias : Arr1) (b : Fin 4) (s : Fin 2048) (k : Fin 1024) : EReal :=
  (∑ j : Fin 1024, x (ix3 b s j) * w (ix2 j k)) + bias (ix1 k)

/-- The unscaled score of query row `q` against key row `s`. -/
def score (x : Arr3) (wq : Arr2) (bq : Arr1) (wk : Arr2) (bk : Arr1) (b : Fin 4) (q s : Fin 2048) : EReal :=
  ∑ k : Fin 1024, proj x wq bq b q k * proj x wk bk b s k

/-- The row maximum of the scores. -/
def rowMax (x : Arr3) (wq : Arr2) (bq : Arr1) (wk : Arr2) (bk : Arr1) (b : Fin 4) (q : Fin 2048) : EReal :=
  (Finset.univ : Finset (Fin 2048)).fold max ⊥ (fun s => score x wq bq wk bk b q s)

/-- The unnormalised softmax weight. -/
def weight (x : Arr3) (wq : Arr2) (bq : Arr1) (wk : Arr2) (bk : Arr1) (b : Fin 4) (q s : Fin 2048) : EReal :=
  Ideal.exp (score x wq bq wk bk b q s - rowMax x wq bq wk bk b q)

/-- The softmax denominator. -/
def denom (x : Arr3) (wq : Arr2) (bq : Arr1) (wk : Arr2) (bk : Arr1) (b : Fin 4) (q : Fin 2048) : EReal :=
  ∑ s : Fin 2048, weight x wq bq wk bk b q s

/-- The one float literal both programs multiply by. -/
abbrev scale : EReal := Ideal.ofBits .f32 0x3D000000#32

/-- The attention output. -/
def out (x : Arr3) (wq : Arr2) (bq : Arr1) (wk : Arr2) (bk : Arr1) (wv : Arr2) (bv : Arr1)
    (b : Fin 4) (q : Fin 2048) (d : Fin 1024) : EReal :=
  ∑ s : Fin 2048, (Ideal.div (weight x wq bq wk bk b q s) (denom x wq bq wk bk b q) * scale) * proj x wv bv b s d

end Cert.Spec

end
-- ==== Proof.RefValue.lean ====
/-
  The reference program, read index by index at the ideal values, is the attention function of the specification:
  three dense projections with their biases, the unscaled scores, the row maximum (a fold of `max` from −∞),
  the exponentials of the shifted scores, their row sums, the quotient multiplied by the constant, and the
  product with the projected values.
-/
import proofs.«133897_j52853867545194_2_alg».proof.Proof.Gen.ReferenceIdeal.Run
import proofs.«133897_j52853867545194_2_alg».proof.Proof.Gen.ReferenceIdeal.Read
import proofs.«133897_j52853867545194_2_alg».proof.Proof.Spec

noncomputable section

namespace Cert.ReferenceIdeal.RefValue

open Cert.ReferenceIdeal Cert.ReferenceIdeal.Gen Cert.ReferenceIdeal.Read
open Idealize.ShloMosaic Idealize.SL.Sem Idealize.ShloMosaic.ValueIdx

/-- The argument arrays at the ideal values, as the generated modules spell their types. -/
abbrev A3 : Type := (⟨S4x2048x1024, .f32⟩ : BufTy).Contents (Elt Ideal)
abbrev A2 : Type := (⟨S1024x1024, .f32⟩ : BufTy).Contents (Elt Ideal)
abbrev A1 : Type := (⟨S1024, .f32⟩ : BufTy).Contents (Elt Ideal)

/-! ## The three projections -/

/-- Row `(b, s)` of the input against column `k` of a weight: the left operand is read at `(b, s, j)`. -/
theorem proj_lidx (b : Fin 4) (s : Fin 2048) (k j : Fin 1024) : lidx_main_v0 (ix3 b s k) j = ix3 b s j :=
  funext fun a => Fin.ext (by match a with | ⟨0, _⟩ => rfl | ⟨1, _⟩ => rfl | ⟨2, _⟩ => rfl)
/-- … and the weight at `(j, k)`. -/
theorem proj_ridx (b : Fin 4) (s : Fin 2048) (k j : Fin 1024) : ridx_main_v0 (ix3 b s k) j = ix2 j k :=
  funext fun a => Fin.ext (by match a with | ⟨0, _⟩ => rfl | ⟨1, _⟩ => rfl)
/-- The bias, broadcast twice, is read at lane `k`. -/
theorem bias_idx (b : Fin 4) (s : Fin 2048) (k : Fin 1024) : idx_main_v1 (idx_main_v2 (ix3 b s k)) = ix1 k :=
  funext fun a => Fin.ext (by match a with | ⟨0, _⟩ => rfl)

/-- The query projection. -/
theorem projQ (x0 : A3) (x1 : A2) (x2 : A1) (b : Fin 4) (s : Fin 2048) (k : Fin 1024) :
    val_main_v3 (F := Ideal) x0 x1 x2 (ix3 b s k) = Cert.Spec.proj x0 x1 x2 b s k := by
  rw [val_main_v3_apply, val_main_v0_apply, val_main_v2_apply, val_main_v1_apply]
  unfold Cert.Spec.proj
  refine congrArg₂ (· + ·) (Finset.sum_congr rfl fun j _ => ?_) (congrArg x2 (bias_idx b s k))
  exact congrArg₂ (· * ·) (congrArg x0 (proj_lidx b s k j)) (congrArg x1 (proj_ridx b s k j))

/-- The key projection. -/
theorem projK (x0 : A3) (x3 : A2) (x4 : A1) (b : Fin 4) (s : Fin 2048) (k : Fin 1024) :
    val_main_v7 (F := Ideal) x0 x3 x4 (ix3 b s k) = Cert.Spec.proj x0 x3 x4 b s k := by
  rw [val_main_v7_apply, val_main_v4_apply, val_main_v6_apply, val_main_v5_apply]
  unfold Cert.Spec.proj
  refine congrArg₂ (· + ·) (Finset.sum_congr rfl fun j _ => ?_) (congrArg x4 (bias_idx b s k))
  exact congrArg₂ (· * ·) (congrArg x0 (proj_lidx b s k j)) (congrArg x3 (proj_ridx b s k j))

/-- The value projection. -/
theorem projV (x0 : A3) (x5 : A2) (x6 : A1) (b : Fin 4) (s : Fin 2048) (k : Fin 1024) :
    val_main_v11 (F := Ideal) x0 x5 x6 (ix3 b s k) = Cert.Spec.proj x0 x5 x6 b s k := by
  rw [val_main_v11_apply, val_main_v8_apply, val_main_v10_apply, val_main_v9_apply]
  unfold Cert.Spec.proj
  refine congrArg₂ (· + ·) (Finset.sum_congr rfl fun j _ => ?_) (congrArg x6 (bias_idx b s k))
  exact congrArg₂ (· * ·) (congrArg x0 (proj_lidx b s k j)) (congrArg x5 (proj_ridx b s k j))

/-! ## The scores -/

/-- Query row `q` against key row `s`: the projected queries are read at `(b, q, k)`. -/
theorem score_lidx (b : Fin 4) (q s : Fin 2048) (k : Fin 1024) : lidx_main_v12 (ix3 b q s) k = ix3 b q k :=
  funext fun a => Fin.ext (by match a with | ⟨0, _⟩ => rfl | ⟨1, _⟩ => rfl | ⟨2, _⟩ => rfl)
/-- … and the projected keys at `(b, s, k)`. -/
theorem score_ridx (b : Fin 4) (q s : Fin 2048) (k : Fin 1024) : ridx_main_v12 (ix3 b q s) k = ix3 b s k :=
  funext fun a => Fin.ext (by match a with | ⟨0, _⟩ => rfl | ⟨1, _⟩ => rfl | ⟨2, _⟩ => rfl)

/-- The unscaled scores. -/
theorem scores (x0 : A3) (x1 : A2) (x2 : A1) (x3 : A2) (x4 : A1) (b : Fin 4) (q s : Fin 2048) :
    val_main_v12 (F := Ideal) x0 x1 x2 x3 x4 (ix3 b q s) = Cert.Spec.score x0 x1 x2 x3 x4 b q s := by
  rw [val_main_v12_apply]
  unfold Cert.Spec.score
  refine Finset.sum_congr rfl fun k _ => ?_
  rw [score_lidx, score_ridx, projQ, projK]

/-! ## The row maximum -/

/-- The reduced index `(b, q)` with the coordinate `s` of the reduced axis put back is `(b, q, s)`. -/
theorem lift_rows (h : S4x2048x2048.Reduces [2] S4x2048) (b : Fin 4) (q : Fin 2048) (s : Fin (S4x2048x2048.size 2)) :
    h.lift (ix2 b q) s = ix3 b q (⟨s.val, s.isLt⟩ : Fin 2048) :=
  funext fun a => Fin.ext (by match a with | ⟨0, _⟩ => rfl | ⟨1, _⟩ => rfl | ⟨2, _⟩ => rfl)

/-- The word 0xFF800000 is −∞. -/
theorem negInf : Ideal.ofBits .f32 0xFF800000#32 = (⊥ : EReal) := by simp [Ideal.ofBits, Ideal.ieee]

/-- The reduce from −∞ with a maximum body is the fold of `max` from `⊥` over the key rows. -/
theorem reduceMax (x0 : A3) (x1 : A2) (x2 : A1) (x3 : A2) (x4 : A1) (b : Fin 4) (q : Fin 2048) :
    val_main_v13 (F := Ideal) x0 x1 x2 x3 x4 (ix2 b q) = Cert.Spec.rowMax x0 x1 x2 x3 x4 b q := by
  have h : S4x2048x2048.Reduces [2] S4x2048 := by decide
  unfold val_main_v13
  rw [Host.reduce_eq_fold_single FloatOps.maximumf _ _ reducesTo_S4x2048x2048_S4x2048_d2 h h_S_]
  unfold Cert.Spec.rowMax
  have hf : (val_main_v12 (F := Ideal) x0 x1 x2 x3 x4 ∘ h.lift (ix2 b q))
      = fun s : Fin 2048 => Cert.Spec.score x0 x1 x2 x3 x4 b q s :=
    funext fun s => (congrArg (val_main_v12 (F := Ideal) x0 x1 x2 x3 x4) (lift_rows h b q s)).trans (scores x0 x1 x2 x3 x4 b q s)
  rw [hf, val_main_cst_apply, Ideal.ofBits_def, negInf]
  rfl

/-- The maximum with the −∞ splat changes nothing. -/
theorem rowMax (x0 : A3) (x1 : A2) (x2 : A1) (x3 : A2) (x4 : A1) (b : Fin 4) (q : Fin 2048) :
    val_main_v15 (F := Ideal) x0 x1 x2 x3 x4 (ix2 b q) = Cert.Spec.rowMax x0 x1 x2 x3 x4 b q := by
  rw [val_main_v15_apply, val_main_v14_apply, val_main_cst_0_apply, reduceMax, Ideal.maximumf_def, Ideal.ofBits_def, negInf]
  exact max_eq_right bot_le

/-! ## The weights and their row sums -/

/-- A row statistic broadcast back over the key axis is read at `(b, q)`. -/
theorem stat_idx (b : Fin 4) (q s : Fin 2048) : idx_main_v16 (idx_main_v17 (ix3 b q s)) = ix2 b q :=
  funext fun a => Fin.ext (by match a with | ⟨0, _⟩ => rfl | ⟨1, _⟩ => rfl)

/-- The exponential of the score less its row maximum. -/
theorem weights (x0 : A3) (x1 : A2) (x2 : A1) (x3 : A2) (x4 : A1) (b : Fin 4) (q s : Fin 2048) :
    val_main_v19 (F := Ideal) x0 x1 x2 x3 x4 (ix3 b q s) = Cert.Spec.weight x0 x1 x2 x3 x4 b q s := by
  rw [val_main_v19_apply, val_main_v18_apply, val_main_v17_apply, val_main_v16_apply, stat_idx, rowMax, scores,
    Ideal.subf_def, Ideal.hostUnary_exp_def]
  rfl

/-- The row sum's operand is read at `(b, q, s)`. -/
theorem sum_idx (b : Fin 4) (q s : Fin 2048) : idx_main_v20 (ix2 b q) s = ix3 b q s :=
  funext fun a => Fin.ext (by match a with | ⟨0, _⟩ => rfl | ⟨1, _⟩ => rfl | ⟨2, _⟩ => rfl)

/-- The sum of a row's weights, from the zero word. -/
theorem denoms (x0 : A3) (x1 : A2) (x2 : A1) (x3 : A2) (x4 : A1) (b : Fin 4) (q : Fin 2048) :
    val_main_v20 (F := Ideal) x0 x1 x2 x3 x4 (ix2 b q) = Cert.Spec.denom x0 x1 x2 x3 x4 b q := by
  rw [val_main_v20_apply, val_main_cst_1_apply, Ideal.ofBits_def, Ideal.ofBits_zero_f32, zero_add]
  unfold Cert.Spec.denom
  refine Finset.sum_congr rfl fun s _ => ?_
  rw [sum_idx, weights]

/-! ## The output -/

/-- The row sum broadcast back over the key axis is read at `(b, q)`. -/
theorem denom_idx (b : Fin 4) (q s : Fin 2048) : idx_main_v21 (idx_main_v22 (ix3 b q s)) = ix2 b q :=
  funext fun a => Fin.ext (by match a with | ⟨0, _⟩ => rfl | ⟨1, _⟩ => rfl)

/-- The normalised weight multiplied by the constant. -/
theorem scaled (x0 : A3) (x1 : A2) (x2 : A1) (x3 : A2) (x4 : A1) (b : Fin 4) (q s : Fin 2048) :
    val_main_v25 (F := Ideal) x0 x1 x2 x3 x4 (ix3 b q s)
      = Ideal.div (Cert.Spec.weight x0 x1 x2 x3 x4 b q s) (Cert.Spec.denom x0 x1 x2 x3 x4 b q) * Cert.Spec.scale := by
  rw [val_main_v25_apply, val_main_v23_apply, val_main_v22_apply, val_main_v21_apply, denom_idx, denoms, weights,
    val_main_v24_apply, val_main_cst_2_apply, Ideal.ofBits_def, Ideal.hostDivf_def, Ideal.mulf_def]

/-- Output `(b, q, d)`: the scaled weights are read at `(b, q, s)`. -/
theorem out_lidx (b : Fin 4) (q : Fin 2048) (d : Fin 1024) (s : Fin 2048) : lidx_main_v26 (ix3 b q d) s = ix3 b q s :=
  funext fun a => Fin.ext (by match a with | ⟨0, _⟩ => rfl | ⟨1, _⟩ => rfl | ⟨2, _⟩ => rfl)
/-- … and the projected values at `(b, s, d)`. -/
theorem out_ridx (b : Fin 4) (q : Fin 2048) (d : Fin 1024) (s : Fin 2048) : ridx_main_v26 (ix3 b q d) s = ix3 b s d :=
  funext fun a => Fin.ext (by match a with | ⟨0, _⟩ => rfl | ⟨1, _⟩ => rfl | ⟨2, _⟩ => rfl)

/-- The last stage of the reference is the attention output of the specification. -/
theorem output (x0 : A3) (x1 : A2) (x2 : A1) (x3 : A2) (x4 : A1) (x5 : A2) (x6 : A1) (b : Fin 4) (q : Fin 2048) (d : Fin 1024) :
    val_main_v26 (F := Ideal) x0 x1 x2 x3 x4 x5 x6 (ix3 b q d) = Cert.Spec.out x0 x1 x2 x3 x4 x5 x6 b q d := by
  rw [val_main_v26_apply]
  unfold Cert.Spec.out
  refine Finset.sum_congr rfl fun s _ => ?_
  rw [out_lidx, out_ridx, scaled, projV]

/-! ## The run -/

/-- Every weakly fair execution of the reference ends with its result, read at `(b, q, d)`, the attention output of
    the arguments' launch contents there, and the arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      (∀ (b : Fin 4) (q : Fin 2048) (d : Fin 1024),
          (r.2.mem ((c.tc : Thread Cert.ReferenceIdeal.nD Cert.ReferenceIdeal.τ).loc Cert.ReferenceIdeal.main_v26) : Cert.ReferenceIdeal.S4x2048x1024.Idx → EReal) (ValueIdx.ix3 b q d)
            = Cert.Spec.out (m ((c.tc : Thread _ _).loc Cert.ReferenceIdeal.main_arg0)) (m ((c.tc : Thread _ _).loc Cert.ReferenceIdeal.main_arg1)) (m ((c.tc : Thread _ _).loc Cert.ReferenceIdeal.main_arg2)) (m ((c.tc : Thread _ _).loc Cert.ReferenceIdeal.main_arg3)) (m ((c.tc : Thread _ _).loc Cert.ReferenceIdeal.main_arg4)) (m ((c.tc : Thread _ _).loc Cert.ReferenceIdeal.main_arg5)) (m ((c.tc : Thread _ _).loc Cert.ReferenceIdeal.main_arg6)) b q d)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)) :=
  (θ_run _ _ _).mono (fun _ h c => ⟨fun b q d => by
      rw [(h c).1, val_main_v26_eq]
      exact output _ _ _ _ _ _ _ b q d, (h c).2⟩)
    (Cert.ReferenceIdeal.Value.run (F := Ideal) m ρ)

end Cert.ReferenceIdeal.RefValue

end
-- ==== Proof.QKValue.lean ====
/-
  The first projection call, read: what its result array holds after the call, index by index, at the ideal values.

  Each of the sixteen grid points finds rows 512·t … 512·t + 511 of the flattened input, the whole weight matrix and
  the whole bias row, and leaves in its output block the product of the rows with the weights plus the bias (the
  format changes on the way into the product are the identity on extended reals, the product accumulates into zero).
  Every point writes its block back, the blocks tile the 8192 result rows, so the result array at row `r` and lane
  `n` is the input's row `r` times the weights' column `n`, plus the bias at `n`.
-/
import proofs.«133897_j52853867545194_2_alg».proof.Proof.QKProj
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.QKProj

open Idealize.ShloMosaic Idealize.ShloMosaic.TcCoe Idealize.SL.Sem
open Idealize.ShloMosaic.Pipeline (Dat)
open Idealize.ShloMosaic.ValueIdx
open Cert.KernelIdeal Cert.KernelIdeal.Gen
open scoped BigOperators

theorem hz2 : (![0, 0] : Fin 2 → Nat) = fun _ => 0 := funext fun a => by fin_cases a <;> rfl

local notation "dotQK" => dot_S512x1024_S1024x2048_S512x2048_1_0_0_1_n_n

theorem lhs_row (i : S512x2048.Idx) (q : DotDims.contr dotQK |>.Idx) :
    (DotDims.lhsIdx dotQK i q 0).val = (i 0).val := by
  unfold DotDims.lhsIdx
  rw [dif_neg (show ¬(0 : Fin S512x1024.rank) ∈ DotDims.lhsBatch dotQK by decide),
    dif_pos (show (0 : Fin S512x1024.rank) ∈ DotDims.lhsNonContracting dotQK by decide)]
  rfl

theorem lhs_col (i : S512x2048.Idx) (q : DotDims.contr dotQK |>.Idx) :
    (DotDims.lhsIdx dotQK i q 1).val = (q ⟨0, by decide⟩).val :=
  DotDims.lhsIdx_val_of_single dotQK rfl i q

theorem rhs_row (i : S512x2048.Idx) (q : DotDims.contr dotQK |>.Idx) :
    (DotDims.rhsIdx dotQK i q 0).val = (q ⟨0, by decide⟩).val :=
  DotDims.rhsIdx_val_of_single dotQK rfl i q

theorem rhs_col (i : S512x2048.Idx) (q : DotDims.contr dotQK |>.Idx) :
    (DotDims.rhsIdx dotQK i q 1).val = (i 1).val := by
  unfold DotDims.rhsIdx
  rw [dif_neg (show ¬(1 : Fin S1024x2048.rank) ∈ DotDims.rhsBatch dotQK by decide),
    dif_pos (show (1 : Fin S1024x2048.rank) ∈ DotDims.rhsNonContracting dotQK by decide)]
  rfl

/-- The payload at an index: row `p` of the input block times column `n` of the weights, plus the bias at `n`
    (the roundings on the way into the product are the identity on extended reals). -/
theorem pay_apply (x : Vec Ideal S512x1024 .f32) (w : Vec Ideal S1024x2048 .f32) (b : Vec Ideal S1x2048 .f32)
    (p : Fin 512) (n : Fin 2048) :
    (k0_pay1 x w b : S512x2048.Idx → EReal) (ix2 p n)
      = (∑ k : Fin 1024, (x : S512x1024.Idx → EReal) (ix2 p k) * (w : S1024x2048.Idx → EReal) (ix2 k n))
        + (b : S1x2048.Idx → EReal) (ix2 (0 : Fin 1) n) := by
  unfold k0_pay1
  rw [addf_apply, shapeCast_self, shapeCast_self, shapeCast_self, broadcastTo_1b_ab_apply]
  congr 1
  simp only [matmul]
  rw [Ideal.matmul_constant_zero_apply, ← Equiv.sum_comp (contrEquiv1 dotQK 1024 rfl rfl).symm]
  refine Finset.sum_congr rfl fun k _ => ?_
  rw [truncf_apply, truncf_apply]
  have hk := contrEquiv1_symm_val dotQK 1024 rfl rfl k
  have el : DotDims.lhsIdx dotQK (ix2 p n) ((contrEquiv1 dotQK 1024 rfl rfl).symm k) = ix2 p k :=
    funext fun a => Fin.ext (by
      match a with
      | ⟨0, _⟩ => exact lhs_row _ _
      | ⟨1, _⟩ => exact (lhs_col _ _).trans hk)
  have er : DotDims.rhsIdx dotQK (ix2 p n) ((contrEquiv1 dotQK 1024 rfl rfl).symm k) = ix2 k n :=
    funext fun a => Fin.ext (by
      match a with
      | ⟨0, _⟩ => exact (rhs_row _ _).trans hk
      | ⟨1, _⟩ => exact rhs_col _ _)
  rw [el, er]

/-- What one grid point leaves in its output buffer, at an index: the whole-buffer loads read the three blocks and the
    one whole-buffer store leaves the payload. -/
theorem outBlock_apply (x : Vec Ideal S512x1024 .f32) (w : Vec Ideal S1024x2048 .f32) (b : Vec Ideal S1x2048 .f32)
    (p : Fin 512) (n : Fin 2048) :
    (outBlock x w b : S512x2048.Idx → EReal) (ix2 p n)
      = (∑ k : Fin 1024, (x : S512x1024.Idx → EReal) (ix2 p k) * (w : S1024x2048.Idx → EReal) (ix2 k n))
        + (b : S1x2048.Idx → EReal) (ix2 (0 : Fin 1) n) := by
  unfold outBlock
  rw [View.canon_unit_zero hz2]
  simp only [View.ld_unit_zero (S := S512x1024) hz2, View.ld_unit_zero (S := S1024x2048) hz2, View.ld_unit_zero (S := S1x2048) hz2]
  exact pay_apply x w b p n

/-- The four windows' printed index maps over the 16 grid points: the input rows and the output rows move with the
    point, the weights and the bias stand still. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The input window's block at point `t` is rows `512·t … 512·t + 511` of the flattened input. -/
theorem blk0_apply (c : Dev nD) (t : Fin cfg0.N) (p : Fin 512) (k : Fin 1024) (r : Fin 8192)
    (hr : r.val = 512 * t.val + p.val) :
    (blk V c 0 t : S512x1024.Idx → EReal) (ix2 p k) = (V c main_v4 : S8192x1024.Idx → EReal) (ix2 r k) := by
  obtain ⟨e0, e1, -⟩ := idx_facts t
  unfold blk
  rw [View.read_apply]
  show V c main_v4 _ = V c main_v4 _
  congr 1
  funext a
  apply Fin.ext
  match a with
  | ⟨0, _⟩ => show win0_0.index t (0 : Fin 2) * 512 + 1 * p.val = r.val; rw [e0, hr]; omega
  | ⟨1, _⟩ => show win0_0.index t (1 : Fin 2) * 1024 + 1 * k.val = k.val; rw [e1]; omega

/-- The weights' block at every point is the whole weight matrix. -/
theorem blk1_apply (c : Dev nD) (t : Fin cfg0.N) (k : Fin 1024) (n : Fin 2048) :
    (blk V c 1 t : S1024x2048.Idx → EReal) (ix2 k n) = (V c main_v0 : S1024x2048.Idx → EReal) (ix2 k n) := by
  obtain ⟨-, -, e2, e3, -⟩ := idx_facts t
  unfold blk
  rw [View.read_apply]
  show V c main_v0 _ = V c main_v0 _
  congr 1
  funext a
  apply Fin.ext
  match a with
  | ⟨0, _⟩ => show win0_1.index t (0 : Fin 2) * 1024 + 1 * k.val = k.val; rw [e2]; omega
  | ⟨1, _⟩ => show win0_1.index t (1 : Fin 2) * 2048 + 1 * n.val = n.val; rw [e3]; omega

/-- The bias block at every point is the whole bias row. -/
theorem blk2_apply (c : Dev nD) (t : Fin cfg0.N) (n : Fin 2048) :
    (blk V c 2 t : S1x2048.Idx → EReal) (ix2 (0 : Fin 1) n) = (V c main_v2 : S1x2048.Idx → EReal) (ix2 (0 : Fin 1) n) := by
  obtain ⟨-, -, -, -, e4, e5, -⟩ := idx_facts t
  unfold blk
  rw [View.read_apply]
  show V c main_v2 _ = V c main_v2 _
  congr 1
  funext a
  apply Fin.ext
  match a with
  | ⟨0, _⟩ => show win0_2.index t (0 : Fin 2) * 1 + 1 * 0 = 0; rw [e4]
  | ⟨1, _⟩ => show win0_2.index t (1 : Fin 2) * 2048 + 1 * n.val = n.val; rw [e5]; omega

/-- Row `r` of `X` times column `n` of `W`, plus the bias row at `n`. -/
def rowDot (X : S8192x1024.Idx → EReal) (W : S1024x2048.Idx → EReal) (B : S1x2048.Idx → EReal)
    (r : Fin 8192) (n : Fin 2048) : EReal :=
  (∑ k : Fin 1024, X (ix2 r k) * W (ix2 k n)) + B (ix2 (0 : Fin 1) n)

/-- The projection's result array as one function of the three argument arrays, index by index. -/
def G (c : Dev nD) : S8192x2048.Idx → EReal := fun i =>
  rowDot (V c main_v4) (V c main_v0) (V c main_v2) ⟨(i 0).val, idx2_lt0 i⟩ ⟨(i 1).val, idx2_lt1 i⟩

/-- What point `t` writes back is block `t` of `G` of the argument arrays. -/
theorem flushed_eq (c : Dev nD) (t : Fin cfg0.N) :
    (dat V c).flushed 3 t = ((cfg0.win 3).blk t).view.read (Elt Ideal) (G V c) := by
  show (cfg0.win 3).cut (grid0.coords t) ((dat V c).after 3 t) = _
  rw [after3]
  obtain ⟨-, -, -, -, -, -, e6, e7⟩ := idx_facts t
  have ht : t.val < 16 := lt_of_lt_of_eq t.isLt N_0
  funext j
  revert j
  show ∀ j : S512x2048.Idx, (outBlock (blk V c 0 t) (blk V c 1 t) (blk V c 2 t) : S512x2048.Idx → EReal) j
      = G V c (((cfg0.win 3).blk t).view.emb j)
  intro j
  obtain ⟨p, n, rfl⟩ : ∃ (p : Fin 512) (n : Fin 2048), j = ix2 p n := ⟨j 0, j 1, eq_ix2 j⟩
  have hr : 512 * t.val + p.val < 8192 := by have := p.isLt; omega
  have hemb : ((cfg0.win 3).blk t).view.emb (ix2 p n) = (ix2 (⟨512 * t.val + p.val, hr⟩ : Fin 8192) n : S8192x2048.Idx) := by
    funext a
    apply Fin.ext
    match a with
    | ⟨0, _⟩ => show win0_3.index t (0 : Fin 2) * 512 + 1 * p.val = 512 * t.val + p.val; rw [e6]; omega
    | ⟨1, _⟩ => show win0_3.index t (1 : Fin 2) * 2048 + 1 * n.val = n.val; rw [e7]; omega
  rw [hemb]
  refine (outBlock_apply _ _ _ p n).trans ?_
  show _ = rowDot (V c main_v4) (V c main_v0) (V c main_v2) ⟨512 * t.val + p.val, hr⟩ n
  unfold rowDot
  congr 1
  · refine Finset.sum_congr rfl fun k _ => ?_
    rw [blk0_apply V c t p k ⟨512 * t.val + p.val, hr⟩ rfl, blk1_apply V c t k n]
  · exact blk2_apply V c t n

/-- An index of the result array is in point `t`'s block iff each coordinate is in the block's range on its axis. -/
theorem mem_blk3 (t : Fin cfg0.N) (i : S8192x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v5).slice (win0_3.rect t)).set ↔ _
  rw [View.set_slice_whole, Rect.mem_set_unit]
  exact Iff.rfl

/-- The sixteen row blocks tile the result array: row `r` is in the block of point `r / 512`. -/
theorem cover (i : S8192x2048.Idx) :
    ∃ t : Fin cfg0.N, (cfg0.win 3).flush t = true ∧ i ∈ ((cfg0.win 3).blk t).view.set := by
  have hi0 : (i 0).val < 8192 := idx2_lt0 i
  have hi1 : (i 1).val < 2048 := idx2_lt1 i
  have hN : cfg0.N = 16 := N_0
  have hq : (i 0).val / 512 < cfg0.N := by rw [hN]; omega
  obtain ⟨-, -, -, -, -, -, e6, e7⟩ := idx_facts ⟨(i 0).val / 512, hq⟩
  refine ⟨⟨(i 0).val / 512, hq⟩, flush0_3 _, ?_⟩
  rw [mem_blk3]
  intro a
  match a with
  | ⟨0, _⟩ =>
    show win0_3.index ⟨(i 0).val / 512, hq⟩ (0 : Fin 2) * 512 ≤ (i 0).val
      ∧ (i 0).val < win0_3.index ⟨(i 0).val / 512, hq⟩ (0 : Fin 2) * 512 + 512
    rw [e6]
    show (i 0).val / 512 * 512 ≤ (i 0).val ∧ (i 0).val < (i 0).val / 512 * 512 + 512
    omega
  | ⟨1, _⟩ =>
    show win0_3.index ⟨(i 0).val / 512, hq⟩ (1 : Fin 2) * 2048 ≤ (i 1).val
      ∧ (i 1).val < win0_3.index ⟨(i 0).val / 512, hq⟩ (1 : Fin 2) * 2048 + 2048
    rw [e7]
    omega

/-- The result array after the call is `G` of the argument arrays. -/
theorem final (c : Dev nD) : (dat V c).arrAt 3 cfg0.N = G V c :=
  (dat V c).arrAt_eq_of_cover 3 (G V c) (fun t _ => flushed_eq V c t) cover

/-- The result array after the call, read at row `r` and lane `n`: the input's row times the weights' column, plus the bias. -/
theorem final_apply (c : Dev nD) (r : Fin 8192) (n : Fin 2048) :
    ((dat V c).arrAt 3 cfg0.N : S8192x2048.Idx → EReal) (ix2 r n)
      = @HAdd.hAdd EReal EReal EReal instHAdd
          (∑ k : Fin 1024, @HMul.hMul EReal EReal EReal instHMul (V c main_v4 (ix2 r k)) (V c main_v0 (ix2 k n)))
          (V c main_v2 (ix2 (0 : Fin 1) n)) := by
  rw [final V c]
  rfl

/-- The same with the three argument arrays named as functions into the extended reals. -/
theorem final_apply_of (c : Dev nD) (X : S8192x1024.Idx → EReal) (W : S1024x2048.Idx → EReal) (B : S1x2048.Idx → EReal)
    (hX : V c main_v4 = X) (hW : V c main_v0 = W) (hB : V c main_v2 = B) (r : Fin 8192) (n : Fin 2048) :
    ((dat V c).arrAt 3 cfg0.N : S8192x2048.Idx → EReal) (ix2 r n)
      = (∑ k : Fin 1024, X (ix2 r k) * W (ix2 k n)) + B (ix2 (0 : Fin 1) n) := by
  subst hX; subst hW; subst hB
  exact final_apply V c r n

end Cert.KernelIdeal.QKProj

end
-- ==== Proof.VValue.lean ====
/-
  The second projection call (the value projection), read: what its result array holds after the call, index by
  index, at the ideal values.

  Each of the sixteen grid points finds rows 512·t … 512·t + 511 of the flattened input, the whole 1024×1024 weight
  matrix and the whole bias row, and leaves in its output block the product of the rows with the weights plus the
  bias (the format changes on the way into the product and on the way out are the identity on extended reals, the
  product accumulates into zero). Every point writes its block back, the blocks tile the 8192 result rows, so the
  result array at row `r` and lane `n` is the input's row `r` times the weights' column `n`, plus the bias at `n`.
-/
import proofs.«133897_j52853867545194_2_alg».proof.Proof.VProj
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.VProj

open Idealize.ShloMosaic Idealize.ShloMosaic.TcCoe Idealize.SL.Sem
open Idealize.ShloMosaic.Pipeline (Dat)
open Idealize.ShloMosaic.ValueIdx
open Cert.KernelIdeal Cert.KernelIdeal.Gen
open scoped BigOperators

theorem hz2 : (![0, 0] : Fin 2 → Nat) = fun _ => 0 := funext fun a => by fin_cases a <;> rfl

local notation "dotV" => dot_S512x1024_S1024x1024_S512x1024_1_0_0_1_n_n

theorem lhs_row (i : S512x1024.Idx) (q : DotDims.contr dotV |>.Idx) :
    (DotDims.lhsIdx dotV i q 0).val = (i 0).val := by
  unfold DotDims.lhsIdx
  rw [dif_neg (show ¬(0 : Fin S512x1024.rank) ∈ DotDims.lhsBatch dotV by decide),
    dif_pos (show (0 : Fin S512x1024.rank) ∈ DotDims.lhsNonContracting dotV by decide)]
  rfl

theorem lhs_col (i : S512x1024.Idx) (q : DotDims.contr dotV |>.Idx) :
    (DotDims.lhsIdx dotV i q 1).val = (q ⟨0, by decide⟩).val :=
  DotDims.lhsIdx_val_of_single dotV rfl i q

theorem rhs_row (i : S512x1024.Idx) (q : DotDims.contr dotV |>.Idx) :
    (DotDims.rhsIdx dotV i q 0).val = (q ⟨0, by decide⟩).val :=
  DotDims.rhsIdx_val_of_single dotV rfl i q

theorem rhs_col (i : S512x1024.Idx) (q : DotDims.contr dotV |>.Idx) :
    (DotDims.rhsIdx dotV i q 1).val = (i 1).val := by
  unfold DotDims.rhsIdx
  rw [dif_neg (show ¬(1 : Fin S1024x1024.rank) ∈ DotDims.rhsBatch dotV by decide),
    dif_pos (show (1 : Fin S1024x1024.rank) ∈ DotDims.rhsNonContracting dotV by decide)]
  rfl

/-- The payload at an index: row `p` of the input block times column `n` of the weights, plus the bias at `n`
    (the roundings on the way into the product and on the way out are the identity on extended reals). -/
theorem pay_apply (x : Vec Ideal S512x1024 .f32) (w : Vec Ideal S1024x1024 .f32) (b : Vec Ideal S1x1024 .f32)
    (p : Fin 512) (n : Fin 1024) :
    (k1_pay1 x w b : S512x1024.Idx → EReal) (ix2 p n)
      = (∑ k : Fin 1024, (x : S512x1024.Idx → EReal) (ix2 p k) * (w : S1024x1024.Idx → EReal) (ix2 k n))
        + (b : S1x1024.Idx → EReal) (ix2 (0 : Fin 1) n) := by
  unfold k1_pay1
  rw [truncf_apply, addf_apply, shapeCast_self, shapeCast_self, broadcastTo_1b_ab_apply]
  congr 1
  simp only [matmul]
  rw [Ideal.matmul_constant_zero_apply, ← Equiv.sum_comp (contrEquiv1 dotV 1024 rfl rfl).symm]
  refine Finset.sum_congr rfl fun k _ => ?_
  rw [truncf_apply, truncf_apply]
  have hk := contrEquiv1_symm_val dotV 1024 rfl rfl k
  have el : DotDims.lhsIdx dotV (ix2 p n) ((contrEquiv1 dotV 1024 rfl rfl).symm k) = ix2 p k :=
    funext fun a => Fin.ext (by
      match a with
      | ⟨0, _⟩ => exact lhs_row _ _
      | ⟨1, _⟩ => exact (lhs_col _ _).trans hk)
  have er : DotDims.rhsIdx dotV (ix2 p n) ((contrEquiv1 dotV 1024 rfl rfl).symm k) = ix2 k n :=
    funext fun a => Fin.ext (by
      match a with
      | ⟨0, _⟩ => exact (rhs_row _ _).trans hk
      | ⟨1, _⟩ => exact rhs_col _ _)
  rw [el, er]

/-- What one grid point leaves in its output buffer, at an index: the whole-buffer loads read the three blocks and the
    one whole-buffer store leaves the payload. -/
theorem outBlock_apply (x : Vec Ideal S512x1024 .f32) (w : Vec Ideal S1024x1024 .f32) (b : Vec Ideal S1x1024 .f32)
    (p : Fin 512) (n : Fin 1024) :
    (outBlock x w b : S512x1024.Idx → EReal) (ix2 p n)
      = (∑ k : Fin 1024, (x : S512x1024.Idx → EReal) (ix2 p k) * (w : S1024x1024.Idx → EReal) (ix2 k n))
        + (b : S1x1024.Idx → EReal) (ix2 (0 : Fin 1) n) := by
  unfold outBlock
  rw [View.canon_unit_zero hz2]
  simp only [View.ld_unit_zero (S := S512x1024) hz2, View.ld_unit_zero (S := S1024x1024) hz2, View.ld_unit_zero (S := S1x1024) hz2]
  exact pay_apply x w b p n

/-- The four windows' printed index maps over the 16 grid points: the input rows and the output rows move with the
    point, the weights and the bias stand still. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- The input window's block at point `t` is rows `512·t … 512·t + 511` of the flattened input. -/
theorem blk0_apply (c : Dev nD) (t : Fin cfg1.N) (p : Fin 512) (k : Fin 1024) (r : Fin 8192)
    (hr : r.val = 512 * t.val + p.val) :
    (blk V c 0 t : S512x1024.Idx → EReal) (ix2 p k) = (V c main_v4 : S8192x1024.Idx → EReal) (ix2 r k) := by
  obtain ⟨e0, e1, -⟩ := idx_facts t
  unfold blk
  rw [View.read_apply]
  show V c main_v4 _ = V c main_v4 _
  congr 1
  funext a
  apply Fin.ext
  match a with
  | ⟨0, _⟩ => show win1_0.index t (0 : Fin 2) * 512 + 1 * p.val = r.val; rw [e0, hr]; omega
  | ⟨1, _⟩ => show win1_0.index t (1 : Fin 2) * 1024 + 1 * k.val = k.val; rw [e1]; omega

/-- The weights' block at every point is the whole weight matrix. -/
theorem blk1_apply (c : Dev nD) (t : Fin cfg1.N) (k : Fin 1024) (n : Fin 1024) :
    (blk V c 1 t : S1024x1024.Idx → EReal) (ix2 k n) = (V c main_arg5 : S1024x1024.Idx → EReal) (ix2 k n) := by
  obtain ⟨-, -, e2, e3, -⟩ := idx_facts t
  unfold blk
  rw [View.read_apply]
  show V c main_arg5 _ = V c main_arg5 _
  congr 1
  funext a
  apply Fin.ext
  match a with
  | ⟨0, _⟩ => show win1_1.index t (0 : Fin 2) * 1024 + 1 * k.val = k.val; rw [e2]; omega
  | ⟨1, _⟩ => show win1_1.index t (1 : Fin 2) * 1024 + 1 * n.val = n.val; rw [e3]; omega

/-- The bias block at every point is the whole bias row. -/
theorem blk2_apply (c : Dev nD) (t : Fin cfg1.N) (n : Fin 1024) :
    (blk V c 2 t : S1x1024.Idx → EReal) (ix2 (0 : Fin 1) n) = (V c main_v3 : S1x1024.Idx → EReal) (ix2 (0 : Fin 1) n) := by
  obtain ⟨-, -, -, -, e4, e5, -⟩ := idx_facts t
  unfold blk
  rw [View.read_apply]
  show V c main_v3 _ = V c main_v3 _
  congr 1
  funext a
  apply Fin.ext
  match a with
  | ⟨0, _⟩ => show win1_2.index t (0 : Fin 2) * 1 + 1 * 0 = 0; rw [e4]
  | ⟨1, _⟩ => show win1_2.index t (1 : Fin 2) * 1024 + 1 * n.val = n.val; rw [e5]; omega

/-- Row `r` of `X` times column `n` of `W`, plus the bias row at `n`. -/
def rowDot (X : S8192x1024.Idx → EReal) (W : S1024x1024.Idx → EReal) (B : S1x1024.Idx → EReal)
    (r : Fin 8192) (n : Fin 1024) : EReal :=
  (∑ k : Fin 1024, X (ix2 r k) * W (ix2 k n)) + B (ix2 (0 : Fin 1) n)

/-- The projection's result array as one function of the three argument arrays, index by index. -/
def G (c : Dev nD) : S8192x1024.Idx → EReal := fun i =>
  rowDot (V c main_v4) (V c main_arg5) (V c main_v3) ⟨(i 0).val, idx2_lt0 i⟩ ⟨(i 1).val, idx2_lt1 i⟩

/-- What point `t` writes back is block `t` of `G` of the argument arrays. -/
theorem flushed_eq (c : Dev nD) (t : Fin cfg1.N) :
    (dat V c).flushed 3 t = ((cfg1.win 3).blk t).view.read (Elt Ideal) (G V c) := by
  show (cfg1.win 3).cut (grid1.coords t) ((dat V c).after 3 t) = _
  rw [after3]
  obtain ⟨-, -, -, -, -, -, e6, e7⟩ := idx_facts t
  have ht : t.val < 16 := lt_of_lt_of_eq t.isLt N_1
  funext j
  revert j
  show ∀ j : S512x1024.Idx, (outBlock (blk V c 0 t) (blk V c 1 t) (blk V c 2 t) : S512x1024.Idx → EReal) j
      = G V c (((cfg1.win 3).blk t).view.emb j)
  intro j
  obtain ⟨p, n, rfl⟩ : ∃ (p : Fin 512) (n : Fin 1024), j = ix2 p n := ⟨j 0, j 1, eq_ix2 j⟩
  have hr : 512 * t.val + p.val < 8192 := by have := p.isLt; omega
  have hemb : ((cfg1.win 3).blk t).view.emb (ix2 p n) = (ix2 (⟨512 * t.val + p.val, hr⟩ : Fin 8192) n : S8192x1024.Idx) := by
    funext a
    apply Fin.ext
    match a with
    | ⟨0, _⟩ => show win1_3.index t (0 : Fin 2) * 512 + 1 * p.val = 512 * t.val + p.val; rw [e6]; omega
    | ⟨1, _⟩ => show win1_3.index t (1 : Fin 2) * 1024 + 1 * n.val = n.val; rw [e7]; omega
  rw [hemb]
  refine (outBlock_apply _ _ _ p n).trans ?_
  show _ = rowDot (V c main_v4) (V c main_arg5) (V c main_v3) ⟨512 * t.val + p.val, hr⟩ n
  unfold rowDot
  congr 1
  · refine Finset.sum_congr rfl fun k _ => ?_
    rw [blk0_apply V c t p k ⟨512 * t.val + p.val, hr⟩ rfl, blk1_apply V c t k n]
  · exact blk2_apply V c t n

/-- An index of the result array is in point `t`'s block iff each coordinate is in the block's range on its axis. -/
theorem mem_blk3 (t : Fin cfg1.N) (i : S8192x1024.Idx) :
    i ∈ ((cfg1.win 3).blk t).view.set ↔ ∀ a : Fin 2, win1_3.index t a * S512x1024.size a ≤ (i a).val
      ∧ (i a).val < win1_3.index t a * S512x1024.size a + S512x1024.size a := by
  show i ∈ ((View.whole main_v6).slice (win1_3.rect t)).set ↔ _
  rw [View.set_slice_whole, Rect.mem_set_unit]
  exact Iff.rfl

/-- The sixteen row blocks tile the result array: row `r` is in the block of point `r / 512`. -/
theorem cover (i : S8192x1024.Idx) :
    ∃ t : Fin cfg1.N, (cfg1.win 3).flush t = true ∧ i ∈ ((cfg1.win 3).blk t).view.set := by
  have hi0 : (i 0).val < 8192 := idx2_lt0 i
  have hi1 : (i 1).val < 1024 := idx2_lt1 i
  have hN : cfg1.N = 16 := N_1
  have hq : (i 0).val / 512 < cfg1.N := by rw [hN]; omega
  obtain ⟨-, -, -, -, -, -, e6, e7⟩ := idx_facts ⟨(i 0).val / 512, hq⟩
  refine ⟨⟨(i 0).val / 512, hq⟩, flush1_3 _, ?_⟩
  rw [mem_blk3]
  intro a
  match a with
  | ⟨0, _⟩ =>
    show win1_3.index ⟨(i 0).val / 512, hq⟩ (0 : Fin 2) * 512 ≤ (i 0).val
      ∧ (i 0).val < win1_3.index ⟨(i 0).val / 512, hq⟩ (0 : Fin 2) * 512 + 512
    rw [e6]
    show (i 0).val / 512 * 512 ≤ (i 0).val ∧ (i 0).val < (i 0).val / 512 * 512 + 512
    omega
  | ⟨1, _⟩ =>
    show win1_3.index ⟨(i 0).val / 512, hq⟩ (1 : Fin 2) * 1024 ≤ (i 1).val
      ∧ (i 1).val < win1_3.index ⟨(i 0).val / 512, hq⟩ (1 : Fin 2) * 1024 + 1024
    rw [e7]
    omega

/-- The result array after the call is `G` of the argument arrays. -/
theorem final (c : Dev nD) : (dat V c).arrAt 3 cfg1.N = G V c :=
  (dat V c).arrAt_eq_of_cover 3 (G V c) (fun t _ => flushed_eq V c t) cover

/-- The result array after the call, read at row `r` and lane `n`: the input's row times the weights' column, plus the bias. -/
theorem final_apply (c : Dev nD) (r : Fin 8192) (n : Fin 1024) :
    ((dat V c).arrAt 3 cfg1.N : S8192x1024.Idx → EReal) (ix2 r n)
      = @HAdd.hAdd EReal EReal EReal instHAdd
          (∑ k : Fin 1024, @HMul.hMul EReal EReal EReal instHMul (V c main_v4 (ix2 r k)) (V c main_arg5 (ix2 k n)))
          (V c main_v3 (ix2 (0 : Fin 1) n)) := by
  rw [final V c]
  rfl

/-- The same with the three argument arrays named as functions into the extended reals. -/
theorem final_apply_of (c : Dev nD) (X : S8192x1024.Idx → EReal) (W : S1024x1024.Idx → EReal) (B : S1x1024.Idx → EReal)
    (hX : V c main_v4 = X) (hW : V c main_arg5 = W) (hB : V c main_v3 = B) (r : Fin 8192) (n : Fin 1024) :
    ((dat V c).arrAt 3 cfg1.N : S8192x1024.Idx → EReal) (ix2 r n)
      = (∑ k : Fin 1024, X (ix2 r k) * W (ix2 k n)) + B (ix2 (0 : Fin 1) n) := by
  subst hX; subst hW; subst hB
  exact final_apply V c r n

end Cert.KernelIdeal.VProj

end
-- ==== Proof.Glue.lean ====
/-
  The host operations of @main are layout only: two concatenations and five reshapes. Each array they write, read at an
  index, is one entry of an array they were given. A reshape keeps the row-major position: the position of (b, s, j) in
  [4, 2048, n] is (b * 2048 + s) * n + j, which is the position of (2048 * b + s, j) in [8192, n]; a vector of n entries
  seen as one row keeps its entry j at (0, j). A concatenation of two pieces of extent 1024 along an axis reads the first
  piece below 1024 on that axis and the second piece, 1024 less, from 1024 on.
-/
import proofs.«133897_j52853867545194_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Glue

open Cert.KernelIdeal Cert.KernelIdeal.Gen Idealize.ShloMosaic Idealize.ShloMosaic.ValueIdx

variable {F : FTy → Type} [FloatOps F]
variable (W : Valuation τ sig (Elt F))

/-! ## Before the first call -/

/-- The activations regrouped to [8192, 1024]: row 2048 b + s is row s of batch b. -/
theorem v4_apply (b : Fin 4) (s : Fin 2048) (j : Fin 1024) :
    (StableHlo.after hostOps0 W (Proc.devRef .tc main_v4) : S8192x1024.Idx → _)
        (ix2 (⟨2048 * b.val + s.val, by omega⟩ : Fin 8192) j)
      = (W (Proc.devRef .tc main_arg0) : S4x2048x1024.Idx → _) (ix3 b s j) := by
  have e : (StableHlo.after hostOps0 W (Proc.devRef .tc main_v4) : S8192x1024.Idx → _)
      = shapeCast S8192x1024 (W (Proc.devRef .tc main_arg0) : S4x2048x1024.Idx → _) shapeCasts_S4x2048x1024_S8192x1024 := by
    dsimp only [hostOps0]; after_results; rfl
  rw [e]
  refine shapeCast_apply _ _ _ (ix3 b s j) ?_
  rw [Shape.rowMajor_val_three, Shape.rowMajor_val_two]
  show (b.val * 2048 + s.val) * 1024 + j.val = (2048 * b.val + s.val) * 1024 + j.val
  omega

/-- The two weight matrices side by side, as the operations' term. -/
theorem v0_eq :
    (StableHlo.after hostOps0 W (Proc.devRef .tc main_v0) : S1024x2048.Idx → _)
      = concatenate S1024x2048 1 [⟨S1024x1024, (W (Proc.devRef .tc main_arg1) : S1024x1024.Idx → _)⟩,
          ⟨S1024x1024, (W (Proc.devRef .tc main_arg3) : S1024x1024.Idx → _)⟩]
          concatenates_S1024x1024_S1024x1024_S1024x2048_d1 := by
  dsimp only [hostOps0]; after_results

/-- Columns below 1024 of the joined weight matrix are the first matrix's. -/
theorem v0_left (k n : Fin 1024) :
    (StableHlo.after hostOps0 W (Proc.devRef .tc main_v0) : S1024x2048.Idx → _)
        (ix2 k (⟨n.val, by omega⟩ : Fin 2048))
      = (W (Proc.devRef .tc main_arg1) : S1024x1024.Idx → _) (ix2 k n) := by
  rw [v0_eq]
  refine concatenate_pair_apply_left (t := S1024x2048) (s₁ := S1024x1024) (s₂ := S1024x1024) _ _ _ _ _ rfl (ix2 k n) ?_
  intro b
  match b with
  | ⟨0, _⟩ => rfl
  | ⟨1, _⟩ => rfl

/-- Columns from 1024 on of the joined weight matrix are the second matrix's, 1024 less. -/
theorem v0_right (k n : Fin 1024) :
    (StableHlo.after hostOps0 W (Proc.devRef .tc main_v0) : S1024x2048.Idx → _)
        (ix2 k (⟨1024 + n.val, by omega⟩ : Fin 2048))
      = (W (Proc.devRef .tc main_arg3) : S1024x1024.Idx → _) (ix2 k n) := by
  rw [v0_eq]
  refine concatenate_pair_apply_right (t := S1024x2048) (s₁ := S1024x1024) (s₂ := S1024x1024) _ _ _ _ _ rfl rfl (ix2 k n) ?_ ?_
  · intro b hb
    match b, hb with
    | ⟨0, _⟩, _ => rfl
    | ⟨1, _⟩, hb => exact absurd rfl hb
  · show n.val + 1024 = 1024 + n.val
    omega

/-- The two bias vectors end to end, seen as one row, as the operations' term. -/
theorem v2_eq :
    (StableHlo.after hostOps0 W (Proc.devRef .tc main_v2) : S1x2048.Idx → _)
      = shapeCast S1x2048 (concatenate S2048 0 [⟨S1024, (W (Proc.devRef .tc main_arg2) : S1024.Idx → _)⟩,
          ⟨S1024, (W (Proc.devRef .tc main_arg4) : S1024.Idx → _)⟩]
          concatenates_S1024_S1024_S2048_d0) shapeCasts_S2048_S1x2048 := by
  dsimp only [hostOps0]; after_results; rfl

/-- Entries below 1024 of the joined bias row are the first vector's. -/
theorem v2_left (n : Fin 1024) :
    (StableHlo.after hostOps0 W (Proc.devRef .tc main_v2) : S1x2048.Idx → _)
        (ix2 (0 : Fin 1) (⟨n.val, by omega⟩ : Fin 2048))
      = (W (Proc.devRef .tc main_arg2) : S1024.Idx → _) (ix1 n) := by
  rw [v2_eq]
  refine (shapeCast_apply _ _ _ (ix1 (⟨n.val, by omega⟩ : Fin 2048)) ?_).trans ?_
  · rw [Shape.rowMajor_val_one, Shape.rowMajor_val_two]
    show n.val = 0 * 2048 + n.val
    omega
  · refine concatenate_pair_apply_left (t := S2048) (s₁ := S1024) (s₂ := S1024) _ _ _ _ _ rfl (ix1 n) ?_
    intro b
    match b with
    | ⟨0, _⟩ => rfl

/-- Entries from 1024 on of the joined bias row are the second vector's, 1024 less. -/
theorem v2_right (n : Fin 1024) :
    (StableHlo.after hostOps0 W (Proc.devRef .tc main_v2) : S1x2048.Idx → _)
        (ix2 (0 : Fin 1) (⟨1024 + n.val, by omega⟩ : Fin 2048))
      = (W (Proc.devRef .tc main_arg4) : S1024.Idx → _) (ix1 n) := by
  rw [v2_eq]
  refine (shapeCast_apply _ _ _ (ix1 (⟨1024 + n.val, by omega⟩ : Fin 2048)) ?_).trans ?_
  · rw [Shape.rowMajor_val_one, Shape.rowMajor_val_two]
    show 1024 + n.val = 0 * 2048 + (1024 + n.val)
    omega
  · refine concatenate_pair_apply_right (t := S2048) (s₁ := S1024) (s₂ := S1024) _ _ _ _ _ rfl rfl (ix1 n) ?_ ?_
    · intro b hb
      match b, hb with
      | ⟨0, _⟩, hb => exact absurd rfl hb
    · show n.val + 1024 = 1024 + n.val
      omega

/-- The third bias vector seen as one row. -/
theorem v3_apply (n : Fin 1024) :
    (StableHlo.after hostOps0 W (Proc.devRef .tc main_v3) : S1x1024.Idx → _) (ix2 (0 : Fin 1) n)
      = (W (Proc.devRef .tc main_arg6) : S1024.Idx → _) (ix1 n) := by
  have e : (StableHlo.after hostOps0 W (Proc.devRef .tc main_v3) : S1x1024.Idx → _)
      = shapeCast S1x1024 (W (Proc.devRef .tc main_arg6) : S1024.Idx → _) shapeCasts_S1024_S1x1024 := by
    dsimp only [hostOps0]; after_results; rfl
  rw [e]
  refine shapeCast_apply _ _ _ (ix1 n) ?_
  rw [Shape.rowMajor_val_one, Shape.rowMajor_val_two]
  show n.val = 0 * 1024 + n.val
  omega

/-! ## Between the second call and the third -/

/-- The first call's result regrouped to [4, 2048, 2048]: row s of batch b is row 2048 b + s. -/
theorem v7_apply (b : Fin 4) (s : Fin 2048) (n : Fin 2048) :
    (StableHlo.after hostOps2 W (Proc.devRef .tc main_v7) : S4x2048x2048.Idx → _) (ix3 b s n)
      = (W (Proc.devRef .tc main_v5) : S8192x2048.Idx → _)
          (ix2 (⟨2048 * b.val + s.val, by omega⟩ : Fin 8192) n) := by
  have e : (StableHlo.after hostOps2 W (Proc.devRef .tc main_v7) : S4x2048x2048.Idx → _)
      = shapeCast S4x2048x2048 (W (Proc.devRef .tc main_v5) : S8192x2048.Idx → _) shapeCasts_S8192x2048_S4x2048x2048 := by
    dsimp only [hostOps2]; after_results; rfl
  rw [e]
  refine shapeCast_apply _ _ _ (ix2 (⟨2048 * b.val + s.val, by omega⟩ : Fin 8192) n) ?_
  rw [Shape.rowMajor_val_three, Shape.rowMajor_val_two]
  show (2048 * b.val + s.val) * 2048 + n.val = (b.val * 2048 + s.val) * 2048 + n.val
  omega

/-- The second call's result regrouped to [4, 2048, 1024]: row s of batch b is row 2048 b + s. -/
theorem v8_apply (b : Fin 4) (s : Fin 2048) (d : Fin 1024) :
    (StableHlo.after hostOps2 W (Proc.devRef .tc main_v8) : S4x2048x1024.Idx → _) (ix3 b s d)
      = (W (Proc.devRef .tc main_v6) : S8192x1024.Idx → _)
          (ix2 (⟨2048 * b.val + s.val, by omega⟩ : Fin 8192) d) := by
  have e : (StableHlo.after hostOps2 W (Proc.devRef .tc main_v8) : S4x2048x1024.Idx → _)
      = shapeCast S4x2048x1024 (W (Proc.devRef .tc main_v6) : S8192x1024.Idx → _) shapeCasts_S8192x1024_S4x2048x1024 := by
    dsimp only [hostOps2]; after_results; rfl
  rw [e]
  refine shapeCast_apply _ _ _ (ix2 (⟨2048 * b.val + s.val, by omega⟩ : Fin 8192) d) ?_
  rw [Shape.rowMajor_val_three, Shape.rowMajor_val_two]
  show (2048 * b.val + s.val) * 1024 + d.val = (b.val * 2048 + s.val) * 1024 + d.val
  omega

end Cert.KernelIdeal.Glue
-- ==== Proof.RowValue.lean ====
/-
  The rows the attention call is entered with, traced back to the program's arguments: lanes 0…1023 of the fused
  projection array are the query projection, lanes 1024…2047 the key projection, and the second projection array is
  the value projection — each the dense projection `x·W + b` of the specification, entry by entry.

  The fused weight matrix is the two weight matrices joined along the lanes and the fused bias the two biases joined,
  so a lane below 1024 of the first call's result uses the query weights and bias and a lane from 1024 on the key
  ones; the reshapes between the flattened [8192, ·] arrays and the [4, 2048, ·] ones keep the row-major position.
-/
import proofs.«133897_j52853867545194_2_alg».proof.Proof.Gen.KernelIdeal.Launch
import proofs.«133897_j52853867545194_2_alg».proof.Proof.Gen.KernelIdeal.Skeleton
import proofs.«133897_j52853867545194_2_alg».proof.Proof.Gen.KernelIdeal.Points
import proofs.«133897_j52853867545194_2_alg».proof.Proof.Run
import proofs.«133897_j52853867545194_2_alg».proof.Proof.QKValue
import proofs.«133897_j52853867545194_2_alg».proof.Proof.VValue
import proofs.«133897_j52853867545194_2_alg».proof.Proof.Glue
import proofs.«133897_j52853867545194_2_alg».proof.Proof.Spec
import proofs.«133897_j52853867545194_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- The seven argument arrays as launched, at the specification's types. -/
abbrev aX (c : Dev nD) : Cert.Spec.Arr3 := m ((c : Thread nD τ).loc main_arg0)
abbrev aWq (c : Dev nD) : Cert.Spec.Arr2 := m ((c : Thread nD τ).loc main_arg1)
abbrev aBq (c : Dev nD) : Cert.Spec.Arr1 := m ((c : Thread nD τ).loc main_arg2)
abbrev aWk (c : Dev nD) : Cert.Spec.Arr2 := m ((c : Thread nD τ).loc main_arg3)
abbrev aBk (c : Dev nD) : Cert.Spec.Arr1 := m ((c : Thread nD τ).loc main_arg4)
abbrev aWv (c : Dev nD) : Cert.Spec.Arr2 := m ((c : Thread nD τ).loc main_arg5)
abbrev aBv (c : Dev nD) : Cert.Spec.Arr1 := m ((c : Thread nD τ).loc main_arg6)

/-- The arrays the host layout operations leave for the two projection calls, as functions to the extended reals. -/
abbrev hX (c : Dev nD) : S8192x1024.Idx → EReal := V1 m ρ c main_v4
abbrev hWqk (c : Dev nD) : S1024x2048.Idx → EReal := V1 m ρ c main_v0
abbrev hBqk (c : Dev nD) : S1x2048.Idx → EReal := V1 m ρ c main_v2
abbrev hWv (c : Dev nD) : S1024x1024.Idx → EReal := V1 m ρ c main_arg5
abbrev hBv (c : Dev nD) : S1x1024.Idx → EReal := V1 m ρ c main_v3

/-- The first call's result array, as the reshapes find it. -/
theorem v5_apply (c : Dev nD) (r : Fin 8192) (n : Fin 2048) :
    (W3 m ρ c (Proc.devRef .tc main_v5) : S8192x2048.Idx → EReal) (ix2 r n)
      = (∑ k : Fin 1024, hX m ρ c (ix2 r k) * hWqk m ρ c (ix2 k n)) + hBqk m ρ c (ix2 (0 : Fin 1) n) := by
  rw [W3_of_ne m ρ c main_v5 (by decide), W2_arr m ρ c 3]
  exact QKProj.final_apply_of (V1 m ρ) c (hX m ρ c) (hWqk m ρ c) (hBqk m ρ c) rfl rfl rfl r n

/-- What the first call leaves in the buffers the second reads: the flattened input (an input array of the first call),
    and the value weights and bias (which the first call does not touch). -/
theorem V2_v4 (c : Dev nD) : V2 m ρ c main_v4 = V1 m ρ c main_v4 :=
  (W2_arr m ρ c 0).trans (((QKProj.dat (V1 m ρ) c).arrAt_in 0 rfl _).trans (QKProj.A_eq (V1 m ρ) c 0))
theorem V2_arg5 (c : Dev nD) : V2 m ρ c main_arg5 = V1 m ρ c main_arg5 := W2_of_ne m ρ c main_arg5 (by decide)
theorem V2_v3 (c : Dev nD) : V2 m ρ c main_v3 = V1 m ρ c main_v3 := W2_of_ne m ρ c main_v3 (by decide)
theorem V1_arg5 (c : Dev nD) : V1 m ρ c main_arg5 = m ((c : Thread nD τ).loc main_arg5) :=
  (StableHlo.after_of_writes_sub hostOps0 _ Gen.hostOps0_writes (by decide)).trans rfl

/-- The second call's result array. -/
theorem v6_apply (c : Dev nD) (r : Fin 8192) (n : Fin 1024) :
    (W3 m ρ c (Proc.devRef .tc main_v6) : S8192x1024.Idx → EReal) (ix2 r n)
      = (∑ k : Fin 1024, hX m ρ c (ix2 r k) * hWv m ρ c (ix2 k n)) + hBv m ρ c (ix2 (0 : Fin 1) n) := by
  rw [W3_arr m ρ c 3]
  exact VProj.final_apply_of (V2 m ρ) c (hX m ρ c) (hWv m ρ c) (hBv m ρ c) (V2_v4 m ρ c) (V2_arg5 m ρ c) (V2_v3 m ρ c) r n

/-- A query row of the attention call's entry array is the specification's query projection. -/
theorem q_entry (c : Dev nD) (b : Fin 4) (q : Fin 2048) (k : Fin 1024) :
    (V4 m ρ c main_v7 : S4x2048x2048.Idx → EReal) (ix3 b q (⟨k.val, by have := k.isLt; omega⟩ : Fin 2048))
      = Cert.Spec.proj (aX m c) (aWq m c) (aBq m c) b q k := by
  unfold Cert.Spec.proj
  refine (Glue.v7_apply (W3 m ρ c) b q _).trans ((v5_apply m ρ c _ _).trans ?_)
  refine congrArg₂ (· + ·) (Finset.sum_congr rfl fun j _ => ?_) ?_
  · exact congrArg₂ (· * ·) (Glue.v4_apply (W0 m ρ c) b q j) (Glue.v0_left (W0 m ρ c) j k)
  · exact Glue.v2_left (W0 m ρ c) k

/-- A key row likewise: the lanes from 1024 on. -/
theorem k_entry (c : Dev nD) (b : Fin 4) (s : Fin 2048) (k : Fin 1024) :
    (V4 m ρ c main_v7 : S4x2048x2048.Idx → EReal) (ix3 b s (⟨1024 + k.val, by have := k.isLt; omega⟩ : Fin 2048))
      = Cert.Spec.proj (aX m c) (aWk m c) (aBk m c) b s k := by
  unfold Cert.Spec.proj
  refine (Glue.v7_apply (W3 m ρ c) b s _).trans ((v5_apply m ρ c _ _).trans ?_)
  refine congrArg₂ (· + ·) (Finset.sum_congr rfl fun j _ => ?_) ?_
  · exact congrArg₂ (· * ·) (Glue.v4_apply (W0 m ρ c) b s j) (Glue.v0_right (W0 m ρ c) j k)
  · exact Glue.v2_right (W0 m ρ c) k

/-- A value row of the second entry array is the specification's value projection. -/
theorem v_entry (c : Dev nD) (b : Fin 4) (s : Fin 2048) (d : Fin 1024) :
    (V4 m ρ c main_v8 : S4x2048x1024.Idx → EReal) (ix3 b s d) = Cert.Spec.proj (aX m c) (aWv m c) (aBv m c) b s d := by
  unfold Cert.Spec.proj
  refine (Glue.v8_apply (W3 m ρ c) b s d).trans ((v6_apply m ρ c _ _).trans ?_)
  refine congrArg₂ (· + ·) (Finset.sum_congr rfl fun j _ => ?_) ?_
  · exact congrArg₂ (· * ·) (Glue.v4_apply (W0 m ρ c) b s j) (congrFun (V1_arg5 m ρ c) (ix2 j d))
  · exact Glue.v3_apply (W0 m ρ c) d

end Cert.KernelIdeal.Run

end
-- ==== Proof.Flash.Pieces.lean ====
/-
  The attention call's body as ONE step of the online softmax: what each of the three runs leaves in the
  scratch buffers and in the output buffer, as the body's named arithmetic applied to what the run loaded.

  `step` takes the query block, the key block, the value block and the scratch contents (running maximum m,
  running denominator l, accumulator acc) to the new scratch contents:
    m' = max (m, row maximum of q·kᵀ),  l' = exp (m − m')·l + Σ exp (q·kᵀ − m'),
    acc' = exp (m − m')·acc + exp (q·kᵀ − m')·v.
  A first key/value block steps from the reset values (−∞, 0, 0); a last one also stores `finish l' acc'`,
  the accumulator over the denominator times the constant.
-/
import proofs.«133897_j52853867545194_2_alg».proof.Proof.Gen.KernelIdeal.Launch
import proofs.«133897_j52853867545194_2_alg».proof.Proof.Gen.KernelIdeal.Skeleton
import proofs.«133897_j52853867545194_2_alg».proof.Proof.Gen.KernelIdeal.Points
import proofs.«133897_j52853867545194_2_alg».proof.Proof.Flash.RunFirst
import proofs.«133897_j52853867545194_2_alg».proof.Proof.Flash.RunMid
import proofs.«133897_j52853867545194_2_alg».proof.Proof.Flash.RunLast
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz3 : (![0, 0, 0] : Fin 3 → ℕ) = fun _ => 0 := by
  funext a; match a with | ⟨0, _⟩ => rfl | ⟨1, _⟩ => rfl | ⟨2, _⟩ => rfl

/-- One step of the online softmax, in the body's own arithmetic. -/
def stepM (xq : Vec F S1x512x1024 .f32) (xk : Vec F S1x256x1024 .f32) (xm : Vec F S1x512x1 .f32) : Vec F S1x512x1 .f32 :=
  k2_pay2 (k2_pay9 xq xk xm)
def stepL (xq : Vec F S1x512x1024 .f32) (xk : Vec F S1x256x1024 .f32) (xm xl : Vec F S1x512x1 .f32) : Vec F S1x512x1 .f32 :=
  k2_pay12 xq xk xm xm xl
def stepA (xq : Vec F S1x512x1024 .f32) (xk : Vec F S1x256x1024 .f32) (xv : Vec F S1x256x1024 .bf16)
    (xm : Vec F S1x512x1 .f32) (xa : Vec F S1x512x1024 .f32) : Vec F S1x512x1024 .f32 :=
  k2_pay1 (k2_pay7 xv) (k2_pay10 xq xk xm xm) (k2_pay11 xq xk xm) xa
/-- The output store of a last key/value block. -/
def finish (xl : Vec F S1x512x1 .f32) (xa : Vec F S1x512x1024 .f32) : Vec F S1x512x1024 .f32 := k2_pay3 xl xa

theorem mid_M (c : Dev nD) (i : grid2.Coords)
    (a3 : Memref sig .tc .vmem S1x512x1024 .f32) (h3 : a3.IsWhole) (a4 : Memref sig .tc .vmem S1x256x1024 .f32) (h4 : a4.IsWhole)
    (a5 : Memref sig .tc .vmem S1x256x1024 .bf16) (h5 : a5.IsWhole) (a6 : Memref sig .tc .vmem S1x512x1024 .f32) (h6 : a6.IsWhole)
    (a7 : Memref sig .tc .vmem S1x512x1 .f32) (h7 : a7.IsWhole) (a8 : Memref sig .tc .vmem S1x512x1 .f32) (h8 : a8.IsWhole)
    (a9 : Memref sig .tc .vmem S1x512x1024 .f32) (h9 : a9.IsWhole)
    (hc1 : ¬condFirst i) (hc2 : ¬condLast i)
    (xq : Vec F S1x512x1024 .f32) (xk : Vec F S1x256x1024 .f32) (xv : Vec F S1x256x1024 .bf16)
    (xm : Vec F S1x512x1 .f32) (xl : Vec F S1x512x1 .f32) (xa : Vec F S1x512x1024 .f32) : View.canon (runMid c i a3 h3 a4 h4 a5 h5 a6 h6 a7 h7 a8 h8 a9 h9 hc1 hc2 xq xk xv xm xl xa).1 = stepM xq xk xm := by
  unfold runMid stepM
  dsimp only
  sl_unfold_words
  refine (View.canon_cons_unit_zero hz3 _ _ _).trans ?_
  simp only [View.readCov_unit_zero (S := S1x512x1) a7.view hz3, View.readCov_unit_zero (S := S1x512x1) a8.view hz3, View.readCov_unit_zero (S := S1x512x1024) a9.view hz3, View.readAt_eq_ld, Memref.IsWhole.read_unread,
    View.ld_unit_zero (S := S1x512x1024) hz3, View.ld_unit_zero (S := S1x256x1024) hz3, View.ld_unit_zero (S := S1x512x1) hz3]

theorem mid_L (c : Dev nD) (i : grid2.Coords)
    (a3 : Memref sig .tc .vmem S1x512x1024 .f32) (h3 : a3.IsWhole) (a4 : Memref sig .tc .vmem S1x256x1024 .f32) (h4 : a4.IsWhole)
    (a5 : Memref sig .tc .vmem S1x256x1024 .bf16) (h5 : a5.IsWhole) (a6 : Memref sig .tc .vmem S1x512x1024 .f32) (h6 : a6.IsWhole)
    (a7 : Memref sig .tc .vmem S1x512x1 .f32) (h7 : a7.IsWhole) (a8 : Memref sig .tc .vmem S1x512x1 .f32) (h8 : a8.IsWhole)
    (a9 : Memref sig .tc .vmem S1x512x1024 .f32) (h9 : a9.IsWhole)
    (hc1 : ¬condFirst i) (hc2 : ¬condLast i)
    (xq : Vec F S1x512x1024 .f32) (xk : Vec F S1x256x1024 .f32) (xv : Vec F S1x256x1024 .bf16)
    (xm : Vec F S1x512x1 .f32) (xl : Vec F S1x512x1 .f32) (xa : Vec F S1x512x1024 .f32) : View.canon (runMid c i a3 h3 a4 h4 a5 h5 a6 h6 a7 h7 a8 h8 a9 h9 hc1 hc2 xq xk xv xm xl xa).2.1 = stepL xq xk xm xl := by
  unfold runMid stepL
  dsimp only
  sl_unfold_words
  refine (View.canon_cons_unit_zero hz3 _ _ _).trans ?_
  simp only [View.readCov_unit_zero (S := S1x512x1) a7.view hz3, View.readCov_unit_zero (S := S1x512x1) a8.view hz3, View.readCov_unit_zero (S := S1x512x1024) a9.view hz3, View.readAt_eq_ld, Memref.IsWhole.read_unread,
    View.ld_unit_zero (S := S1x512x1024) hz3, View.ld_unit_zero (S := S1x256x1024) hz3, View.ld_unit_zero (S := S1x512x1) hz3]

theorem mid_A (c : Dev nD) (i : grid2.Coords)
    (a3 : Memref sig .tc .vmem S1x512x1024 .f32) (h3 : a3.IsWhole) (a4 : Memref sig .tc .vmem S1x256x1024 .f32) (h4 : a4.IsWhole)
    (a5 : Memref sig .tc .vmem S1x256x1024 .bf16) (h5 : a5.IsWhole) (a6 : Memref sig .tc .vmem S1x512x1024 .f32) (h6 : a6.IsWhole)
    (a7 : Memref sig .tc .vmem S1x512x1 .f32) (h7 : a7.IsWhole) (a8 : Memref sig .tc .vmem S1x512x1 .f32) (h8 : a8.IsWhole)
    (a9 : Memref sig .tc .vmem S1x512x1024 .f32) (h9 : a9.IsWhole)
    (hc1 : ¬condFirst i) (hc2 : ¬condLast i)
    (xq : Vec F S1x512x1024 .f32) (xk : Vec F S1x256x1024 .f32) (xv : Vec F S1x256x1024 .bf16)
    (xm : Vec F S1x512x1 .f32) (xl : Vec F S1x512x1 .f32) (xa : Vec F S1x512x1024 .f32) : View.canon (runMid c i a3 h3 a4 h4 a5 h5 a6 h6 a7 h7 a8 h8 a9 h9 hc1 hc2 xq xk xv xm xl xa).2.2.1 = stepA xq xk xv xm xa := by
  unfold runMid stepA
  dsimp only
  sl_unfold_words
  refine (View.canon_cons_unit_zero hz3 _ _ _).trans ?_
  simp only [View.readCov_unit_zero (S := S1x512x1) a7.view hz3, View.readCov_unit_zero (S := S1x512x1) a8.view hz3, View.readCov_unit_zero (S := S1x512x1024) a9.view hz3, View.readAt_eq_ld, Memref.IsWhole.read_unread,
    View.ld_unit_zero (S := S1x512x1024) hz3, View.ld_unit_zero (S := S1x256x1024) hz3, View.ld_unit_zero (S := S1x512x1) hz3]

theorem first_M (c : Dev nD) (i : grid2.Coords)
    (a3 : Memref sig .tc .vmem S1x512x1024 .f32) (h3 : a3.IsWhole) (a4 : Memref sig .tc .vmem S1x256x1024 .f32) (h4 : a4.IsWhole)
    (a5 : Memref sig .tc .vmem S1x256x1024 .bf16) (h5 : a5.IsWhole) (a6 : Memref sig .tc .vmem S1x512x1024 .f32) (h6 : a6.IsWhole)
    (a7 : Memref sig .tc .vmem S1x512x1 .f32) (h7 : a7.IsWhole) (a8 : Memref sig .tc .vmem S1x512x1 .f32) (h8 : a8.IsWhole)
    (a9 : Memref sig .tc .vmem S1x512x1024 .f32) (h9 : a9.IsWhole)
    (hc1 : condFirst i) (hc2 : ¬condLast i)
    (xq : Vec F S1x512x1024 .f32) (xk : Vec F S1x256x1024 .f32) (xv : Vec F S1x256x1024 .bf16) : View.canon (runFirst c i a3 h3 a4 h4 a5 h5 a6 h6 a7 h7 a8 h8 a9 h9 hc1 hc2 xq xk xv).1 = stepM xq xk k2_pay4 := by
  unfold runFirst stepM
  dsimp only
  sl_unfold_words
  refine (View.canon_cons_unit_zero hz3 _ _ _).trans ?_
  simp only [View.readCov_unit_zero (S := S1x512x1) a7.view hz3, View.readCov_unit_zero (S := S1x512x1) a8.view hz3, View.readCov_unit_zero (S := S1x512x1024) a9.view hz3, View.readAt_eq_ld, Memref.IsWhole.read_unread,
    View.ld_unit_zero (S := S1x512x1024) hz3, View.ld_unit_zero (S := S1x256x1024) hz3, View.ld_unit_zero (S := S1x512x1) hz3]

theorem first_L (c : Dev nD) (i : grid2.Coords)
    (a3 : Memref sig .tc .vmem S1x512x1024 .f32) (h3 : a3.IsWhole) (a4 : Memref sig .tc .vmem S1x256x1024 .f32) (h4 : a4.IsWhole)
    (a5 : Memref sig .tc .vmem S1x256x1024 .bf16) (h5 : a5.IsWhole) (a6 : Memref sig .tc .vmem S1x512x1024 .f32) (h6 : a6.IsWhole)
    (a7 : Memref sig .tc .vmem S1x512x1 .f32) (h7 : a7.IsWhole) (a8 : Memref sig .tc .vmem S1x512x1 .f32) (h8 : a8.IsWhole)
    (a9 : Memref sig .tc .vmem S1x512x1024 .f32) (h9 : a9.IsWhole)
    (hc1 : condFirst i) (hc2 : ¬condLast i)
    (xq : Vec F S1x512x1024 .f32) (xk : Vec F S1x256x1024 .f32) (xv : Vec F S1x256x1024 .bf16) : View.canon (runFirst c i a3 h3 a4 h4 a5 h5 a6 h6 a7 h7 a8 h8 a9 h9 hc1 hc2 xq xk xv).2.1 = stepL xq xk k2_pay4 k2_pay5 := by
  unfold runFirst stepL
  dsimp only
  sl_unfold_words
  refine (View.canon_cons_unit_zero hz3 _ _ _).trans ?_
  simp only [View.readCov_unit_zero (S := S1x512x1) a7.view hz3, View.readCov_unit_zero (S := S1x512x1) a8.view hz3, View.readCov_unit_zero (S := S1x512x1024) a9.view hz3, View.readAt_eq_ld, Memref.IsWhole.read_unread,
    View.ld_unit_zero (S := S1x512x1024) hz3, View.ld_unit_zero (S := S1x256x1024) hz3, View.ld_unit_zero (S := S1x512x1) hz3]

theorem first_A (c : Dev nD) (i : grid2.Coords)
    (a3 : Memref sig .tc .vmem S1x512x1024 .f32) (h3 : a3.IsWhole) (a4 : Memref sig .tc .vmem S1x256x1024 .f32) (h4 : a4.IsWhole)
    (a5 : Memref sig .tc .vmem S1x256x1024 .bf16) (h5 : a5.IsWhole) (a6 : Memref sig .tc .vmem S1x512x1024 .f32) (h6 : a6.IsWhole)
    (a7 : Memref sig .tc .vmem S1x512x1 .f32) (h7 : a7.IsWhole) (a8 : Memref sig .tc .vmem S1x512x1 .f32) (h8 : a8.IsWhole)
    (a9 : Memref sig .tc .vmem S1x512x1024 .f32) (h9 : a9.IsWhole)
    (hc1 : condFirst i) (hc2 : ¬condLast i)
    (xq : Vec F S1x512x1024 .f32) (xk : Vec F S1x256x1024 .f32) (xv : Vec F S1x256x1024 .bf16) : View.canon (runFirst c i a3 h3 a4 h4 a5 h5 a6 h6 a7 h7 a8 h8 a9 h9 hc1 hc2 xq xk xv).2.2.1 = stepA xq xk xv k2_pay4 k2_pay6 := by
  unfold runFirst stepA
  dsimp only
  sl_unfold_words
  refine (View.canon_cons_unit_zero hz3 _ _ _).trans ?_
  simp only [View.readCov_unit_zero (S := S1x512x1) a7.view hz3, View.readCov_unit_zero (S := S1x512x1) a8.view hz3, View.readCov_unit_zero (S := S1x512x1024) a9.view hz3, View.readAt_eq_ld, Memref.IsWhole.read_unread,
    View.ld_unit_zero (S := S1x512x1024) hz3, View.ld_unit_zero (S := S1x256x1024) hz3, View.ld_unit_zero (S := S1x512x1) hz3]

theorem last_O (c : Dev nD) (i : grid2.Coords)
    (a3 : Memref sig .tc .vmem S1x512x1024 .f32) (h3 : a3.IsWhole) (a4 : Memref sig .tc .vmem S1x256x1024 .f32) (h4 : a4.IsWhole)
    (a5 : Memref sig .tc .vmem S1x256x1024 .bf16) (h5 : a5.IsWhole) (a6 : Memref sig .tc .vmem S1x512x1024 .f32) (h6 : a6.IsWhole)
    (a7 : Memref sig .tc .vmem S1x512x1 .f32) (h7 : a7.IsWhole) (a8 : Memref sig .tc .vmem S1x512x1 .f32) (h8 : a8.IsWhole)
    (a9 : Memref sig .tc .vmem S1x512x1024 .f32) (h9 : a9.IsWhole)
    (hc1 : ¬condFirst i) (hc2 : condLast i)
    (xq : Vec F S1x512x1024 .f32) (xk : Vec F S1x256x1024 .f32) (xv : Vec F S1x256x1024 .bf16)
    (xm : Vec F S1x512x1 .f32) (xl : Vec F S1x512x1 .f32) (xa : Vec F S1x512x1024 .f32) : View.canon (runLast c i a3 h3 a4 h4 a5 h5 a6 h6 a7 h7 a8 h8 a9 h9 hc1 hc2 xq xk xv xm xl xa).1 = finish (stepL xq xk xm xl) (stepA xq xk xv xm xa) := by
  unfold runLast finish stepL stepA
  dsimp only
  sl_unfold_words
  refine (View.canon_cons_unit_zero hz3 _ _ _).trans ?_
  simp only [View.readCov_unit_zero (S := S1x512x1) a7.view hz3, View.readCov_unit_zero (S := S1x512x1) a8.view hz3, View.readCov_unit_zero (S := S1x512x1024) a9.view hz3, View.readAt_eq_ld, Memref.IsWhole.read_unread,
    View.ld_unit_zero (S := S1x512x1024) hz3, View.ld_unit_zero (S := S1x256x1024) hz3, View.ld_unit_zero (S := S1x512x1) hz3]

theorem last_M (c : Dev nD) (i : grid2.Coords)
    (a3 : Memref sig .tc .vmem S1x512x1024 .f32) (h3 : a3.IsWhole) (a4 : Memref sig .tc .vmem S1x256x1024 .f32) (h4 : a4.IsWhole)
    (a5 : Memref sig .tc .vmem S1x256x1024 .bf16) (h5 : a5.IsWhole) (a6 : Memref sig .tc .vmem S1x512x1024 .f32) (h6 : a6.IsWhole)
    (a7 : Memref sig .tc .vmem S1x512x1 .f32) (h7 : a7.IsWhole) (a8 : Memref sig .tc .vmem S1x512x1 .f32) (h8 : a8.IsWhole)
    (a9 : Memref sig .tc .vmem S1x512x1024 .f32) (h9 : a9.IsWhole)
    (hc1 : ¬condFirst i) (hc2 : condLast i)
    (xq : Vec F S1x512x1024 .f32) (xk : Vec F S1x256x1024 .f32) (xv : Vec F S1x256x1024 .bf16)
    (xm : Vec F S1x512x1 .f32) (xl : Vec F S1x512x1 .f32) (xa : Vec F S1x512x1024 .f32) : View.canon (runLast c i a3 h3 a4 h4 a5 h5 a6 h6 a7 h7 a8 h8 a9 h9 hc1 hc2 xq xk xv xm xl xa).2.1 = stepM xq xk xm := by
  unfold runLast stepM
  dsimp only
  sl_unfold_words
  refine (View.canon_cons_unit_zero hz3 _ _ _).trans ?_
  simp only [View.readCov_unit_zero (S := S1x512x1) a7.view hz3, View.readCov_unit_zero (S := S1x512x1) a8.view hz3, View.readCov_unit_zero (S := S1x512x1024) a9.view hz3, View.readAt_eq_ld, Memref.IsWhole.read_unread,
    View.ld_unit_zero (S := S1x512x1024) hz3, View.ld_unit_zero (S := S1x256x1024) hz3, View.ld_unit_zero (S := S1x512x1) hz3]

theorem last_L (c : Dev nD) (i : grid2.Coords)
    (a3 : Memref sig .tc .vmem S1x512x1024 .f32) (h3 : a3.IsWhole) (a4 : Memref sig .tc .vmem S1x256x1024 .f32) (h4 : a4.IsWhole)
    (a5 : Memref sig .tc .vmem S1x256x1024 .bf16) (h5 : a5.IsWhole) (a6 : Memref sig .tc .vmem S1x512x1024 .f32) (h6 : a6.IsWhole)
    (a7 : Memref sig .tc .vmem S1x512x1 .f32) (h7 : a7.IsWhole) (a8 : Memref sig .tc .vmem S1x512x1 .f32) (h8 : a8.IsWhole)
    (a9 : Memref sig .tc .vmem S1x512x1024 .f32) (h9 : a9.IsWhole)
    (hc1 : ¬condFirst i) (hc2 : condLast i)
    (xq : Vec F S1x512x1024 .f32) (xk : Vec F S1x256x1024 .f32) (xv : Vec F S1x256x1024 .bf16)
    (xm : Vec F S1x512x1 .f32) (xl : Vec F S1x512x1 .f32) (xa : Vec F S1x512x1024 .f32) : View.canon (runLast c i a3 h3 a4 h4 a5 h5 a6 h6 a7 h7 a8 h8 a9 h9 hc1 hc2 xq xk xv xm xl xa).2.2.1 = stepL xq xk xm xl := by
  unfold runLast stepL
  dsimp only
  sl_unfold_words
  refine (View.canon_cons_unit_zero hz3 _ _ _).trans ?_
  simp only [View.readCov_unit_zero (S := S1x512x1) a7.view hz3, View.readCov_unit_zero (S := S1x512x1) a8.view hz3, View.readCov_unit_zero (S := S1x512x1024) a9.view hz3, View.readAt_eq_ld, Memref.IsWhole.read_unread,
    View.ld_unit_zero (S := S1x512x1024) hz3, View.ld_unit_zero (S := S1x256x1024) hz3, View.ld_unit_zero (S := S1x512x1) hz3]

theorem last_A (c : Dev nD) (i : grid2.Coords)
    (a3 : Memref sig .tc .vmem S1x512x1024 .f32) (h3 : a3.IsWhole) (a4 : Memref sig .tc .vmem S1x256x1024 .f32) (h4 : a4.IsWhole)
    (a5 : Memref sig .tc .vmem S1x256x1024 .bf16) (h5 : a5.IsWhole) (a6 : Memref sig .tc .vmem S1x512x1024 .f32) (h6 : a6.IsWhole)
    (a7 : Memref sig .tc .vmem S1x512x1 .f32) (h7 : a7.IsWhole) (a8 : Memref sig .tc .vmem S1x512x1 .f32) (h8 : a8.IsWhole)
    (a9 : Memref sig .tc .vmem S1x512x1024 .f32) (h9 : a9.IsWhole)
    (hc1 : ¬condFirst i) (hc2 : condLast i)
    (xq : Vec F S1x512x1024 .f32) (xk : Vec F S1x256x1024 .f32) (xv : Vec F S1x256x1024 .bf16)
    (xm : Vec F S1x512x1 .f32) (xl : Vec F S1x512x1 .f32) (xa : Vec F S1x512x1024 .f32) : View.canon (runLast c i a3 h3 a4 h4 a5 h5 a6 h6 a7 h7 a8 h8 a9 h9 hc1 hc2 xq xk xv xm xl xa).2.2.2.1 = stepA xq xk xv xm xa := by
  unfold runLast stepA
  dsimp only
  sl_unfold_words
  refine (View.canon_cons_unit_zero hz3 _ _ _).trans ?_
  simp only [View.readCov_unit_zero (S := S1x512x1) a7.view hz3, View.readCov_unit_zero (S := S1x512x1) a8.view hz3, View.readCov_unit_zero (S := S1x512x1024) a9.view hz3, View.readAt_eq_ld, Memref.IsWhole.read_unread,
    View.ld_unit_zero (S := S1x512x1024) hz3, View.ld_unit_zero (S := S1x256x1024) hz3, View.ld_unit_zero (S := S1x512x1) hz3]

end Cert.KernelIdeal.Flash

end
-- ==== Proof.Flash.Steps.lean ====
/-
  The attention call's scratch contents, point by point, as iterated steps of the online softmax: at a first
  key/value block one step from the reset values, elsewhere one step from what the point before left; at a last
  block the output buffer holds `finish` of that point's denominator and accumulator.
-/
import proofs.«133897_j52853867545194_2_alg».proof.Proof.Gen.KernelIdeal.Launch
import proofs.«133897_j52853867545194_2_alg».proof.Proof.Gen.KernelIdeal.Skeleton
import proofs.«133897_j52853867545194_2_alg».proof.Proof.Gen.KernelIdeal.Points
import proofs.«133897_j52853867545194_2_alg».proof.Proof.Flash.Scratch
import proofs.«133897_j52853867545194_2_alg».proof.Proof.Flash.Pieces
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Covering stores read back as their canonical contents. -/
theorem rdM_eq (L : List (View.Piece (Elt F) S1x512x1 .f32)) (h : ∀ y, ∃ pc ∈ L, y ∈ pc.1.set) : rdM L = View.canon L :=
  View.read_writes_eq_canon _ _ _ h
theorem rdL_eq (L : List (View.Piece (Elt F) S1x512x1 .f32)) (h : ∀ y, ∃ pc ∈ L, y ∈ pc.1.set) : rdL L = View.canon L :=
  View.read_writes_eq_canon _ _ _ h
theorem rdA_eq (L : List (View.Piece (Elt F) S1x512x1024 .f32)) (h : ∀ y, ∃ pc ∈ L, y ∈ pc.1.set) : rdA L = View.canon L :=
  View.read_writes_eq_canon _ _ _ h
theorem rdO_eq (L : List (View.Piece (Elt F) S1x512x1024 .f32)) (h : ∀ y, ∃ pc ∈ L, y ∈ pc.1.set) : rdO L = View.canon L :=
  View.read_writes_eq_canon _ _ _ h

/-- One step from the scratch contents `s` on the blocks of point `t`. -/
def stepAt (c : Dev nD) (t : Fin cfg2.N) (s : Scr F) : Scr F :=
  (stepM (blk V c 0 t) (blk V c 1 t) s.1, stepL (blk V c 0 t) (blk V c 1 t) s.1 s.2.1,
   stepA (blk V c 0 t) (blk V c 1 t) (blk V c 2 t) s.1 s.2.2)

/-- The reset values. -/
def scr0 : Scr F := (k2_pay4, k2_pay5, k2_pay6)

set_option maxHeartbeats 4000000 in
theorem scr_first' (c : Dev nD) (t : Fin cfg2.N) (h : t.val % 8 = 0) : scr V c t.val t.isLt = stepAt V c t scr0 := by
  rw [scr_first V c t h, rdM_eq _ (coverFirstM V c t h), rdL_eq _ (coverFirstL V c t h), rdA_eq _ (coverFirstA V c t h)]
  unfold runFirstAt stepAt scr0
  rw [first_M, first_L, first_A]

set_option maxHeartbeats 4000000 in
theorem scr_next' (c : Dev nD) (t : Fin cfg2.N) (h1 : ¬t.val % 8 = 0) : scr V c t.val t.isLt = stepAt V c t (prev V c t) := by
  by_cases h2 : t.val % 8 = 7
  · rw [scr_last V c t h1 h2, rdM_eq _ (coverLastM V c t h1 h2 _), rdL_eq _ (coverLastL V c t h1 h2 _), rdA_eq _ (coverLastA V c t h1 h2 _)]
    unfold runLastAt stepAt
    rw [last_M, last_L, last_A]
  · rw [scr_mid V c t h1 h2, rdM_eq _ (coverMidM V c t h1 h2 _), rdL_eq _ (coverMidL V c t h1 h2 _), rdA_eq _ (coverMidA V c t h1 h2 _)]
    unfold runMidAt stepAt
    rw [mid_M, mid_L, mid_A]

set_option maxHeartbeats 4000000 in
theorem outAt' (c : Dev nD) (t : Fin cfg2.N) (h2 : t.val % 8 = 7) :
    outAt V c t = finish (scr V c t.val t.isLt).2.1 (scr V c t.val t.isLt).2.2 := by
  have h1 : ¬t.val % 8 = 0 := by omega
  rw [outAt_last V c t h1 h2, rdO_eq _ (coverLastO V c t h1 h2 _), scr_next' V c t h1]
  unfold runLastAt stepAt
  rw [last_O]

end Cert.KernelIdeal.Flash

end
-- ==== Proof.Flash.StepIdeal.lean ====
/-
  One step of the attention kernel's online softmax, read at an index over the extended reals.

  With s(r, j) = Σ_k q(r, k)·k(j, k) the scores of query row r against the block's key rows, one step takes the
  running maximum m, the running denominator l and the accumulator acc to
    m'(r)      = max (m(r), max_j s(r, j)),
    l'(r)      = exp (m(r) − m'(r))·l(r) + Σ_j exp (s(r, j) − m'(r)),
    acc'(r, d) = exp (m(r) − m'(r))·acc(r, d) + Σ_j exp (s(r, j) − m'(r))·v(j, d),
  a last block stores acc(r, d)·(1 / l(r))·c for the body's constant c, and a first block starts from −∞, 0 and 0.
  Each non-pointwise operation of the body (the two batched contractions, the maximum and the sum over the key axis,
  the cast of a row vector to a column and the two broadcasts of a column) is read at an index by one lemma over
  variables of the literal shapes; the pointwise operations read through definitionally.
-/
import proofs.«133897_j52853867545194_2_alg».proof.Proof.Flash.Pieces
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Flash

open scoped BigOperators
open Idealize.ShloMosaic Idealize.ShloMosaic.ValueIdx
open Cert.KernelIdeal Cert.KernelIdeal.Gen

/-- The scores of one query row against one key row: the contraction over the feature axis. -/
def sc (xq : Vec Ideal S1x512x1024 .f32) (xk : Vec Ideal S1x256x1024 .f32) (r : Fin 512) (j : Fin 256) : EReal :=
  ∑ k : Fin 1024, xq (ix3 (0 : Fin 1) r k) * xk (ix3 (0 : Fin 1) j k)

/-! ## The two batched contractions' operand indices, axis by axis -/

theorem qk_lhs0 (i : S1x512x256.Idx) (q : dot_S1x512x1024_S1x256x1024_S1x512x256_2_2_1_1_0_0.contr.Idx) :
    (dot_S1x512x1024_S1x256x1024_S1x512x256_2_2_1_1_0_0.lhsIdx i q 0).val = (i 0).val := by
  unfold DotDims.lhsIdx
  rw [dif_pos (show (0 : Fin S1x512x1024.rank) ∈ dot_S1x512x1024_S1x256x1024_S1x512x256_2_2_1_1_0_0.lhsBatch by decide)]
  rfl
theorem qk_lhs1 (i : S1x512x256.Idx) (q : dot_S1x512x1024_S1x256x1024_S1x512x256_2_2_1_1_0_0.contr.Idx) :
    (dot_S1x512x1024_S1x256x1024_S1x512x256_2_2_1_1_0_0.lhsIdx i q 1).val = (i 1).val := by
  unfold DotDims.lhsIdx
  rw [dif_neg (show ¬(1 : Fin S1x512x1024.rank) ∈ dot_S1x512x1024_S1x256x1024_S1x512x256_2_2_1_1_0_0.lhsBatch by decide),
    dif_pos (show (1 : Fin S1x512x1024.rank) ∈ dot_S1x512x1024_S1x256x1024_S1x512x256_2_2_1_1_0_0.lhsNonContracting by decide)]
  rfl
theorem qk_lhs2 (i : S1x512x256.Idx) (q : dot_S1x512x1024_S1x256x1024_S1x512x256_2_2_1_1_0_0.contr.Idx) :
    (dot_S1x512x1024_S1x256x1024_S1x512x256_2_2_1_1_0_0.lhsIdx i q 2).val = (q ⟨0, by decide⟩).val :=
  dot_S1x512x1024_S1x256x1024_S1x512x256_2_2_1_1_0_0.lhsIdx_val_of_single rfl i q
theorem qk_rhs0 (i : S1x512x256.Idx) (q : dot_S1x512x1024_S1x256x1024_S1x512x256_2_2_1_1_0_0.contr.Idx) :
    (dot_S1x512x1024_S1x256x1024_S1x512x256_2_2_1_1_0_0.rhsIdx i q 0).val = (i 0).val := by
  unfold DotDims.rhsIdx
  rw [dif_pos (show (0 : Fin S1x256x1024.rank) ∈ dot_S1x512x1024_S1x256x1024_S1x512x256_2_2_1_1_0_0.rhsBatch by decide)]
  rfl
theorem qk_rhs1 (i : S1x512x256.Idx) (q : dot_S1x512x1024_S1x256x1024_S1x512x256_2_2_1_1_0_0.contr.Idx) :
    (dot_S1x512x1024_S1x256x1024_S1x512x256_2_2_1_1_0_0.rhsIdx i q 1).val = (i 2).val := by
  unfold DotDims.rhsIdx
  rw [dif_neg (show ¬(1 : Fin S1x256x1024.rank) ∈ dot_S1x512x1024_S1x256x1024_S1x512x256_2_2_1_1_0_0.rhsBatch by decide),
    dif_pos (show (1 : Fin S1x256x1024.rank) ∈ dot_S1x512x1024_S1x256x1024_S1x512x256_2_2_1_1_0_0.rhsNonContracting by decide)]
  rfl
theorem qk_rhs2 (i : S1x512x256.Idx) (q : dot_S1x512x1024_S1x256x1024_S1x512x256_2_2_1_1_0_0.contr.Idx) :
    (dot_S1x512x1024_S1x256x1024_S1x512x256_2_2_1_1_0_0.rhsIdx i q 2).val = (q ⟨0, by decide⟩).val :=
  dot_S1x512x1024_S1x256x1024_S1x512x256_2_2_1_1_0_0.rhsIdx_val_of_single rfl i q

/-- The batched product q·kᵀ into the zero splat, at (row, key): the contraction over the feature axis. -/
theorem qk_apply (xq : Vec Ideal S1x512x1024 .f32) (xk : Vec Ideal S1x256x1024 .f32) (r : Fin 512) (j : Fin 256) :
    k2_pay8 xq xk (ix3 (0 : Fin 1) r j) = sc xq xk r j := by
  unfold k2_pay8
  simp only [shapeCast_self, matmul]
  rw [Ideal.matmul_constant_zero_apply,
    ← Equiv.sum_comp (contrEquiv1 dot_S1x512x1024_S1x256x1024_S1x512x256_2_2_1_1_0_0 1024 rfl rfl).symm]
  unfold sc
  refine Finset.sum_congr rfl fun k _ => ?_
  have hk := contrEquiv1_symm_val dot_S1x512x1024_S1x256x1024_S1x512x256_2_2_1_1_0_0 1024 rfl rfl k
  have el : dot_S1x512x1024_S1x256x1024_S1x512x256_2_2_1_1_0_0.lhsIdx (ix3 (0 : Fin 1) r j)
      ((contrEquiv1 dot_S1x512x1024_S1x256x1024_S1x512x256_2_2_1_1_0_0 1024 rfl rfl).symm k) = ix3 (0 : Fin 1) r k :=
    funext fun a => Fin.ext (by
      match a with
      | ⟨0, _⟩ => exact qk_lhs0 _ _
      | ⟨1, _⟩ => exact qk_lhs1 _ _
      | ⟨2, _⟩ => exact (qk_lhs2 _ _).trans hk)
  have er : dot_S1x512x1024_S1x256x1024_S1x512x256_2_2_1_1_0_0.rhsIdx (ix3 (0 : Fin 1) r j)
      ((contrEquiv1 dot_S1x512x1024_S1x256x1024_S1x512x256_2_2_1_1_0_0 1024 rfl rfl).symm k) = ix3 (0 : Fin 1) j k :=
    funext fun a => Fin.ext (by
      match a with
      | ⟨0, _⟩ => exact qk_rhs0 _ _
      | ⟨1, _⟩ => exact qk_rhs1 _ _
      | ⟨2, _⟩ => exact (qk_rhs2 _ _).trans hk)
  rw [el, er]

/-! ## Literals -/

theorem negInf_word : Ideal.ofBits .f32 0xFF800000#32 = (⊥ : EReal) := by simp [Ideal.ofBits, Ideal.ieee]
theorem one_word : Ideal.ofBits .f32 0x3F800000#32 = (1 : EReal) := by
  simp [Ideal.ofBits, Ideal.ieee, -EReal.coe_mul] <;> norm_num

/-! ## The layout operations at an index -/

/-- The row vector [1,512] cast to the column [1,512,1]. -/
theorem col_apply (v : S1x512.Idx → EReal) (r : Fin 512) :
    shapeCast S1x512x1 v shapeCasts_S1x512_S1x512x1 (ix3 (0 : Fin 1) r (0 : Fin 1)) = v (ix2 (0 : Fin 1) r) :=
  shapeCast_apply v _ _ _ (by
    rw [Shape.rowMajor_val_three, Shape.rowMajor_val_two]
    show 0 * 512 + r.val = (0 * 512 + r.val) * 1 + 0
    omega)

/-- The column [1,512,1] broadcast along the key axis. -/
theorem bcastK_apply (v : S1x512x1.Idx → EReal) (r : Fin 512) (j : Fin 256) :
    broadcastTo S1x512x256 v broadcasts_S1x512x1_S1x512x256 (ix3 (0 : Fin 1) r j) = v (ix3 (0 : Fin 1) r (0 : Fin 1)) := by
  refine broadcastTo_apply v _ _ _ fun ax => ?_
  match ax with
  | ⟨0, _⟩ => rfl
  | ⟨1, _⟩ => rfl
  | ⟨2, _⟩ => rfl

/-- The column [1,512,1] broadcast along the feature axis. -/
theorem bcastD_apply (v : S1x512x1.Idx → EReal) (r : Fin 512) (d : Fin 1024) :
    broadcastTo S1x512x1024 v broadcasts_S1x512x1_S1x512x1024 (ix3 (0 : Fin 1) r d) = v (ix3 (0 : Fin 1) r (0 : Fin 1)) := by
  refine broadcastTo_apply v _ _ _ fun ax => ?_
  match ax with
  | ⟨0, _⟩ => rfl
  | ⟨1, _⟩ => rfl
  | ⟨2, _⟩ => rfl

/-- The index over row `r` with key coordinate `j` inserted on the reduced axis. -/
theorem lift_row (r : Fin 512) (j : Fin 256) :
    reduces_S1x512x256_S1x512.lift (ix2 (0 : Fin 1) r) j = ix3 (0 : Fin 1) r j :=
  funext fun a => Fin.ext (by match a with | ⟨0, _⟩ => rfl | ⟨1, _⟩ => rfl | ⟨2, _⟩ => rfl)

/-- The maximum over the key axis, from −∞. -/
theorem rowmax_apply (src : FVec Ideal S1x512x256 .f32) (hφ : FKind.Formats .f32)
    (hacc : (0xFF800000#32 : BitVec 32) = 0xFF800000#32) (r : Fin 512) :
    multiReduction .maximumf [2] S1x512 src 0xFF800000#32 reduces_S1x512x256_S1x512 hφ hacc (ix2 (0 : Fin 1) r)
      = (Finset.univ : Finset (Fin 256)).fold max ⊥ (fun j => src (ix3 (0 : Fin 1) r j)) := by
  refine (Ideal.multiReduction_maximumf_single src 0xFF800000#32 reduces_S1x512x256_S1x512 hφ hacc (ix2 (0 : Fin 1) r)).trans ?_
  show (Finset.univ : Finset (Fin 256)).fold max (Ideal.ofBits .f32 0xFF800000#32)
    (fun j => src (reduces_S1x512x256_S1x512.lift (ix2 (0 : Fin 1) r) j)) = _
  rw [negInf_word]
  exact congrArg (fun f => Finset.fold max (⊥ : EReal) f (Finset.univ : Finset (Fin 256)))
    (funext fun j => congrArg src (lift_row r j))

/-- The sum over the key axis. -/
theorem rowsum_apply (src : FVec Ideal S1x512x256 .f32) (hφ : FKind.Formats .f32)
    (hacc : (0x00000000#32 : BitVec 32) = 0x00000000#32) (r : Fin 512) :
    multiReduction .add [2] S1x512 src 0x00000000#32 reduces_S1x512x256_S1x512 hφ hacc (ix2 (0 : Fin 1) r)
      = ∑ j : Fin 256, src (ix3 (0 : Fin 1) r j) := by
  refine (Ideal.multiReduction_add_single src 0x00000000#32 reduces_S1x512x256_S1x512 hφ hacc (ix2 (0 : Fin 1) r)).trans ?_
  show ∑ j : Fin 256, src (reduces_S1x512x256_S1x512.lift (ix2 (0 : Fin 1) r) j) = _
  exact Finset.sum_congr rfl fun j _ => congrArg src (lift_row r j)

/-! ## The running maximum -/

theorem pay9_apply (xq : Vec Ideal S1x512x1024 .f32) (xk : Vec Ideal S1x256x1024 .f32) (xm : Vec Ideal S1x512x1 .f32) (r : Fin 512) :
    k2_pay9 xq xk xm (ix3 (0 : Fin 1) r (0 : Fin 1))
      = max (xm (ix3 (0 : Fin 1) r (0 : Fin 1))) ((Finset.univ : Finset (Fin 256)).fold max ⊥ (fun j => sc xq xk r j)) := by
  unfold k2_pay9
  dsimp only
  rw [maximumf_apply]
  refine congrArg (max _) ?_
  refine (col_apply _ r).trans ?_
  refine (rowmax_apply _ _ _ r).trans ?_
  simp only [qk_apply]

theorem stepM_apply (xq : Vec Ideal S1x512x1024 .f32) (xk : Vec Ideal S1x256x1024 .f32) (xm : Vec Ideal S1x512x1 .f32) (r : Fin 512) :
    stepM xq xk xm (ix3 (0 : Fin 1) r (0 : Fin 1))
      = max (xm (ix3 (0 : Fin 1) r (0 : Fin 1))) ((Finset.univ : Finset (Fin 256)).fold max ⊥ (fun j => sc xq xk r j)) := by
  unfold stepM k2_pay2
  simp only [shapeCast_self]
  exact pay9_apply xq xk xm r

/-- The stored running maximum is the body's maximum. -/
theorem stepM_eq (xq : Vec Ideal S1x512x1024 .f32) (xk : Vec Ideal S1x256x1024 .f32) (xm : Vec Ideal S1x512x1 .f32) :
    stepM xq xk xm = k2_pay9 xq xk xm := by
  unfold stepM k2_pay2
  simp only [shapeCast_self]

/-! ## The rescaling factor and the exponentials of the shifted scores -/

theorem pay10_apply (xq : Vec Ideal S1x512x1024 .f32) (xk : Vec Ideal S1x256x1024 .f32) (xm xm' : Vec Ideal S1x512x1 .f32) (r : Fin 512) :
    k2_pay10 xq xk xm xm' (ix3 (0 : Fin 1) r (0 : Fin 1))
      = Ideal.exp (xm' (ix3 (0 : Fin 1) r (0 : Fin 1)) - stepM xq xk xm (ix3 (0 : Fin 1) r (0 : Fin 1))) := by
  unfold k2_pay10
  rw [stepM_eq]
  rfl

theorem pay11_apply (xq : Vec Ideal S1x512x1024 .f32) (xk : Vec Ideal S1x256x1024 .f32) (xm : Vec Ideal S1x512x1 .f32) (r : Fin 512) (j : Fin 256) :
    k2_pay11 xq xk xm (ix3 (0 : Fin 1) r j)
      = Ideal.exp (sc xq xk r j - stepM xq xk xm (ix3 (0 : Fin 1) r (0 : Fin 1))) := by
  unfold k2_pay11
  rw [stepM_eq]
  show Ideal.exp (k2_pay8 xq xk (ix3 (0 : Fin 1) r j)
    - broadcastTo S1x512x256 (k2_pay9 xq xk xm) broadcasts_S1x512x1_S1x512x256 (ix3 (0 : Fin 1) r j)) = _
  rw [qk_apply, bcastK_apply]

/-! ## The running denominator -/

theorem stepL_apply (xq : Vec Ideal S1x512x1024 .f32) (xk : Vec Ideal S1x256x1024 .f32) (xm xl : Vec Ideal S1x512x1 .f32) (r : Fin 512) :
    stepL xq xk xm xl (ix3 (0 : Fin 1) r (0 : Fin 1))
      = Ideal.exp (xm (ix3 (0 : Fin 1) r (0 : Fin 1)) - stepM xq xk xm (ix3 (0 : Fin 1) r (0 : Fin 1))) * xl (ix3 (0 : Fin 1) r (0 : Fin 1))
        + ∑ j : Fin 256, Ideal.exp (sc xq xk r j - stepM xq xk xm (ix3 (0 : Fin 1) r (0 : Fin 1))) := by
  unfold stepL k2_pay12
  simp only [shapeCast_self]
  rw [addf_apply, mulf_apply]
  refine congrArg₂ (· + ·) (congrArg (· * _) (pay10_apply xq xk xm xm r)) ?_
  refine (col_apply _ r).trans ?_
  refine (rowsum_apply _ _ _ r).trans ?_
  exact Finset.sum_congr rfl fun j _ => pay11_apply xq xk xm r j

/-! ## The accumulator -/

theorem pv_lhs0 (i : S1x512x1024.Idx) (q : dot_S1x512x256_S1x256x1024_S1x512x1024_2_1_1_2_0_0.contr.Idx) :
    (dot_S1x512x256_S1x256x1024_S1x512x1024_2_1_1_2_0_0.lhsIdx i q 0).val = (i 0).val := by
  unfold DotDims.lhsIdx
  rw [dif_pos (show (0 : Fin S1x512x256.rank) ∈ dot_S1x512x256_S1x256x1024_S1x512x1024_2_1_1_2_0_0.lhsBatch by decide)]
  rfl
theorem pv_lhs1 (i : S1x512x1024.Idx) (q : dot_S1x512x256_S1x256x1024_S1x512x1024_2_1_1_2_0_0.contr.Idx) :
    (dot_S1x512x256_S1x256x1024_S1x512x1024_2_1_1_2_0_0.lhsIdx i q 1).val = (i 1).val := by
  unfold DotDims.lhsIdx
  rw [dif_neg (show ¬(1 : Fin S1x512x256.rank) ∈ dot_S1x512x256_S1x256x1024_S1x512x1024_2_1_1_2_0_0.lhsBatch by decide),
    dif_pos (show (1 : Fin S1x512x256.rank) ∈ dot_S1x512x256_S1x256x1024_S1x512x1024_2_1_1_2_0_0.lhsNonContracting by decide)]
  rfl
theorem pv_lhs2 (i : S1x512x1024.Idx) (q : dot_S1x512x256_S1x256x1024_S1x512x1024_2_1_1_2_0_0.contr.Idx) :
    (dot_S1x512x256_S1x256x1024_S1x512x1024_2_1_1_2_0_0.lhsIdx i q 2).val = (q ⟨0, by decide⟩).val :=
  dot_S1x512x256_S1x256x1024_S1x512x1024_2_1_1_2_0_0.lhsIdx_val_of_single rfl i q
theorem pv_rhs0 (i : S1x512x1024.Idx) (q : dot_S1x512x256_S1x256x1024_S1x512x1024_2_1_1_2_0_0.contr.Idx) :
    (dot_S1x512x256_S1x256x1024_S1x512x1024_2_1_1_2_0_0.rhsIdx i q 0).val = (i 0).val := by
  unfold DotDims.rhsIdx
  rw [dif_pos (show (0 : Fin S1x256x1024.rank) ∈ dot_S1x512x256_S1x256x1024_S1x512x1024_2_1_1_2_0_0.rhsBatch by decide)]
  rfl
theorem pv_rhs1 (i : S1x512x1024.Idx) (q : dot_S1x512x256_S1x256x1024_S1x512x1024_2_1_1_2_0_0.contr.Idx) :
    (dot_S1x512x256_S1x256x1024_S1x512x1024_2_1_1_2_0_0.rhsIdx i q 1).val = (q ⟨0, by decide⟩).val :=
  dot_S1x512x256_S1x256x1024_S1x512x1024_2_1_1_2_0_0.rhsIdx_val_of_single rfl i q
theorem pv_rhs2 (i : S1x512x1024.Idx) (q : dot_S1x512x256_S1x256x1024_S1x512x1024_2_1_1_2_0_0.contr.Idx) :
    (dot_S1x512x256_S1x256x1024_S1x512x1024_2_1_1_2_0_0.rhsIdx i q 2).val = (i 2).val := by
  unfold DotDims.rhsIdx
  rw [dif_neg (show ¬(2 : Fin S1x256x1024.rank) ∈ dot_S1x512x256_S1x256x1024_S1x512x1024_2_1_1_2_0_0.rhsBatch by decide),
    dif_pos (show (2 : Fin S1x256x1024.rank) ∈ dot_S1x512x256_S1x256x1024_S1x512x1024_2_1_1_2_0_0.rhsNonContracting by decide)]
  rfl

/-- The batched product p·v into the zero splat, at (row, feature): the contraction over the key axis. -/
theorem pv_apply (p : FVec Ideal S1x512x256 .bf16) (v : FVec Ideal S1x256x1024 .bf16) (r : Fin 512) (d : Fin 1024) :
    matmul dot_S1x512x256_S1x256x1024_S1x512x1024_2_1_1_2_0_0 none p v (constant S1x512x1024 .f32 0x00000000#32) (ix3 (0 : Fin 1) r d)
      = ∑ j : Fin 256, p (ix3 (0 : Fin 1) r j) * v (ix3 (0 : Fin 1) j d) := by
  simp only [matmul]
  rw [Ideal.matmul_constant_zero_apply,
    ← Equiv.sum_comp (contrEquiv1 dot_S1x512x256_S1x256x1024_S1x512x1024_2_1_1_2_0_0 256 rfl rfl).symm]
  refine Finset.sum_congr rfl fun k _ => ?_
  have hk := contrEquiv1_symm_val dot_S1x512x256_S1x256x1024_S1x512x1024_2_1_1_2_0_0 256 rfl rfl k
  have el : dot_S1x512x256_S1x256x1024_S1x512x1024_2_1_1_2_0_0.lhsIdx (ix3 (0 : Fin 1) r d)
      ((contrEquiv1 dot_S1x512x256_S1x256x1024_S1x512x1024_2_1_1_2_0_0 256 rfl rfl).symm k) = ix3 (0 : Fin 1) r k :=
    funext fun a => Fin.ext (by
      match a with
      | ⟨0, _⟩ => exact pv_lhs0 _ _
      | ⟨1, _⟩ => exact pv_lhs1 _ _
      | ⟨2, _⟩ => exact (pv_lhs2 _ _).trans hk)
  have er : dot_S1x512x256_S1x256x1024_S1x512x1024_2_1_1_2_0_0.rhsIdx (ix3 (0 : Fin 1) r d)
      ((contrEquiv1 dot_S1x512x256_S1x256x1024_S1x512x1024_2_1_1_2_0_0 256 rfl rfl).symm k) = ix3 (0 : Fin 1) k d :=
    funext fun a => Fin.ext (by
      match a with
      | ⟨0, _⟩ => exact pv_rhs0 _ _
      | ⟨1, _⟩ => exact (pv_rhs1 _ _).trans hk
      | ⟨2, _⟩ => exact pv_rhs2 _ _)
  rw [el, er]

theorem stepA_apply (xq : Vec Ideal S1x512x1024 .f32) (xk : Vec Ideal S1x256x1024 .f32) (xv : FVec Ideal S1x256x1024 .bf16)
    (xm : Vec Ideal S1x512x1 .f32) (xa : Vec Ideal S1x512x1024 .f32) (r : Fin 512) (d : Fin 1024) :
    stepA xq xk xv xm xa (ix3 (0 : Fin 1) r d)
      = Ideal.exp (xm (ix3 (0 : Fin 1) r (0 : Fin 1)) - stepM xq xk xm (ix3 (0 : Fin 1) r (0 : Fin 1))) * xa (ix3 (0 : Fin 1) r d)
        + ∑ j : Fin 256, Ideal.exp (sc xq xk r j - stepM xq xk xm (ix3 (0 : Fin 1) r (0 : Fin 1))) * xv (ix3 (0 : Fin 1) j d) := by
  unfold stepA k2_pay1 k2_pay7
  simp only [shapeCast_self]
  rw [addf_apply, mulf_apply]
  refine congrArg₂ (· + ·) (congrArg (· * _) ((bcastD_apply _ r d).trans (pay10_apply xq xk xm xm r))) ?_
  refine (pv_apply _ _ r d).trans ?_
  refine Finset.sum_congr rfl fun j _ => congrArg (· * _) ?_
  rw [truncf_apply]
  exact pay11_apply xq xk xm r j

/-! ## The output of a last block, and the reset values -/

theorem finish_apply (xl : Vec Ideal S1x512x1 .f32) (xa : Vec Ideal S1x512x1024 .f32) (r : Fin 512) (d : Fin 1024) :
    finish xl xa (ix3 (0 : Fin 1) r d)
      = (xa (ix3 (0 : Fin 1) r d) * Ideal.div 1 (xl (ix3 (0 : Fin 1) r (0 : Fin 1)))) * Ideal.ofBits .f32 0x3D000000#32 := by
  unfold finish k2_pay3
  rw [mulf_apply, mulf_apply, bcastD_apply, divf_apply]
  show (xa (ix3 (0 : Fin 1) r d) * Ideal.div (Ideal.ofBits .f32 0x3F800000#32) (xl (ix3 (0 : Fin 1) r (0 : Fin 1))))
    * Ideal.ofBits .f32 0x3D000000#32 = _
  rw [one_word]

theorem reset_m (r : Fin 512) : (k2_pay4 (F := Ideal)) (ix3 (0 : Fin 1) r (0 : Fin 1)) = ⊥ := by
  unfold k2_pay4
  simp only [shapeCast_self]
  exact negInf_word

theorem reset_l (r : Fin 512) : (k2_pay5 (F := Ideal)) (ix3 (0 : Fin 1) r (0 : Fin 1)) = 0 := by
  unfold k2_pay5
  simp only [shapeCast_self]
  exact Ideal.ofBits_zero_f32

theorem reset_a (r : Fin 512) (d : Fin 1024) : (k2_pay6 (F := Ideal)) (ix3 (0 : Fin 1) r d) = 0 := by
  unfold k2_pay6
  simp only [shapeCast_self]
  exact Ideal.ofBits_zero_f32

end Cert.KernelIdeal.Flash

end
-- ==== Proof.Flash.Blocks.lean ====
/-
  The attention call: where its window blocks sit in their arrays, and what its output array holds after the
  run, block by block.

  Grid point `t` of the 4×4×8 grid has coordinates (t / 32, t / 8 % 4, t % 8): the batch, the query tile and the
  key/value block. The query window's block at `t` is rows 512·(t / 8 % 4) … of batch t / 32, lanes 0 … 1023 of
  the query/key array; the key window's block is rows 256·(t % 8) … of the same batch, lanes 1024 … 2047; the
  value window's block the same rows of the value array. The output window writes its block back exactly at the
  last key/value block of each (batch, query tile) pair, those sixteen blocks are disjoint, and so each row tile
  of the output array ends holding what that point's output buffer held.
-/
import proofs.«133897_j52853867545194_2_alg».proof.Proof.Flash.Body
import Idealize.ShloMosaic.Lib.Pipeline.Value
import Idealize.ShloMosaic.Lib.ValueIdx

set_option maxRecDepth 16384

noncomputable section

namespace Cert.KernelIdeal.Flash

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen

variable {F : FTy → Type} [FloatOps F]
variable (V : (c : Dev nD) → (b : Ref sig .tc) → Buf (Elt F) ((c : Thread nD τ).loc b))

/-! ## The index maps over the grid -/

/-- The query window's block index at point `t`: (batch, query tile, 0). -/
theorem idxQ : ∀ t : Fin cfg2.N, win2_0.index t (0 : Fin 3) = t.val / 32 ∧ win2_0.index t (1 : Fin 3) = t.val / 8 % 4 ∧ win2_0.index t (2 : Fin 3) = 0 :=
  (by decide +kernel : ∀ t : Fin grid2.N, win2_0.index t (0 : Fin 3) = t.val / 32 ∧ win2_0.index t (1 : Fin 3) = t.val / 8 % 4 ∧ win2_0.index t (2 : Fin 3) = 0)
/-- The key window's: (batch, key/value block, 1). -/
theorem idxK : ∀ t : Fin cfg2.N, win2_1.index t (0 : Fin 3) = t.val / 32 ∧ win2_1.index t (1 : Fin 3) = t.val % 8 ∧ win2_1.index t (2 : Fin 3) = 1 :=
  (by decide +kernel : ∀ t : Fin grid2.N, win2_1.index t (0 : Fin 3) = t.val / 32 ∧ win2_1.index t (1 : Fin 3) = t.val % 8 ∧ win2_1.index t (2 : Fin 3) = 1)
/-- The value window's: (batch, key/value block, 0). -/
theorem idxV : ∀ t : Fin cfg2.N, win2_2.index t (0 : Fin 3) = t.val / 32 ∧ win2_2.index t (1 : Fin 3) = t.val % 8 ∧ win2_2.index t (2 : Fin 3) = 0 :=
  (by decide +kernel : ∀ t : Fin grid2.N, win2_2.index t (0 : Fin 3) = t.val / 32 ∧ win2_2.index t (1 : Fin 3) = t.val % 8 ∧ win2_2.index t (2 : Fin 3) = 0)
/-- The output window's: (batch, query tile, 0). -/
theorem idxO : ∀ t : Fin cfg2.N, win2_3.index t (0 : Fin 3) = t.val / 32 ∧ win2_3.index t (1 : Fin 3) = t.val / 8 % 4 ∧ win2_3.index t (2 : Fin 3) = 0 :=
  (by decide +kernel : ∀ t : Fin grid2.N, win2_3.index t (0 : Fin 3) = t.val / 32 ∧ win2_3.index t (1 : Fin 3) = t.val / 8 % 4 ∧ win2_3.index t (2 : Fin 3) = 0)

/-! ## The input blocks in their arrays -/

/-- An element of the query block at `t` is the query/key array's at batch t / 32, row 512·(t / 8 % 4) + r, lane k. -/
theorem blkQ_apply (c : Dev nD) (t : Fin cfg2.N) (r : Fin 512) (k : Fin 1024) :
    (blk V c 0 t : S1x512x1024.Idx → Elt F .f32) (ix3 (0 : Fin 1) r k)
      = (V c main_v7 : S4x2048x2048.Idx → Elt F .f32) (ix3 (⟨t.val / 32, by have hN : t.val < 128 := lt_of_lt_of_eq t.isLt N_2; omega⟩ : Fin 4)
          (⟨512 * (t.val / 8 % 4) + r.val, by have := r.isLt; omega⟩ : Fin 2048) (⟨k.val, by have := k.isLt; omega⟩ : Fin 2048)) := by
  have hN : t.val < 128 := lt_of_lt_of_eq t.isLt N_2
  obtain ⟨e0, e1, e2⟩ := idxQ t
  unfold blk
  show V c main_v7 (((cfg2.win 0).blk t).view.emb (ix3 (0 : Fin 1) r k)) = V c main_v7 _
  refine congrArg _ (funext fun a => Fin.ext ?_)
  match a with
  | ⟨0, _⟩ => show win2_0.index t (0 : Fin 3) * 1 + 1 * (0 : Nat) = t.val / 32; omega
  | ⟨1, _⟩ => show win2_0.index t (1 : Fin 3) * 512 + 1 * r.val = 512 * (t.val / 8 % 4) + r.val; omega
  | ⟨2, _⟩ => show win2_0.index t (2 : Fin 3) * 1024 + 1 * k.val = k.val; omega

/-- An element of the key block at `t` is the query/key array's at batch t / 32, row 256·(t % 8) + j, lane 1024 + k. -/
theorem blkK_apply (c : Dev nD) (t : Fin cfg2.N) (j : Fin 256) (k : Fin 1024) :
    (blk V c 1 t : S1x256x1024.Idx → Elt F .f32) (ix3 (0 : Fin 1) j k)
      = (V c main_v7 : S4x2048x2048.Idx → Elt F .f32) (ix3 (⟨t.val / 32, by have hN : t.val < 128 := lt_of_lt_of_eq t.isLt N_2; omega⟩ : Fin 4)
          (⟨256 * (t.val % 8) + j.val, by have := j.isLt; omega⟩ : Fin 2048) (⟨1024 + k.val, by have := k.isLt; omega⟩ : Fin 2048)) := by
  have hN : t.val < 128 := lt_of_lt_of_eq t.isLt N_2
  obtain ⟨e0, e1, e2⟩ := idxK t
  unfold blk
  show V c main_v7 (((cfg2.win 1).blk t).view.emb (ix3 (0 : Fin 1) j k)) = V c main_v7 _
  refine congrArg _ (funext fun a => Fin.ext ?_)
  match a with
  | ⟨0, _⟩ => show win2_1.index t (0 : Fin 3) * 1 + 1 * (0 : Nat) = t.val / 32; omega
  | ⟨1, _⟩ => show win2_1.index t (1 : Fin 3) * 256 + 1 * j.val = 256 * (t.val % 8) + j.val; omega
  | ⟨2, _⟩ => show win2_1.index t (2 : Fin 3) * 1024 + 1 * k.val = 1024 + k.val; omega

/-- An element of the value block at `t` is the value array's at batch t / 32, row 256·(t % 8) + j, lane d. -/
theorem blkV_apply (c : Dev nD) (t : Fin cfg2.N) (j : Fin 256) (d : Fin 1024) :
    (blk V c 2 t : S1x256x1024.Idx → Elt F .bf16) (ix3 (0 : Fin 1) j d)
      = (V c main_v8 : S4x2048x1024.Idx → Elt F .bf16) (ix3 (⟨t.val / 32, by have hN : t.val < 128 := lt_of_lt_of_eq t.isLt N_2; omega⟩ : Fin 4)
          (⟨256 * (t.val % 8) + j.val, by have := j.isLt; omega⟩ : Fin 2048) d) := by
  have hN : t.val < 128 := lt_of_lt_of_eq t.isLt N_2
  obtain ⟨e0, e1, e2⟩ := idxV t
  unfold blk
  show V c main_v8 (((cfg2.win 2).blk t).view.emb (ix3 (0 : Fin 1) j d)) = V c main_v8 _
  refine congrArg _ (funext fun a => Fin.ext ?_)
  match a with
  | ⟨0, _⟩ => show win2_2.index t (0 : Fin 3) * 1 + 1 * (0 : Nat) = t.val / 32; omega
  | ⟨1, _⟩ => show win2_2.index t (1 : Fin 3) * 256 + 1 * j.val = 256 * (t.val % 8) + j.val; omega
  | ⟨2, _⟩ => show win2_2.index t (2 : Fin 3) * 1024 + 1 * d.val = d.val; omega

/-! ## The output array after the run -/

/-- Two points that both write the output back and have the same block index are the same point. -/
theorem idxO_inj : ∀ t t' : Fin cfg2.N, (cfg2.win 3).flush t = true → (cfg2.win 3).flush t' = true → win2_3.index t = win2_3.index t' → t = t' :=
  (by decide +kernel : ∀ t t' : Fin grid2.N, win2_3.flush t = true → win2_3.flush t' = true → win2_3.index t = win2_3.index t' → t = t')

/-- So the blocks written back are pairwise disjoint. -/
theorem disjointO : ∀ t t' : Fin cfg2.N, (cfg2.win 3).flush t = true → (cfg2.win 3).flush t' = true → t ≠ t' →
    Disjoint ((cfg2.win 3).blk t).view.set ((cfg2.win 3).blk t').view.set :=
  fun t t' hf hf' hne => (cfg2.win 3).disjoint_blk fun h => hne (idxO_inj t t' hf hf' h)

/-- An element of the output array under a written-back block is what the output buffer held after that point. -/
theorem final_emb (c : Dev nD) (t : Fin cfg2.N) (hf : (cfg2.win 3).flush t = true) (y : S1x512x1024.Idx) :
    ((dat V c).arrAt 3 cfg2.N : S4x2048x1024.Idx → Elt F .f32) (((cfg2.win 3).blk t).view.emb y) = (outAt V c t : S1x512x1024.Idx → Elt F .f32) y := by
  refine ((dat V c).arrAt_emb_eq_flushed 3 disjointO t hf y).trans ?_
  show (cfg2.win 3).cut (grid2.coords t) ((dat V c).after 3 t) y = _
  rw [after3]
  rfl

/-- Row tile `qi` of batch `b` of the output array ends holding what the output buffer held after the last key/value
    block of that pair, point 32·b + 8·qi + 7. -/
theorem final_apply (c : Dev nD) (b : Fin 4) (qi : Fin 4) (r : Fin 512) (d : Fin 1024) :
    ((dat V c).arrAt 3 cfg2.N : S4x2048x1024.Idx → Elt F .f32) (ix3 b (⟨512 * qi.val + r.val, by have := qi.isLt; have := r.isLt; omega⟩ : Fin 2048) d)
      = (outAt V c (⟨32 * b.val + 8 * qi.val + 7, lt_of_lt_of_eq (by have := b.isLt; have := qi.isLt; omega : 32 * b.val + 8 * qi.val + 7 < 128) N_2.symm⟩ : Fin cfg2.N)
          : S1x512x1024.Idx → Elt F .f32) (ix3 (0 : Fin 1) r d) := by
  have hb := b.isLt
  have hq := qi.isLt
  have hr := r.isLt
  have hlt : 32 * b.val + 8 * qi.val + 7 < cfg2.N := lt_of_lt_of_eq (by omega : 32 * b.val + 8 * qi.val + 7 < 128) N_2.symm
  have hf : (cfg2.win 3).flush ⟨32 * b.val + 8 * qi.val + 7, hlt⟩ = true :=
    (flush2_3 ⟨32 * b.val + 8 * qi.val + 7, hlt⟩).mpr (by show (32 * b.val + 8 * qi.val + 7) % 8 = 7; omega)
  obtain ⟨e0, e1, e2⟩ := idxO ⟨32 * b.val + 8 * qi.val + 7, hlt⟩
  have e0' : win2_3.index ⟨32 * b.val + 8 * qi.val + 7, hlt⟩ (0 : Fin 3) = (32 * b.val + 8 * qi.val + 7) / 32 := e0
  have e1' : win2_3.index ⟨32 * b.val + 8 * qi.val + 7, hlt⟩ (1 : Fin 3) = (32 * b.val + 8 * qi.val + 7) / 8 % 4 := e1
  have he : ((cfg2.win 3).blk ⟨32 * b.val + 8 * qi.val + 7, hlt⟩).view.emb (ix3 (0 : Fin 1) r d)
      = (ix3 b (⟨512 * qi.val + r.val, by omega⟩ : Fin 2048) d : S4x2048x1024.Idx) := by
    refine funext fun a => Fin.ext ?_
    match a with
    | ⟨0, _⟩ => show win2_3.index ⟨32 * b.val + 8 * qi.val + 7, hlt⟩ (0 : Fin 3) * 1 + 1 * (0 : Nat) = b.val; omega
    | ⟨1, _⟩ => show win2_3.index ⟨32 * b.val + 8 * qi.val + 7, hlt⟩ (1 : Fin 3) * 512 + 1 * r.val = 512 * qi.val + r.val; omega
    | ⟨2, _⟩ => show win2_3.index ⟨32 * b.val + 8 * qi.val + 7, hlt⟩ (2 : Fin 3) * 1024 + 1 * d.val = d.val; omega
  rw [← he]
  exact final_emb V c ⟨32 * b.val + 8 * qi.val + 7, hlt⟩ hf (ix3 (0 : Fin 1) r d)

end Cert.KernelIdeal.Flash

end
-- ==== Proof.LibOnlineSoftmax.lean ====
/-
  The online (blockwise, rescaled) softmax accumulation on the extended reals equals the plain
  softmax-weighted sum.

  A row of n · w real scores t and values v is read as n blocks of w entries. The accumulation keeps a
  running maximum m, a denominator l and an accumulator a, from (−∞, 0, 0); a block with scores S and
  values V moves them to
    m' = max m (max_j S j),   l' = exp (m − m') · l + Σ_j exp (S j − m'),
    a' = exp (m − m') · a + Σ_j exp (S j − m') · V j.
  After k ≥ 1 blocks the state is a real reference point μ with l = Σ exp (t − μ) and
  a = Σ exp (t − μ) · v over the entries of those blocks: the first block starts from exp (−∞) = 0, and a
  later one rescales by exp (μ − μ') · exp (t − μ) = exp (t − μ'). The quotient a / l does not depend on
  the reference point, so after all n blocks it is the softmax-weighted sum Σ_s (exp (t s − M) / Σ exp (t − M)) · v s
  taken at the row's maximum M.
-/
import Idealize.ShloMosaic.PureOps.Ideal

noncomputable section

namespace Cert.OnlineSoftmax

open Idealize.ShloMosaic
open scoped BigOperators

variable {n w : ℕ}

/-- One block: from the running maximum m, denominator l and accumulator a to the next. -/
def step (S Vv : Fin w → EReal) (st : EReal × EReal × EReal) : EReal × EReal × EReal :=
  (max st.1 ((Finset.univ : Finset (Fin w)).fold max ⊥ S),
   Ideal.exp (st.1 - max st.1 ((Finset.univ : Finset (Fin w)).fold max ⊥ S)) * st.2.1 + ∑ j : Fin w, Ideal.exp (S j - max st.1 ((Finset.univ : Finset (Fin w)).fold max ⊥ S)),
   Ideal.exp (st.1 - max st.1 ((Finset.univ : Finset (Fin w)).fold max ⊥ S)) * st.2.2 + ∑ j : Fin w, Ideal.exp (S j - max st.1 ((Finset.univ : Finset (Fin w)).fold max ⊥ S)) * Vv j)

/-- The state after the first k blocks, from (⊥, 0, 0). -/
def run (S Vv : Fin n → Fin w → EReal) : (k : ℕ) → k ≤ n → EReal × EReal × EReal
  | 0, _ => (⊥, 0, 0)
  | k + 1, h => step (S ⟨k, h⟩) (Vv ⟨k, h⟩) (run S Vv k (Nat.le_of_succ_le h))

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- A fold of `max` from `⊥` over a nonempty finite family of reals is a real. -/
theorem fold_max_coe {ι : Type*} (s : Finset ι) (hs : s.Nonempty) (f : ι → ℝ) :
    ∃ x : ℝ, s.fold max ⊥ (fun i => (f i : EReal)) = (x : EReal) := by
  obtain ⟨a, ha⟩ := hs
  have h1 : s.fold max ⊥ (fun i => (f i : EReal)) ≠ ⊤ := by
    apply ne_of_lt
    rw [Finset.fold_max_lt]
    exact ⟨bot_lt_top, fun i _ => EReal.coe_lt_top _⟩
  have h2 : s.fold max ⊥ (fun i => (f i : EReal)) ≠ ⊥ := by
    apply ne_of_gt
    apply lt_of_lt_of_le (EReal.bot_lt_coe (f a))
    rw [Finset.le_fold_max]
    exact Or.inr ⟨a, ha, le_rfl⟩
  exact ⟨_, (EReal.coe_toReal h1 h2).symm⟩

/-- The coercion preserves `max`. -/
theorem coe_max (a b : ℝ) : ((max a b : ℝ) : EReal) = max (a : EReal) (b : EReal) :=
  EReal.coe_strictMono.monotone.map_max

/-- The first block, from the initial state. -/
theorem step_init (s u : Fin w → ℝ) (x : ℝ)
    (hx : (Finset.univ : Finset (Fin w)).fold max ⊥ (fun j => (s j : EReal)) = x) :
    step (fun j => (s j : EReal)) (fun j => (u j : EReal)) (⊥, 0, 0)
      = ((x : EReal), ((∑ j, Real.exp (s j - x) : ℝ) : EReal), ((∑ j, Real.exp (s j - x) * u j : ℝ) : EReal)) := by
  unfold step
  simp only [hx, bot_le, max_eq_right, EReal.bot_sub, Ideal.exp_bot, mul_zero, zero_add, ← EReal.coe_sub,
    Ideal.exp_coe, ← EReal.coe_mul, ← coe_sum]

/-- A later block, from a state of reals. -/
theorem step_coe (s u : Fin w → ℝ) (x μ L A : ℝ)
    (hx : (Finset.univ : Finset (Fin w)).fold max ⊥ (fun j => (s j : EReal)) = x) :
    step (fun j => (s j : EReal)) (fun j => (u j : EReal)) ((μ : EReal), (L : EReal), (A : EReal))
      = (((max μ x : ℝ) : EReal),
         ((Real.exp (μ - max μ x) * L + ∑ j, Real.exp (s j - max μ x) : ℝ) : EReal),
         ((Real.exp (μ - max μ x) * A + ∑ j, Real.exp (s j - max μ x) * u j : ℝ) : EReal)) := by
  unfold step
  simp only [hx, ← coe_max, ← EReal.coe_sub, Ideal.exp_coe, ← EReal.coe_mul, ← coe_sum, ← EReal.coe_add]

/-- The indices of the first k blocks. -/
def pre (n k : ℕ) : Finset (Fin n) := Finset.univ.filter fun i => i.val < k

/-- The first k + 1 blocks are block k and the first k blocks. -/
theorem pre_succ {k : ℕ} (h : k + 1 ≤ n) : pre n (k + 1) = insert ⟨k, h⟩ (pre n k) := by
  ext i
  simp only [pre, Finset.mem_filter, Finset.mem_univ, true_and, Finset.mem_insert, Fin.ext_iff]
  omega

/-- Block k is not among the first k blocks. -/
theorem not_mem_pre {k : ℕ} (h : k + 1 ≤ n) : (⟨k, h⟩ : Fin n) ∉ pre n k := by
  simp [pre]

/-- There is no block before the first. -/
theorem pre_zero : pre n 0 = ∅ := by
  simp [pre]

/-- The first n blocks are all of them. -/
theorem pre_self : pre n n = Finset.univ := by
  ext i; simp [pre]

/-- Moving the reference point of a sum of weighted exponentials from μ to μ'. -/
theorem rescale {ι : Type*} (s : Finset ι) (f g : ι → ℝ) (μ μ' : ℝ) :
    Real.exp (μ - μ') * ∑ i ∈ s, Real.exp (f i - μ) * g i = ∑ i ∈ s, Real.exp (f i - μ') * g i := by
  rw [Finset.mul_sum]
  refine Finset.sum_congr rfl fun i _ => ?_
  rw [← mul_assoc, ← Real.exp_add]
  congr 2
  ring

/-- Moving the reference point of a sum of exponentials from μ to μ'. -/
theorem rescale_one {ι : Type*} (s : Finset ι) (f : ι → ℝ) (μ μ' : ℝ) :
    Real.exp (μ - μ') * ∑ i ∈ s, Real.exp (f i - μ) = ∑ i ∈ s, Real.exp (f i - μ') := by
  simpa using rescale s f (fun _ => 1) μ μ'

/-- After k ≥ 1 blocks of reals the state is a real reference point μ together with the sums, over the
    entries of those blocks, of exp (t − μ) and of exp (t − μ) · v. -/
theorem run_coe (t v : Fin n → Fin w → ℝ) (hw : 0 < w) : ∀ (k : ℕ) (h : k ≤ n), 0 < k →
    ∃ μ : ℝ, run (fun i j => (t i j : EReal)) (fun i j => (v i j : EReal)) k h
      = ((μ : EReal),
         ((∑ p ∈ pre n k ×ˢ (Finset.univ : Finset (Fin w)), Real.exp (t p.1 p.2 - μ) : ℝ) : EReal),
         ((∑ p ∈ pre n k ×ˢ (Finset.univ : Finset (Fin w)), Real.exp (t p.1 p.2 - μ) * v p.1 p.2 : ℝ) : EReal)) := by
  intro k
  induction k with
  | zero => intro _ h0; exact absurd h0 (lt_irrefl 0)
  | succ k ih =>
    intro h _
    haveI : Nonempty (Fin w) := ⟨⟨0, hw⟩⟩
    obtain ⟨x, hx⟩ := fold_max_coe (Finset.univ : Finset (Fin w)) Finset.univ_nonempty (t ⟨k, h⟩)
    have ins : ∀ F : Fin n × Fin w → ℝ, ∑ p ∈ pre n (k + 1) ×ˢ (Finset.univ : Finset (Fin w)), F p
        = ∑ j, F (⟨k, h⟩, j) + ∑ p ∈ pre n k ×ˢ (Finset.univ : Finset (Fin w)), F p := by
      intro F
      rw [pre_succ h, Finset.sum_product, Finset.sum_insert (not_mem_pre h), Finset.sum_product]
    rcases Nat.eq_zero_or_pos k with rfl | hk
    · refine ⟨x, ?_⟩
      show step _ _ (⊥, 0, 0) = _
      rw [step_init _ _ x hx, ins, ins, pre_zero]
      simp
    · obtain ⟨μ, hμ⟩ := ih (Nat.le_of_succ_le h) hk
      refine ⟨max μ x, ?_⟩
      show step _ _ (run _ _ k _) = _
      rw [hμ, step_coe _ _ x μ _ _ hx, rescale_one, rescale, ins, ins]
      exact Prod.ext rfl (Prod.ext (congrArg Real.toEReal (add_comm _ _)) (congrArg Real.toEReal (add_comm _ _)))

/-- The online accumulation over all blocks, divided by its denominator and scaled, is the
    softmax-weighted sum: both are the quotient of Σ exp (t − μ) · v by Σ exp (t − μ), which does not
    depend on the real reference point μ. -/
theorem final (hn : 0 < n) (hw : 0 < w) (T Vv : Fin (n * w) → EReal) (hT : ∀ s, ∃ x : ℝ, T s = (x : EReal)) (hV : ∀ s, ∃ x : ℝ, Vv s = (x : EReal)) (c : EReal) (hc : ∃ x : ℝ, c = (x : EReal)) :
    ((run (fun i j => T (finProdFinEquiv (i, j))) (fun i j => Vv (finProdFinEquiv (i, j))) n le_rfl).2.2
        * Ideal.div 1 (run (fun i j => T (finProdFinEquiv (i, j))) (fun i j => Vv (finProdFinEquiv (i, j))) n le_rfl).2.1) * c
      = ∑ s : Fin (n * w), (Ideal.div (Ideal.exp (T s - (Finset.univ : Finset (Fin (n * w))).fold max ⊥ T))
            (∑ s' : Fin (n * w), Ideal.exp (T s' - (Finset.univ : Finset (Fin (n * w))).fold max ⊥ T)) * c) * Vv s := by
  choose τ hτ using hT
  choose ν hν using hV
  obtain ⟨γ, rfl⟩ := hc
  obtain rfl : T = fun s => (τ s : EReal) := funext hτ
  obtain rfl : Vv = fun s => (ν s : EReal) := funext hν
  haveI : Nonempty (Fin (n * w)) := ⟨⟨0, Nat.mul_pos hn hw⟩⟩
  obtain ⟨M, hM⟩ := fold_max_coe (Finset.univ : Finset (Fin (n * w))) Finset.univ_nonempty τ
  obtain ⟨μ, hμ⟩ := run_coe (fun i j => τ (finProdFinEquiv (i, j))) (fun i j => ν (finProdFinEquiv (i, j))) hw n le_rfl hn
  have tot : ∀ F : Fin (n * w) → ℝ,
      ∑ p ∈ pre n n ×ˢ (Finset.univ : Finset (Fin w)), F (finProdFinEquiv (p.1, p.2)) = ∑ s, F s := by
    intro F
    rw [pre_self, Finset.univ_product_univ]
    exact Equiv.sum_comp finProdFinEquiv F
  have LMpos : 0 < ∑ s, Real.exp (τ s - M) :=
    Finset.sum_pos (fun s _ => Real.exp_pos _) Finset.univ_nonempty
  have Lμ : ∑ p ∈ pre n n ×ˢ (Finset.univ : Finset (Fin w)), Real.exp (τ (finProdFinEquiv (p.1, p.2)) - μ)
      = Real.exp (M - μ) * ∑ s, Real.exp (τ s - M) := by
    rw [tot (fun s => Real.exp (τ s - μ)), rescale_one]
  have Aμ : ∑ p ∈ pre n n ×ˢ (Finset.univ : Finset (Fin w)),
        Real.exp (τ (finProdFinEquiv (p.1, p.2)) - μ) * ν (finProdFinEquiv (p.1, p.2))
      = Real.exp (M - μ) * ∑ s, Real.exp (τ s - M) * ν s := by
    rw [tot (fun s => Real.exp (τ s - μ) * ν s), rescale]
  beta_reduce
  rw [hμ]
  dsimp only
  rw [Lμ, Aμ, hM, Ideal.div_coe (mul_pos (Real.exp_pos _) LMpos).ne']
  have rhs : ∀ s, (Ideal.div (Ideal.exp ((τ s : EReal) - (M : EReal))) (∑ s', Ideal.exp ((τ s' : EReal) - (M : EReal))) * (γ : EReal)) * (ν s : EReal)
      = ((Real.exp (τ s - M) * ν s * ((1 / ∑ s', Real.exp (τ s' - M)) * γ) : ℝ) : EReal) := by
    intro s
    simp only [← EReal.coe_sub, Ideal.exp_coe, ← coe_sum]
    rw [Ideal.div_coe LMpos.ne', ← EReal.coe_mul, ← EReal.coe_mul, ← EReal.coe_mul]
    congr 1
    ring
  simp only [rhs]
  rw [← coe_sum, one_mul, ← EReal.coe_mul, ← EReal.coe_mul, ← Finset.sum_mul]
  congr 1
  have e0 : Real.exp (M - μ) ≠ 0 := (Real.exp_pos _).ne'
  field_simp

/-- The f32 word 0x3F800000 denotes the extended real 1. -/
theorem one_word : Ideal.ofBits .f32 0x3F800000#32 = 1 := by
  simp [Ideal.ofBits, Ideal.ieee]
  rw [← EReal.coe_mul, ← EReal.coe_one]
  congr 1
  norm_num

/-- The f32 word 0x3D000000 denotes a real. -/
theorem scale_real : ∃ x : ℝ, Ideal.ofBits .f32 0x3D000000#32 = (x : EReal) := by
  simp [Ideal.ofBits, Ideal.ieee]
  exact ⟨_, (EReal.coe_mul _ _).symm⟩

end Cert.OnlineSoftmax
-- ==== Proof.Flash.Online.lean ====
/-
  The attention call at the extended reals: the scratch contents after each key/value block are the online
  softmax's running maximum, denominator and accumulator over the key rows met so far, and the output array
  holds, for every query row and output lane, the softmax-weighted sum of the value rows times the constant.

  Fix a batch `b`, a query tile `qi`, a row `r` of the tile (query row q = 512·qi + r) and an output lane `d`.
  Key row s = 256·ki + j is row `j` of key/value block `ki`; its score is Σ_k Q(q,k)·K(s,k), the queries in
  lanes 0…1023 and the keys in lanes 1024…2047 of the fused projection array. By induction on `ki` the three
  scratch entries of row `r` after block `ki` are the online recurrence's state after `ki + 1` blocks; at the
  last block the stored output is accumulator / denominator · constant, which is the plain softmax sum when
  every score and value is finite.
-/
import proofs.«133897_j52853867545194_2_alg».proof.Proof.Gen.KernelIdeal.Launch
import proofs.«133897_j52853867545194_2_alg».proof.Proof.Gen.KernelIdeal.Skeleton
import proofs.«133897_j52853867545194_2_alg».proof.Proof.Gen.KernelIdeal.Points
import proofs.«133897_j52853867545194_2_alg».proof.Proof.Flash.Steps
import proofs.«133897_j52853867545194_2_alg».proof.Proof.Flash.StepIdeal
import proofs.«133897_j52853867545194_2_alg».proof.Proof.Flash.Blocks
import proofs.«133897_j52853867545194_2_alg».proof.Proof.LibOnlineSoftmax
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-- Query row `q`, key row `s` and value row `s` of batch `b`, read off the arrays the call is entered with. -/
def qRow (c : Dev nD) (b : Fin 4) (q : Fin 2048) (k : Fin 1024) : EReal :=
  (V c main_v7 : S4x2048x2048.Idx → EReal) (ix3 b q (⟨k.val, by have := k.isLt; omega⟩ : Fin 2048))
def kRow (c : Dev nD) (b : Fin 4) (s : Fin 2048) (k : Fin 1024) : EReal :=
  (V c main_v7 : S4x2048x2048.Idx → EReal) (ix3 b s (⟨1024 + k.val, by have := k.isLt; omega⟩ : Fin 2048))
def vRow (c : Dev nD) (b : Fin 4) (s : Fin 2048) (d : Fin 1024) : EReal :=
  (V c main_v8 : S4x2048x1024.Idx → EReal) (ix3 b s d)
/-- The score of query row `q` against key row `s`, and the value row's lane `d`, indexed by the flat key row. -/
def scoreRow (c : Dev nD) (b : Fin 4) (q : Fin 2048) (s : Fin (8 * 256)) : EReal :=
  ∑ k : Fin 1024, qRow V c b q k * kRow V c b (⟨s.val, by have := s.isLt; omega⟩ : Fin 2048) k
def valRow (c : Dev nD) (b : Fin 4) (d : Fin 1024) (s : Fin (8 * 256)) : EReal :=
  vRow V c b (⟨s.val, by have := s.isLt; omega⟩ : Fin 2048) d

/-- The grid point of batch `b`, query tile `qi`, key/value block `ki`. -/
def pt (b qi : Fin 4) (ki : Fin 8) : Fin cfg2.N :=
  ⟨32 * b.val + 8 * qi.val + ki.val, lt_of_lt_of_eq (by have := b.isLt; have := qi.isLt; have := ki.isLt; omega : 32 * b.val + 8 * qi.val + ki.val < 128) N_2.symm⟩

theorem pt_val (b qi : Fin 4) (ki : Fin 8) : (pt b qi ki).val = 32 * b.val + 8 * qi.val + ki.val := rfl

/-- The query row of tile `qi`'s row `r`. -/
def qOf (qi : Fin 4) (r : Fin 512) : Fin 2048 := ⟨512 * qi.val + r.val, by have := qi.isLt; have := r.isLt; omega⟩

/-- A block's scores are the flat scores of its key rows. -/
theorem sc_eq (c : Dev nD) (b qi : Fin 4) (ki : Fin 8) (r : Fin 512) (j : Fin 256) :
    sc (blk V c 0 (pt b qi ki)) (blk V c 1 (pt b qi ki)) r j = scoreRow V c b (qOf qi r) (finProdFinEquiv (ki, j)) := by
  unfold sc scoreRow qRow kRow
  refine Finset.sum_congr rfl fun k _ => ?_
  rw [blkQ_apply V c (pt b qi ki) r k, blkK_apply V c (pt b qi ki) j k]
  have hb := b.isLt; have hq := qi.isLt; have hk := ki.isLt; have hr := r.isLt; have hj := j.isLt
  have e1 : ((pt b qi ki).val / 32) = b.val := by rw [pt_val]; omega
  have e2 : 512 * ((pt b qi ki).val / 8 % 4) + r.val = (qOf qi r).val := by rw [pt_val]; unfold qOf; simp only []; omega
  have e3 : 256 * ((pt b qi ki).val % 8) + j.val = (finProdFinEquiv (ki, j) : Fin (8 * 256)).val := by
    rw [pt_val, finProdFinEquiv_apply_val]; simp only []; omega
  congr 2
  · exact congrArg₂ (fun x y => ix3 x y (⟨k.val, by have := k.isLt; omega⟩ : Fin 2048)) (Fin.ext e1) (Fin.ext e2)
  · exact congrArg₂ (fun x y => ix3 x y (⟨1024 + k.val, by have := k.isLt; omega⟩ : Fin 2048)) (Fin.ext e1) (Fin.ext e3)

/-- A block's value rows are the flat value rows. -/
theorem v_eq (c : Dev nD) (b qi : Fin 4) (ki : Fin 8) (j : Fin 256) (d : Fin 1024) :
    (blk V c 2 (pt b qi ki) : S1x256x1024.Idx → EReal) (ix3 (0 : Fin 1) j d) = valRow V c b d (finProdFinEquiv (ki, j)) := by
  unfold valRow vRow
  rw [blkV_apply V c (pt b qi ki) j d]
  have hb := b.isLt; have hq := qi.isLt; have hk := ki.isLt; have hj := j.isLt
  have e1 : ((pt b qi ki).val / 32) = b.val := by rw [pt_val]; omega
  have e3 : 256 * ((pt b qi ki).val % 8) + j.val = (finProdFinEquiv (ki, j) : Fin (8 * 256)).val := by
    rw [pt_val, finProdFinEquiv_apply_val]; simp only []; omega
  exact congrArg _ (congrArg₂ (fun x y => ix3 x y d) (Fin.ext e1) (Fin.ext e3))

/-- One step on the blocks of a point, at row `r` and lane `d`, is the online recurrence's step. -/
theorem stepAt_apply (c : Dev nD) (b qi : Fin 4) (ki : Fin 8) (r : Fin 512) (d : Fin 1024) (s : Scr Ideal) :
    ((stepAt V c (pt b qi ki) s).1 (ix3 (0 : Fin 1) r (0 : Fin 1)), (stepAt V c (pt b qi ki) s).2.1 (ix3 (0 : Fin 1) r (0 : Fin 1)),
      (stepAt V c (pt b qi ki) s).2.2 (ix3 (0 : Fin 1) r d))
    = Cert.OnlineSoftmax.step (fun j => scoreRow V c b (qOf qi r) (finProdFinEquiv (ki, j))) (fun j => valRow V c b d (finProdFinEquiv (ki, j)))
        (s.1 (ix3 (0 : Fin 1) r (0 : Fin 1)), s.2.1 (ix3 (0 : Fin 1) r (0 : Fin 1)), s.2.2 (ix3 (0 : Fin 1) r d)) := by
  unfold stepAt Cert.OnlineSoftmax.step
  dsimp only
  rw [stepL_apply, stepA_apply, stepM_apply]
  simp only [sc_eq V c b qi ki r, v_eq V c b qi ki]

theorem scr_congr (c : Dev nD) {n n' : ℕ} (e : n = n') (h : n < cfg2.N) (h' : n' < cfg2.N) : scr V c n h = scr V c n' h' := by
  subst e; rfl

/-- The scratch entries of row `r` (and lane `d`) after key/value block `ki` of the tile are the online recurrence's
    state after `ki + 1` blocks. -/
theorem scr_run (c : Dev nD) (b qi : Fin 4) (r : Fin 512) (d : Fin 1024) : ∀ (ki : ℕ) (hk : ki < 8),
    ((scr V c (pt b qi ⟨ki, hk⟩).val (pt b qi ⟨ki, hk⟩).isLt).1 (ix3 (0 : Fin 1) r (0 : Fin 1)),
      (scr V c (pt b qi ⟨ki, hk⟩).val (pt b qi ⟨ki, hk⟩).isLt).2.1 (ix3 (0 : Fin 1) r (0 : Fin 1)),
      (scr V c (pt b qi ⟨ki, hk⟩).val (pt b qi ⟨ki, hk⟩).isLt).2.2 (ix3 (0 : Fin 1) r d))
    = Cert.OnlineSoftmax.run (n := 8) (w := 256) (fun i j => scoreRow V c b (qOf qi r) (finProdFinEquiv (i, j)))
        (fun i j => valRow V c b d (finProdFinEquiv (i, j))) (ki + 1) (by omega)
  | 0, hk => by
    have h0 : (pt b qi ⟨0, hk⟩).val % 8 = 0 := by rw [pt_val]; simp only []; omega
    rw [scr_first' V c _ h0, stepAt_apply]
    unfold scr0; dsimp only
    rw [reset_m, reset_l, reset_a]
    rfl
  | ki + 1, hk => by
    have h1 : ¬(pt b qi ⟨ki + 1, hk⟩).val % 8 = 0 := by rw [pt_val]; simp only []; omega
    have hz : (pt b qi ⟨ki + 1, hk⟩).val ≠ 0 := by rw [pt_val]; simp only []; omega
    have hp : prev V c (pt b qi ⟨ki + 1, hk⟩) = scr V c (pt b qi ⟨ki, by omega⟩).val (pt b qi ⟨ki, by omega⟩).isLt := by
      unfold prev; rw [dif_neg hz]
      exact scr_congr V c (by rw [pt_val, pt_val]; simp only []; omega) _ _
    rw [scr_next' V c _ h1, stepAt_apply, hp, scr_run c b qi r d ki (by omega)]
    rfl

/-- THE ATTENTION CALL'S OUTPUT at query row 512·qi + r, lane d: the softmax over all 2048 key rows of the scores,
    times the constant, against the value rows — when every score and value of the row is finite. -/
theorem flash_final (c : Dev nD) (b qi : Fin 4) (r : Fin 512) (d : Fin 1024)
    (hT : ∀ s, ∃ x : ℝ, scoreRow V c b (qOf qi r) s = (x : EReal)) (hV : ∀ s, ∃ x : ℝ, valRow V c b d s = (x : EReal)) :
    ((dat V c).arrAt 3 cfg2.N : S4x2048x1024.Idx → EReal) (ix3 b (qOf qi r) d)
      = ∑ s : Fin (8 * 256), (Ideal.div (Ideal.exp (scoreRow V c b (qOf qi r) s - (Finset.univ : Finset (Fin (8 * 256))).fold max ⊥ (scoreRow V c b (qOf qi r))))
            (∑ s' : Fin (8 * 256), Ideal.exp (scoreRow V c b (qOf qi r) s' - (Finset.univ : Finset (Fin (8 * 256))).fold max ⊥ (scoreRow V c b (qOf qi r))))
          * Ideal.ofBits .f32 0x3D000000#32) * valRow V c b d s := by
  have h7 : (pt b qi ⟨7, by omega⟩).val % 8 = 7 := by rw [pt_val]; simp only []; omega
  have hfin : ((dat V c).arrAt 3 cfg2.N : S4x2048x1024.Idx → EReal) (ix3 b (qOf qi r) d)
      = (outAt V c (pt b qi ⟨7, by omega⟩) : S1x512x1024.Idx → EReal) (ix3 (0 : Fin 1) r d) := final_apply V c b qi r d
  rw [hfin, outAt' V c _ h7, finish_apply]
  have hrun := scr_run V c b qi r d 7 (by omega)
  rw [show (scr V c (pt b qi ⟨7, by omega⟩).val (pt b qi ⟨7, by omega⟩).isLt).2.1 (ix3 (0 : Fin 1) r (0 : Fin 1)) = _ from congrArg (·.2.1) hrun,
    show (scr V c (pt b qi ⟨7, by omega⟩).val (pt b qi ⟨7, by omega⟩).isLt).2.2 (ix3 (0 : Fin 1) r d) = _ from congrArg (·.2.2) hrun]
  exact Cert.OnlineSoftmax.final (n := 8) (w := 256) (by omega) (by omega) _ _ hT hV _ Cert.OnlineSoftmax.scale_real

end Cert.KernelIdeal.Flash

end
-- ==== Proof.Finite.lean ====
/-
  Finiteness of the argument arrays. The precondition says that, for each of the seven argument arrays,
  the conjunction over all entries of "|x| < +infinity" is true, and that the seven results conjoined are
  true. Read at the extended reals, |x| is max x (-x) and +infinity is the top element, so each entry is
  neither the bottom nor the top element: it is a real number.
-/
import proofs.«133897_j52853867545194_2_alg».proof.Defs
import proofs.«133897_j52853867545194_2_alg».proof.Proof.Gen.Pre_finite_inputs
import Idealize.ShloMosaic.Lib.ReduceAll
import Idealize.ShloMosaic.Lib.ValueIdx

noncomputable section

namespace Cert.KernelIdeal.Finite

open Idealize.ShloMosaic Idealize.SL.Sem Idealize.ShloMosaic.ValueIdx

/-- The shape of a scalar has exactly one index. -/
instance subsingleton_scalarIdx : Subsingleton Cert.Pre_finite_inputs.S_.Idx :=
  ⟨fun a b => funext fun d => d.elim0⟩

/-- The f32 word with all exponent bits set and no fraction bit is the top element. -/
theorem ofBits_inf : Ideal.ofBits .f32 0x7F800000#32 = (⊤ : EReal) := by
  simp [Ideal.ofBits, Ideal.ieee]

/-- An extended real whose absolute value max x (-x) compares strictly below +infinity is a real:
    at the bottom element -x is the top element, at the top element x itself is, and top < top is false. -/
theorem real_of_abs_lt_inf (x : EReal)
    (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

/-- One array: if the conjunction over all entries of "|a i| < +infinity" is true, every entry is a real. -/
theorem entries_real {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf a)
            (broadcastInDim s ![] hb (constant (F := Ideal) Cert.Pre_finite_inputs.S_ .f32 0x7F800000#32)))
          (constantI Cert.Pre_finite_inputs.S_ 1 1#1) hr hu ix0 = 1#1) :
    ∀ i, ∃ x : ℝ, a i = (x : EReal) := fun i =>
  real_of_abs_lt_inf (a i) (Host.reduce_andi_all _ _ hr hu ix0 e i)

/-- A conjunction of two scalar truth values that is true has both true. -/
theorem and_scalar {x y : IVec Cert.Pre_finite_inputs.S_ 1} (h : andi x y ix0 = 1#1) :
    x ix0 = 1#1 ∧ y ix0 = 1#1 := IntOp.andi_eq_one.1 h

/-- Under the precondition every entry of each of the seven argument arrays is a real number. -/
theorem args [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ x : ℝ, (m ((c.tc : Thread Cert.KernelIdeal.nD Cert.KernelIdeal.τ).loc Cert.KernelIdeal.main_arg0) : Cert.KernelIdeal.S4x2048x1024.Idx → EReal) i = (x : EReal))
    ∧ (∀ i, ∃ x : ℝ, (m ((c.tc : Thread Cert.KernelIdeal.nD Cert.KernelIdeal.τ).loc Cert.KernelIdeal.main_arg1) : Cert.KernelIdeal.S1024x1024.Idx → EReal) i = (x : EReal))
    ∧ (∀ i, ∃ x : ℝ, (m ((c.tc : Thread Cert.KernelIdeal.nD Cert.KernelIdeal.τ).loc Cert.KernelIdeal.main_arg2) : Cert.KernelIdeal.S1024.Idx → EReal) i = (x : EReal))
    ∧ (∀ i, ∃ x : ℝ, (m ((c.tc : Thread Cert.KernelIdeal.nD Cert.KernelIdeal.τ).loc Cert.KernelIdeal.main_arg3) : Cert.KernelIdeal.S1024x1024.Idx → EReal) i = (x : EReal))
    ∧ (∀ i, ∃ x : ℝ, (m ((c.tc : Thread Cert.KernelIdeal.nD Cert.KernelIdeal.τ).loc Cert.KernelIdeal.main_arg4) : Cert.KernelIdeal.S1024.Idx → EReal) i = (x : EReal))
    ∧ (∀ i, ∃ x : ℝ, (m ((c.tc : Thread Cert.KernelIdeal.nD Cert.KernelIdeal.τ).loc Cert.KernelIdeal.main_arg5) : Cert.KernelIdeal.S1024x1024.Idx → EReal) i = (x : EReal))
    ∧ (∀ i, ∃ x : ℝ, (m ((c.tc : Thread Cert.KernelIdeal.nD Cert.KernelIdeal.τ).loc Cert.KernelIdeal.main_arg6) : Cert.KernelIdeal.S1024.Idx → EReal) i = (x : EReal)) := by
  have h0 := congrFun (h c) ix0
  dsimp only [Cert.Pre_finite_inputs.fn, Cert.Pre_finite_inputs.fn_part1] at h0
  obtain ⟨h5, e6⟩ := and_scalar h0
  obtain ⟨h4, e5⟩ := and_scalar h5
  obtain ⟨h3, e4⟩ := and_scalar h4
  obtain ⟨h2, e3⟩ := and_scalar h3
  obtain ⟨h1, e2⟩ := and_scalar h2
  obtain ⟨e0, e1⟩ := and_scalar h1
  exact ⟨entries_real _ _ _ _ e0, entries_real _ _ _ _ e1, entries_real _ _ _ _ e2, entries_real _ _ _ _ e3,
    entries_real _ _ _ _ e4, entries_real _ _ _ _ e5, entries_real _ _ _ _ e6⟩

end Cert.KernelIdeal.Finite

end
-- ==== Proof.Algebraic.lean ====
/-
  The idealized kernel's result array is the specification's attention output, entry by entry, on finite inputs.

  The scores and value rows the attention call works on are the specification's (the entry arrays are the three
  projections); on finite inputs every projection entry, hence every score, is a real number, which is what the
  online-softmax identity needs; and a sum or a fold over the eight key/value blocks of 256 rows is the same sum or
  fold over the 2048 key rows.
-/
import proofs.«133897_j52853867545194_2_alg».proof.Proof.Gen.KernelIdeal.Launch
import proofs.«133897_j52853867545194_2_alg».proof.Proof.Gen.KernelIdeal.Skeleton
import proofs.«133897_j52853867545194_2_alg».proof.Proof.Gen.KernelIdeal.Points
import proofs.«133897_j52853867545194_2_alg».proof.Proof.RowValue
import proofs.«133897_j52853867545194_2_alg».proof.Proof.Flash.Online
import proofs.«133897_j52853867545194_2_alg».proof.Proof.Finite
import proofs.«133897_j52853867545194_2_alg».proof.Proof.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-! ## Reals are closed under the operations of a projection and a score -/

theorem real_add {x y : EReal} (hx : ∃ a : ℝ, x = (a : EReal)) (hy : ∃ a : ℝ, y = (a : EReal)) : ∃ a : ℝ, x + y = (a : EReal) := by
  obtain ⟨a, rfl⟩ := hx; obtain ⟨b, rfl⟩ := hy; exact ⟨a + b, (EReal.coe_add a b).symm⟩
theorem real_mul {x y : EReal} (hx : ∃ a : ℝ, x = (a : EReal)) (hy : ∃ a : ℝ, y = (a : EReal)) : ∃ a : ℝ, x * y = (a : EReal) := by
  obtain ⟨a, rfl⟩ := hx; obtain ⟨b, rfl⟩ := hy; exact ⟨a * b, (EReal.coe_mul a b).symm⟩
theorem real_sum {ι : Type} (s : Finset ι) (f : ι → EReal) (h : ∀ i, ∃ a : ℝ, f i = (a : EReal)) : ∃ a : ℝ, ∑ i ∈ s, f i = (a : EReal) := by
  classical
  induction s using Finset.induction_on with
  | empty => exact ⟨0, by simp⟩
  | insert i s hi ih => rw [Finset.sum_insert hi]; exact real_add (h i) ih

theorem proj_real (x : Cert.Spec.Arr3) (w : Cert.Spec.Arr2) (bias : Cert.Spec.Arr1)
    (hx : ∀ i, ∃ a : ℝ, x i = (a : EReal)) (hw : ∀ i, ∃ a : ℝ, w i = (a : EReal)) (hb : ∀ i, ∃ a : ℝ, bias i = (a : EReal))
    (b : Fin 4) (s : Fin 2048) (k : Fin 1024) : ∃ a : ℝ, Cert.Spec.proj x w bias b s k = (a : EReal) := by
  unfold Cert.Spec.proj
  exact real_add (real_sum _ _ fun j => real_mul (hx _) (hw _)) (hb _)

/-! ## The attention call's rows are the specification's -/

theorem scoreRow_eq (c : Dev nD) (b : Fin 4) (q : Fin 2048) (s : Fin (8 * 256)) :
    Flash.scoreRow (V4 m ρ) c b q s
      = Cert.Spec.score (aX m c) (aWq m c) (aBq m c) (aWk m c) (aBk m c) b q (⟨s.val, by have := s.isLt; omega⟩ : Fin 2048) := by
  unfold Flash.scoreRow Flash.qRow Flash.kRow Cert.Spec.score
  refine Finset.sum_congr rfl fun k _ => ?_
  rw [q_entry m ρ c b q k, k_entry m ρ c b _ k]

theorem valRow_eq (c : Dev nD) (b : Fin 4) (d : Fin 1024) (s : Fin (8 * 256)) :
    Flash.valRow (V4 m ρ) c b d s = Cert.Spec.proj (aX m c) (aWv m c) (aBv m c) b (⟨s.val, by have := s.isLt; omega⟩ : Fin 2048) d := by
  unfold Flash.valRow Flash.vRow
  exact v_entry m ρ c b _ d

/-- THE KERNEL'S VALUE: on finite inputs the result array is the specification's output. -/
theorem kernel_value [hP : Cert.Pre_finite_inputs.Facts] (hpre : Cert.Pre_KernelIdeal m) (c : Dev nD) (b : Fin 4) (q : Fin 2048) (d : Fin 1024) :
    ((Flash.dat (V4 m ρ) c).arrAt 3 cfg2.N : S4x2048x1024.Idx → EReal) (ix3 b q d)
      = Cert.Spec.out (aX m c) (aWq m c) (aBq m c) (aWk m c) (aBk m c) (aWv m c) (aBv m c) b q d := by
  obtain ⟨h0, h1, h2, h3, h4, h5, h6⟩ := Cert.KernelIdeal.Finite.args m hpre c
  have hq := q.isLt
  have hqe : q = Flash.qOf (⟨q.val / 512, by omega⟩ : Fin 4) (⟨q.val % 512, by omega⟩ : Fin 512) := Fin.ext (by unfold Flash.qOf; simp only []; omega)
  have hT : ∀ s, ∃ a : ℝ, Flash.scoreRow (V4 m ρ) c b q s = (a : EReal) := fun s => by
    rw [scoreRow_eq]; unfold Cert.Spec.score
    exact real_sum _ _ fun k => real_mul (proj_real _ _ _ h0 h1 h2 _ _ _) (proj_real _ _ _ h0 h3 h4 _ _ _)
  have hV : ∀ s, ∃ a : ℝ, Flash.valRow (V4 m ρ) c b d s = (a : EReal) := fun s => by
    rw [valRow_eq]; exact proj_real _ _ _ h0 h5 h6 _ _ _
  have hTe : Flash.scoreRow (V4 m ρ) c b q
      = fun s : Fin (8 * 256) => Cert.Spec.score (aX m c) (aWq m c) (aBq m c) (aWk m c) (aBk m c) b q (⟨s.val, by have := s.isLt; omega⟩ : Fin 2048) :=
    funext (scoreRow_eq m ρ c b q)
  have hVe : Flash.valRow (V4 m ρ) c b d
      = fun s : Fin (8 * 256) => Cert.Spec.proj (aX m c) (aWv m c) (aBv m c) b (⟨s.val, by have := s.isLt; omega⟩ : Fin 2048) d :=
    funext (valRow_eq m ρ c b d)
  have key := Flash.flash_final (V4 m ρ) c b (⟨q.val / 512, by omega⟩ : Fin 4) (⟨q.val % 512, by omega⟩ : Fin 512) d
    (by rw [← hqe]; exact hT) (by exact hV)
  rw [← hqe, hTe] at key
  simp only [hVe] at key
  rw [key]
  rfl

end Cert.KernelIdeal.Run

end
-- ==== Proof.lean ====
/-
  The certificate's five claims.

  The three frames: the printed kernel (read at the machine words) and its idealization (read at the extended
  reals) run as five segments — host layout operations, the two projection calls, two reshapes, the attention
  call — and no segment writes an argument array; the reference is a straight line of host operations. The
  idealization rewrote nothing, so `preserves` has no conjunct. The algebraic claim: at the extended reals the
  kernel's blockwise, rescaled (online) softmax over eight key/value blocks per query tile and the reference's
  plain softmax are one function of the finite inputs.
-/
import proofs.«133897_j52853867545194_2_alg».proof.Defs
import proofs.«133897_j52853867545194_2_alg».proof.Proof.Gen.Kernel
import proofs.«133897_j52853867545194_2_alg».proof.Proof.Gen.KernelIdeal
import proofs.«133897_j52853867545194_2_alg».proof.Proof.Gen.ReferenceIdeal
import proofs.«133897_j52853867545194_2_alg».proof.Proof.Gen.Pre_finite_inputs
import proofs.«133897_j52853867545194_2_alg».proof.Proof.Frame
import proofs.«133897_j52853867545194_2_alg».proof.Proof.Bits.Frame
import proofs.«133897_j52853867545194_2_alg».proof.Proof.RefValue
import proofs.«133897_j52853867545194_2_alg».proof.Proof.Algebraic
import Idealize.ShloMosaic.Adequacy
import Idealize.ShloMosaic.Init

noncomputable section

namespace Cert.Proof

open Idealize.ShloMosaic Idealize.SL.Sem

theorem frame_k [Cert.Kernel.Facts] [Cert.Pre_finite_inputs.Facts] : Cert.frame_Kernel :=
  fun m ρ _ => Cert.Kernel.Run.frame (F := Bits) m ρ
theorem frame_ki [Cert.KernelIdeal.Facts] [Cert.Pre_finite_inputs.Facts] : Cert.frame_KernelIdeal :=
  fun m ρ _ => Cert.KernelIdeal.Run.frame (F := Ideal) m ρ
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the specification's attention output of the (agreeing, finite) arguments: the kernel's by the
    online-softmax identity over its eight key/value blocks, the reference's by reading its operations one at a time. -/
theorem algebraic [Cert.KernelIdeal.Facts] [Cert.ReferenceIdeal.Facts] [Cert.Pre_finite_inputs.Facts] : Cert.algebraic_KernelIdeal_ReferenceIdeal := by
  intro m ρ m' ρ' hpre hagree
  refine ⟨fun c => (Cert.KernelIdeal.Flash.dat (Cert.KernelIdeal.Run.V4 m ρ) c).arrAt 3 Cert.KernelIdeal.cfg2.N,
    Cert.KernelIdeal.Run.run_value (F := Ideal) m ρ, ?_⟩
  refine (θ_run Cert.ReferenceIdeal.defs _ _).mono (fun r h c => ⟨?_, (h c).2⟩) (Cert.ReferenceIdeal.RefValue.run m' ρ')
  have key : ∀ (b : Fin 4) (q : Fin 2048) (d : Fin 1024),
      (r.2.mem ((c.tc : Thread Cert.ReferenceIdeal.nD Cert.ReferenceIdeal.τ).loc Cert.ReferenceIdeal.main_v26) : Cert.ReferenceIdeal.S4x2048x1024.Idx → EReal) (ValueIdx.ix3 b q d)
        = ((Cert.KernelIdeal.Flash.dat (Cert.KernelIdeal.Run.V4 m ρ) c).arrAt 3 Cert.KernelIdeal.cfg2.N : Cert.KernelIdeal.S4x2048x1024.Idx → EReal) (ValueIdx.ix3 b q d) := fun b q d => by
    rw [(h c).1 b q d, Cert.KernelIdeal.Run.kernel_value m ρ hpre c b q d,
      (hagree c).1, (hagree c).2.1, (hagree c).2.2.1, (hagree c).2.2.2.1, (hagree c).2.2.2.2.1, (hagree c).2.2.2.2.2.1, (hagree c).2.2.2.2.2.2]
  funext i
  rw [ValueIdx.eq_ix3 i]
  exact key _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
